-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1 : Shape := ⟨1, ![1]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_arg6 : FVec F S1024x1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S2x2048x1024 .f32) (main_arg1 : IVec S1 32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_v13 main_v16
-- ==== Kernel.lean ====
abbrev S2x2048x1024 : Shape := ⟨3, ![2, 2048, 1024]⟩
abbrev S1 : Shape := ⟨1, ![1]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S4096x1024 : Shape := ⟨2, ![4096, 1024]⟩
abbrev S1x3072 : Shape := ⟨2, ![1, 3072]⟩
abbrev S4096x3072 : Shape := ⟨2, ![4096, 3072]⟩
abbrev S512x1024 : Shape := ⟨2, ![512, 1024]⟩
abbrev S1x512 : Shape := ⟨2, ![1, 512]⟩
abbrev S1024x512 : Shape := ⟨2, ![1024, 512]⟩
abbrev S256x1024 : Shape := ⟨2, ![256, 1024]⟩
abbrev S2048x1024 : Shape := ⟨2, ![2048, 1024]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1, .i32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S3072x1024, .f32⟩
  | .hbm, ⟨9, _⟩ => ⟨S3072, .f32⟩
  | .hbm, ⟨10, _⟩ => ⟨S4096x1024, .f32⟩
  | .hbm, ⟨11, _⟩ => ⟨S1x3072, .f32⟩
  | .hbm, ⟨12, _⟩ => ⟨S4096x3072, .bf16⟩
  | .hbm, ⟨13, _⟩ => ⟨S4096x1024, .f32⟩
  | .hbm, ⟨14, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S256x1024, .bf16⟩
  | .local _ .vmem, ⟨9, _⟩ => ⟨S256x1024, .bf16⟩
  | .local _ .vmem, ⟨10, _⟩ => ⟨S2048x1024, .bf16⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S256x1024, .f32⟩
  | .local _ .vmem, ⟨15, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x1024_S1024x1024_S1024x1024_S3072x1024_d0 : Shape.Concatenates [S1024x1024, S1024x1024, S1024x1024] S3072x1024 0
  concatenates_S1024_S1024_S1024_S3072_d0 : Shape.Concatenates [S1024, S1024, S1024] S3072 0
  shapeCasts_S2x2048x1024_S4096x1024 : S2x2048x1024.ShapeCasts S4096x1024
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S256x1024_o0_0_S256x64 : S256x1024.Slices ![0, 0] S256x64
  slices_S2048x1024_o0_0_S2048x64 : S2048x1024.Slices ![0, 0] S2048x64
  reduces_S256x2048_S256 : S256x2048.Reduces [1] S256
  shapeCasts_S256_S256x1 : S256.ShapeCasts S256x1
  broadcasts_S256x1_S256x2048 : S256x1.Broadcasts S256x2048
  inb_S256x1024_S256x64_0_0 : ∀ a, (![0, 0] : Fin 2 → Nat) a + S256x64.size a ≤ S256x1024.size a
  h_S256x64 : 0 < S256x64.numel
  slices_S256x1024_o0_64_S256x64 : S256x1024.Slices ![0, 64] S256x64
  slices_S2048x1024_o0_64_S2048x64 : S2048x1024.Slices ![0, 64] S2048x64
  inb_S256x1024_S256x64_0_64 : ∀ a, (![0, 64] : Fin 2 → Nat) a + S256x64.size a ≤ S256x1024.size a
  slices_S256x1024_o0_128_S256x64 : S256x1024.Slices ![0, 128] S256x64
  slices_S2048x1024_o0_128_S2048x64 : S2048x1024.Slices ![0, 128] S2048x64
  inb_S256x1024_S256x64_0_128 : ∀ a, (![0, 128] : Fin 2 → Nat) a + S256x64.size a ≤ S256x1024.size a
  slices_S256x1024_o0_192_S256x64 : S256x1024.Slices ![0, 192] S256x64
  slices_S2048x1024_o0_192_S2048x64 : S2048x1024.Slices ![0, 192] S2048x64
  inb_S256x1024_S256x64_0_192 : ∀ a, (![0, 192] : Fin 2 → Nat) a + S256x64.size a ≤ S256x1024.size a
  slices_S256x1024_o0_256_S256x64 : S256x1024.Slices ![0, 256] S256x64
  slices_S2048x1024_o0_256_S2048x64 : S2048x1024.Slices ![0, 256] S2048x64
  inb_S256x1024_S256x64_0_256 : ∀ a, (![0, 256] : Fin 2 → Nat) a + S256x64.size a ≤ S256x1024.size a
  slices_S256x1024_o0_320_S256x64 : S256x1024.Slices ![0, 320] S256x64
  slices_S2048x1024_o0_320_S2048x64 : S2048x1024.Slices ![0, 320] S2048x64
  inb_S256x1024_S256x64_0_320 : ∀ a, (![0, 320] : Fin 2 → Nat) a + S256x64.size a ≤ S256x1024.size a
  slices_S256x1024_o0_384_S256x64 : S256x1024.Slices ![0, 384] S256x64
  slices_S2048x1024_o0_384_S2048x64 : S2048x1024.Slices ![0, 384] S2048x64
  inb_S256x1024_S256x64_0_384 : ∀ a, (![0, 384] : Fin 2 → Nat) a + S256x64.size a ≤ S256x1024.size a
  slices_S256x1024_o0_448_S256x64 : S256x1024.Slices ![0, 448] S256x64
  slices_S2048x1024_o0_448_S2048x64 : S2048x1024.Slices ![0, 448] S2048x64
  inb_S256x1024_S256x64_0_448 : ∀ a, (![0, 448] : Fin 2 → Nat) a + S256x64.size a ≤ S256x1024.size a
  slices_S256x1024_o0_512_S256x64 : S256x1024.Slices ![0, 512] S256x64
  slices_S2048x1024_o0_512_S2048x64 : S2048x1024.Slices ![0, 512] S2048x64
  inb_S256x1024_S256x64_0_512 : ∀ a, (![0, 512] : Fin 2 → Nat) a + S256x64.size a ≤ S256x1024.size a
  slices_S256x1024_o0_576_S256x64 : S256x1024.Slices ![0, 576] S256x64
  slices_S2048x1024_o0_576_S2048x64 : S2048x1024.Slices ![0, 576] S2048x64
  inb_S256x1024_S256x64_0_576 : ∀ a, (![0, 576] : Fin 2 → Nat) a + S256x64.size a ≤ S256x1024.size a
  slices_S256x1024_o0_640_S256x64 : S256x1024.Slices ![0, 640] S256x64
  slices_S2048x1024_o0_640_S2048x64 : S2048x1024.Slices ![0, 640] S2048x64
  inb_S256x1024_S256x64_0_640 : ∀ a, (![0, 640] : Fin 2 → Nat) a + S256x64.size a ≤ S256x1024.size a
  slices_S256x1024_o0_704_S256x64 : S256x1024.Slices ![0, 704] S256x64
  slices_S2048x1024_o0_704_S2048x64 : S2048x1024.Slices ![0, 704] S2048x64
  inb_S256x1024_S256x64_0_704 : ∀ a, (![0, 704] : Fin 2 → Nat) a + S256x64.size a ≤ S256x1024.size a
  slices_S256x1024_o0_768_S256x64 : S256x1024.Slices ![0, 768] S256x64
  slices_S2048x1024_o0_768_S2048x64 : S2048x1024.Slices ![0, 768] S2048x64
  inb_S256x1024_S256x64_0_768 : ∀ a, (![0, 768] : Fin 2 → Nat) a + S256x64.size a ≤ S256x1024.size a
  slices_S256x1024_o0_832_S256x64 : S256x1024.Slices ![0, 832] S256x64
  slices_S2048x1024_o0_832_S2048x64 : S2048x1024.Slices ![0, 832] S2048x64
  inb_S256x1024_S256x64_0_832 : ∀ a, (![0, 832] : Fin 2 → Nat) a + S256x64.size a ≤ S256x1024.size a
  slices_S256x1024_o0_896_S256x64 : S256x1024.Slices ![0, 896] S256x64
  slices_S2048x1024_o0_896_S2048x64 : S2048x1024.Slices ![0, 896] S2048x64
  inb_S256x1024_S256x64_0_896 : ∀ a, (![0, 896] : Fin 2 → Nat) a + S256x64.size a ≤ S256x1024.size a
  slices_S256x1024_o0_960_S256x64 : S256x1024.Slices ![0, 960] S256x64
  slices_S2048x1024_o0_960_S2048x64 : S2048x1024.Slices ![0, 960] S2048x64
  inb_S256x1024_S256x64_0_960 : ∀ a, (![0, 960] : Fin 2 → Nat) a + S256x64.size a ≤ S256x1024.size a
  shapeCasts_S4096x1024_S2x2048x1024 : S4096x1024.ShapeCasts S2x2048x1024
  dot_S1024x1024_S512x1024_S1024x512_1_1_0_0_n_n_wf : DotDims.WF S1024x1024 S512x1024 S1024x512 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S3072x1024.size a
  hwx0_1 : ∀ i : grid0.Coords, EltTy.bits .f32 = 32 ∨ (Rect.block (s := S3072x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x3072.size a
  hwx0_2 : ∀ i : grid0.Coords, EltTy.bits .f32 = 32 ∨ (Rect.block (s := S1x3072) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x3072.size a
  hwx0_3 : ∀ i : grid0.Coords, EltTy.bits .bf16 = 32 ∨ (Rect.block (s := S4096x3072) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x3072.size a
  hwx1_0 : ∀ i : grid1.Coords, EltTy.bits .bf16 = 32 ∨ (Rect.block (s := S4096x3072) S256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S4096x3072.size a
  hwx1_1 : ∀ i : grid1.Coords, EltTy.bits .bf16 = 32 ∨ (Rect.block (s := S4096x3072) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S4096x3072.size a
  hwx1_2 : ∀ i : grid1.Coords, EltTy.bits .bf16 = 32 ∨ (Rect.block (s := S4096x3072) S2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S4096x1024.size a
  hwx1_3 : ∀ i : grid1.Coords, EltTy.bits .f32 = 32 ∨ (Rect.block (s := S4096x1024) S256x1024.size (cc1_transform_3 i) (hinb1_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S1 : Shape := ⟨1, ![1]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1, .i32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S2x2048x1024, .f32⟩
  | .hbm, ⟨9, _⟩ => ⟨S1x1x1024, .f32⟩
  | .hbm, ⟨10, _⟩ => ⟨S2x2048x1024, .f32⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S2x2048x1024, .f32⟩
  | .hbm, ⟨15, _⟩ => ⟨S1x1x1024, .f32⟩
  | .hbm, ⟨16, _⟩ => ⟨S2x2048x1024, .f32⟩
  | .hbm, ⟨17, _⟩ => ⟨S2x2048x1024, .f32⟩
  | .hbm, ⟨18, _⟩ => ⟨S2x2048x16x64, .f32⟩
  | .hbm, ⟨19, _⟩ => ⟨S2x16x2048x64, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S2x2048x16x64, .f32⟩
  | .hbm, ⟨25, _⟩ => ⟨S2x16x2048x64, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S_, .f32⟩
  | .hbm, ⟨30, _⟩ => ⟨S2x16x2048, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x2048, .f32⟩
  | .hbm, ⟨36, _⟩ => ⟨S_, .f32⟩
  | .hbm, ⟨37, _⟩ => ⟨S2x16x2048, .f32⟩
  | .hbm, ⟨38, _⟩ => ⟨S2x16x2048x1, .f32⟩
  | .hbm, ⟨39, _⟩ => ⟨S2x16x2048x2048, .f32⟩
  | .hbm, ⟨40, _⟩ => ⟨S2x16x2048x2048, .f32⟩
  | .hbm, ⟨41, _⟩ => ⟨S2x16x2048x64, .f32⟩
  | .hbm, ⟨42, _⟩ => ⟨S2x2048x16x64, .f32⟩
  | .hbm, ⟨43, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.K.Body0.lean ====
/-
  The projection kernel's body at one grid point: it reads its three input blocks whole — a [1024, 1024] block of the
  flattened input, a [512, 1024] block of the stacked weights, a [1, 512] block of the stacked bias —, and overwrites
  its whole [1024, 512] output block with one value computed from them (x·wᵀ + b); it also reads the output block
  before overwriting it and uses nothing of what it read.
-/
import proofs.«143152_j40097814675891_2_alg».proof.Proof.Gen.Kernel.Launch
import proofs.«143152_j40097814675891_2_alg».proof.Proof.Gen.Kernel.Skeleton
import proofs.«143152_j40097814675891_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body touches: each is the whole block -/

abbrev r0x : Rect S1024x1024 := Rect.unit (s := S1024x1024) ![0, 0] S1024x1024.size inb_S1024x1024_S1024x1024_0_0
abbrev r0w : Rect S512x1024 := Rect.unit (s := S512x1024) ![0, 0] S512x1024.size inb_S512x1024_S512x1024_0_0
abbrev r0b : Rect S1x512 := Rect.unit (s := S1x512) ![0, 0] S1x512.size inb_S1x512_S1x512_0_0
abbrev r0o : Rect S1024x512 := Rect.unit (s := S1024x512) ![0, 0] S1024x512.size inb_S1024x512_S1024x512_0_0

/-- What the body leaves in the output block, from the three input blocks: its one store, over the whole block. -/
def out0_3 (x0 : Vec F S1024x1024 .f32) (x1 : Vec F S512x1024 .f32) (x2 : Vec F S1x512 .f32) : Vec F S1024x512 .bf16 :=
  View.canon [⟨r0o, k0_pay1 (View.ld x0 r0x) (View.ld x1 r0w) (View.ld x2 r0b)⟩]

/-- The one store covers the block. -/
theorem cover0_3 (p0 : Vec F S1024x512 .bf16) (y : S1024x512.Idx) :
    ∃ pc ∈ ([⟨r0o, p0⟩] : List (View.Piece (Elt F) S1024x512 .bf16)), y ∈ pc.1.set :=
  View.cover_of_tiled [⟨r0o, p0⟩] S1024x512.size (by rfl) y

set_option maxHeartbeats 1000000 in
/-- The body on whole staging memrefs — the inputs' at contents x0, x1, x2, the output's at anything — runs to the
    continuation with the inputs as they were and the output at `out0_3` of them. -/
theorem sound_kernel0 (c : Dev nD) (E : Set ℕ) (i : grid0.Coords)
    (arg0 : Memref sig .tc .vmem S1024x1024 .f32) (harg0 : arg0.IsWhole) (arg1 : Memref sig .tc .vmem S512x1024 .f32) (harg1 : arg1.IsWhole)
    (arg2 : Memref sig .tc .vmem S1x512 .f32) (harg2 : arg2.IsWhole) (arg3 : Memref sig .tc .vmem S1024x512 .bf16) (harg3 : arg3.IsWhole)
    (x0 : Vec F S1024x1024 .f32) (x1 : Vec F S512x1024 .f32) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__proj_kernel i arg0 harg0 arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.Kernel.Hand

end
-- ==== Proof.K.Body1.lean ====
/-
  The attention kernel's body at one grid point: it reads its three input blocks whole — 256 query rows and the
  2048 key and value rows of one batch entry, each 1024 columns (16 heads of 64 lanes) — and writes its [256, 1024]
  output block head by head: sixteen stores, one per 64-column band, each a value computed from the three blocks
  (before each store it reads the band it is about to overwrite and uses nothing of what it read). The sixteen bands
  tile the block, so after the body the block is one function of the three input blocks.
-/
import proofs.«143152_j40097814675891_2_alg».proof.Proof.Gen.Kernel.Launch
import proofs.«143152_j40097814675891_2_alg».proof.Proof.Gen.Kernel.Skeleton
import proofs.«143152_j40097814675891_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body touches -/

abbrev r1q : Rect S256x1024 := Rect.unit (s := S256x1024) ![0, 0] S256x1024.size inb_S256x1024_S256x1024_0_0
abbrev r1k : Rect S2048x1024 := Rect.unit (s := S2048x1024) ![0, 0] S2048x1024.size inb_S2048x1024_S2048x1024_0_0
abbrev ro0 : Rect S256x1024 := Rect.unit (s := S256x1024) ![0, 0] S256x64.size inb_S256x1024_S256x64_0_0
abbrev ro64 : Rect S256x1024 := Rect.unit (s := S256x1024) ![0, 64] S256x64.size inb_S256x1024_S256x64_0_64
abbrev ro128 : Rect S256x1024 := Rect.unit (s := S256x1024) ![0, 128] S256x64.size inb_S256x1024_S256x64_0_128
abbrev ro192 : Rect S256x1024 := Rect.unit (s := S256x1024) ![0, 192] S256x64.size inb_S256x1024_S256x64_0_192
abbrev ro256 : Rect S256x1024 := Rect.unit (s := S256x1024) ![0, 256] S256x64.size inb_S256x1024_S256x64_0_256
abbrev ro320 : Rect S256x1024 := Rect.unit (s := S256x1024) ![0, 320] S256x64.size inb_S256x1024_S256x64_0_320
abbrev ro384 : Rect S256x1024 := Rect.unit (s := S256x1024) ![0, 384] S256x64.size inb_S256x1024_S256x64_0_384
abbrev ro448 : Rect S256x1024 := Rect.unit (s := S256x1024) ![0, 448] S256x64.size inb_S256x1024_S256x64_0_448
abbrev ro512 : Rect S256x1024 := Rect.unit (s := S256x1024) ![0, 512] S256x64.size inb_S256x1024_S256x64_0_512
abbrev ro576 : Rect S256x1024 := Rect.unit (s := S256x1024) ![0, 576] S256x64.size inb_S256x1024_S256x64_0_576
abbrev ro640 : Rect S256x1024 := Rect.unit (s := S256x1024) ![0, 640] S256x64.size inb_S256x1024_S256x64_0_640
abbrev ro704 : Rect S256x1024 := Rect.unit (s := S256x1024) ![0, 704] S256x64.size inb_S256x1024_S256x64_0_704
abbrev ro768 : Rect S256x1024 := Rect.unit (s := S256x1024) ![0, 768] S256x64.size inb_S256x1024_S256x64_0_768
abbrev ro832 : Rect S256x1024 := Rect.unit (s := S256x1024) ![0, 832] S256x64.size inb_S256x1024_S256x64_0_832
abbrev ro896 : Rect S256x1024 := Rect.unit (s := S256x1024) ![0, 896] S256x64.size inb_S256x1024_S256x64_0_896
abbrev ro960 : Rect S256x1024 := Rect.unit (s := S256x1024) ![0, 960] S256x64.size inb_S256x1024_S256x64_0_960

/-- What the body leaves in the output block, from the three input blocks: its sixteen stores, last first — head h's
    band at columns 64·h … 64·h + 63 holds that head's value. -/
def out1_3 (x0 : Vec F S256x1024 .bf16) (x1 x2 : Vec F S2048x1024 .bf16) : Vec F S256x1024 .f32 :=
  let v0 := View.ld x0 r1q
  let v2 := View.ld x1 r1k
  let v4 := View.ld x2 r1k
  let v1 := k1_pay2 v0
  let v3 := k1_pay3 v2
  let v5 := k1_pay4 v4
  View.canon [
    ⟨ro960, k1_pay1 v3 v5 (k1_pay27 v1)⟩,
    ⟨ro896, k1_pay26 v1 v3 v5⟩,
    ⟨ro832, k1_pay25 v1 v3 v5⟩,
    ⟨ro768, k1_pay24 (k1_pay22 v5) (k1_pay23 v1 v3)⟩,
    ⟨ro704, k1_pay21 v1 v3 v5⟩,
    ⟨ro640, k1_pay20 v1 v3 v5⟩,
    ⟨ro576, k1_pay19 v1 v3 v5⟩,
    ⟨ro512, k1_pay18 v1 v3 v5⟩,
    ⟨ro448, k1_pay17 (k1_pay15 v5) (k1_pay16 v1 v3)⟩,
    ⟨ro384, k1_pay14 v1 v3 v5⟩,
    ⟨ro320, k1_pay13 v1 v3 v5⟩,
    ⟨ro256, k1_pay12 (k1_pay9 v5) (k1_pay10 v1 v3) (k1_pay11 v1 v3)⟩,
    ⟨ro192, k1_pay8 v1 v3 v5⟩,
    ⟨ro128, k1_pay7 v1 v3 v5⟩,
    ⟨ro64, k1_pay6 v0 v2 v4⟩,
    ⟨ro0, k1_pay5 v0 v2 v4⟩]

/-- The sixteen bands tile the block. -/
theorem cover1_3 (p0 : Vec F S256x64 .f32) (p64 : Vec F S256x64 .f32) (p128 : Vec F S256x64 .f32) (p192 : Vec F S256x64 .f32) (p256 : Vec F S256x64 .f32) (p320 : Vec F S256x64 .f32) (p384 : Vec F S256x64 .f32) (p448 : Vec F S256x64 .f32) (p512 : Vec F S256x64 .f32) (p576 : Vec F S256x64 .f32) (p640 : Vec F S256x64 .f32) (p704 : Vec F S256x64 .f32) (p768 : Vec F S256x64 .f32) (p832 : Vec F S256x64 .f32) (p896 : Vec F S256x64 .f32) (p960 : Vec F S256x64 .f32) (y : S256x1024.Idx) :
    ∃ pc ∈ ([⟨ro960, p960⟩, ⟨ro896, p896⟩, ⟨ro832, p832⟩, ⟨ro768, p768⟩, ⟨ro704, p704⟩, ⟨ro640, p640⟩, ⟨ro576, p576⟩, ⟨ro512, p512⟩, ⟨ro448, p448⟩, ⟨ro384, p384⟩, ⟨ro320, p320⟩, ⟨ro256, p256⟩, ⟨ro192, p192⟩, ⟨ro128, p128⟩, ⟨ro64, p64⟩, ⟨ro0, p0⟩] : List (View.Piece (Elt F) S256x1024 .f32)), y ∈ pc.1.set :=
  View.cover_of_tiledL [⟨ro960, p960⟩, ⟨ro896, p896⟩, ⟨ro832, p832⟩, ⟨ro768, p768⟩, ⟨ro704, p704⟩, ⟨ro640, p640⟩, ⟨ro576, p576⟩, ⟨ro512, p512⟩, ⟨ro448, p448⟩, ⟨ro384, p384⟩, ⟨ro320, p320⟩, ⟨ro256, p256⟩, ⟨ro192, p192⟩, ⟨ro128, p128⟩, ⟨ro64, p64⟩, ⟨ro0, p0⟩] S256x64.size (by sl_kernel_rfl) y

set_option maxHeartbeats 4000000 in
/-- The body on whole staging memrefs — the inputs' at contents x0, x1, x2, the output's at anything — runs to the
    continuation with the inputs as they were and the output at `out1_3` of them. -/
theorem sound_kernel1 (c : Dev nD) (E : Set ℕ) (i : grid1.Coords)
    (arg0 : Memref sig .tc .vmem S256x1024 .bf16) (harg0 : arg0.IsWhole) (arg1 : Memref sig .tc .vmem S2048x1024 .bf16) (harg1 : arg1.IsWhole)
    (arg2 : Memref sig .tc .vmem S2048x1024 .bf16) (harg2 : arg2.IsWhole) (arg3 : Memref sig .tc .vmem S256x1024 .f32) (harg3 : arg3.IsWhole)
    (x0 : Vec F S256x1024 .bf16) (x1 x2 : Vec F S2048x1024 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _ _ _ _ _ _ _ _ _ _ _ _ _ _ _)

end Cert.Kernel.Hand

end
-- ==== Proof.K.Dats.lean ====
/-
  The proof data of the two pipelines, at a parameter `V` — the buffers' contents when the region is entered: what
  each window's staging buffer holds after the body at each grid point (an input's its block of the array, the
  output's the body's function of the three input blocks), and the body obligation at every point from the body's
  triple. In the second pipeline the three input windows read one array: each holds a third of its share.
-/
import proofs.«143152_j40097814675891_2_alg».proof.Proof.Gen.Kernel.Launch
import proofs.«143152_j40097814675891_2_alg».proof.Proof.Gen.Kernel.Skeleton
import proofs.«143152_j40097814675891_2_alg».proof.Proof.Gen.Kernel.Points
import proofs.«143152_j40097814675891_2_alg».proof.Proof.K.Body0
import proofs.«143152_j40097814675891_2_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0 at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, its
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data: the arrays as the region finds them; after the body each input's buffer still at its block and
    the output's at the body's function of the three input blocks; the invariant the scoped rest and the generator
    register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, its
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data: the arrays as the region finds them; after the body each input's buffer still at its block and
    the output's at the body's function of the three input blocks; the invariant the scoped rest and the generator
    register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Regs.lean ====
/-
  The two kernel regions as segments of the program's run. Between segments a core holds every unscoped buffer whole,
  at a valuation that follows the run: the launch contents, then the host operations' results, then — after a
  region — the region's output array replaced by what the pipeline's write-backs leave (each block of the output at
  what its grid point's body stored) and everything else as before. Region 0 reads three distinct arrays; region 1
  reads ONE array through three windows, so on entry the array's full share is cut in three, one part per window,
  and on exit the three parts — all still at the entry contents — are put together again.
-/
import proofs.«143152_j40097814675891_2_alg».proof.Proof.Gen.Kernel.Launch
import proofs.«143152_j40097814675891_2_alg».proof.Proof.Gen.Kernel.Skeleton
import proofs.«143152_j40097814675891_2_alg».proof.Proof.Gen.Kernel.Points
import proofs.«143152_j40097814675891_2_alg».proof.Proof.K.Dats
import proofs.«143152_j40097814675891_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The valuations between segments -/

/-- The buffers when region 0 is entered: the launch contents after the first host operations. -/
abbrev W1 (c : Dev nD) : Valuation τ sig (Elt F) := V1 m c
abbrev Vr1 : (c : Dev nD) → (b : Ref sig .tc) → Buf (Elt F) ((c : Thread nD τ).loc b) := fun c b => W1 m c b

/-- What region 0 leaves in its output array: the write-backs of its 24 grid points folded. -/
def o2 (c : Dev nD) : Buf (Elt F) ((c : Thread nD τ).loc main_v4) := (dat0 (Vr1 m) c).arrAt 3 cfg0.N

/-- The buffers when region 1 is entered. -/
abbrev W2 (c : Dev nD) : Valuation τ sig (Elt F) := Function.update (W1 m c) main_v4 (o2 m c)
abbrev Vr2 : (c : Dev nD) → (b : Ref sig .tc) → Buf (Elt F) ((c : Thread nD τ).loc b) := fun c b => W2 m c b

/-- What region 1 leaves in its output array: the write-backs of its 16 grid points folded. -/
def o3 (c : Dev nD) : Buf (Elt F) ((c : Thread nD τ).loc main_v5) := (dat1 (Vr2 m) c).arrAt 3 cfg1.N

/-- The buffers when region 1 is left. -/
abbrev W3 (c : Dev nD) : Valuation τ sig (Elt F) := Function.update (W2 m c) main_v5 (o3 m c)
abbrev Vr3 : (c : Dev nD) → (b : Ref sig .tc) → Buf (Elt F) ((c : Thread nD τ).loc b) := fun c b => W3 m c b

/-- The same, as the contents the regions leave in the buffers they may change. -/
def outs : Outs (F := F) := fun J r c => match J with
  | 2 => Function.update (fun r' : Ref sig .tc => m ((c : Thread nD τ).loc r')) main_v4 (o2 m c) r
  | 3 => Function.update (fun r' : Ref sig .tc => m ((c : Thread nD τ).loc r')) main_v5 (o3 m c) r
  | _ => m ((c : Thread nD τ).loc r)

theorem outs_2 (c : Dev nD) : outs m 2 main_v4 c = o2 m c :=
  Function.update_self (β := fun r' : Ref sig .tc => Buf (Elt F) ((c : Thread nD τ).loc r')) main_v4 (o2 m c) (fun r' : Ref sig .tc => m ((c : Thread nD τ).loc r'))
theorem outs_3 (c : Dev nD) : outs m 3 main_v5 c = o3 m c :=
  Function.update_self (β := fun r' : Ref sig .tc => Buf (Elt F) ((c : Thread nD τ).loc r')) main_v5 (o3 m c) (fun r' : Ref sig .tc => m ((c : Thread nD τ).loc r'))
theorem V2_eq (c : Dev nD) : V2 m (outs m) c = W2 m c := by
  show Function.update (V1 m c) main_v4 (outs m 2 main_v4 c) = _
  rw [outs_2]
theorem V3_eq (c : Dev nD) : V3 m (outs m) c = W3 m c := by
  show Function.update (V2 m (outs m) c) main_v5 (outs m 3 main_v5 c) = _
  rw [outs_3, V2_eq]

/-! ## The proof data family and what rides along -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr2 m) c

/-- No core owes another anything: no level is assigned. -/
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)

/-! ## Region 0 -/

/-- After region 0 each of its arrays holds what the pipeline leaves: an input as entered, the output its write-backs. -/
theorem hF0 (c : Dev nD) : ∀ w : Fin cfg0.W, (dat0 (Vr1 m) c).arrAt w cfg0.N = Vr2 m c (Pipeline.arrRef spec0 w)
  | ⟨0, _⟩ => ((dat0 (Vr1 m) c).arrAt_in 0 rfl _).trans ((A_eq0 (Vr1 m) c 0).trans (Function.update_of_ne (StableHlo.devRef_ne_of_ne (by decide)) _ _).symm)
  | ⟨1, _⟩ => ((dat0 (Vr1 m) c).arrAt_in 1 rfl _).trans ((A_eq0 (Vr1 m) c 1).trans (Function.update_of_ne (StableHlo.devRef_ne_of_ne (by decide)) _ _).symm)
  | ⟨2, _⟩ => ((dat0 (Vr1 m) c).arrAt_in 2 rfl _).trans ((A_eq0 (Vr1 m) c 2).trans (Function.update_of_ne (StableHlo.devRef_ne_of_ne (by decide)) _ _).symm)
  | ⟨3, _⟩ => (Function.update_self (β := fun b : DevRef τ sig => Buf (Elt F) ((c : Thread nD τ).1, b)) (Proc.devRef .tc main_v4) (o2 m c) (W1 m c)).symm
theorem hrest0 (c : Dev nD) : ∀ b, b ∉ Finset.univ.image (Pipeline.arrRef spec0) → Vr2 m c b = Vr1 m c b := fun b hb =>
  Function.update_of_ne (StableHlo.devRef_ne_of_ne fun e => hb (Finset.mem_image.mpr ⟨3, Finset.mem_univ _, e.symm⟩)) _ _

set_option backward.isDefEq.respectTransparency.types false in
/-- Region 0 over the thread states: entered with every unscoped buffer at `W1`, left with them at `W2`. Its arrays are
    split out of the unscoped buffers and put back at the exit contents; the generator register goes into the
    pipeline's invariant and comes out; nothing is owed; the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: one array through three windows -/

/-- Region 1's windows stand on two buffers: the packed projection (three input windows) and the output. -/
theorem arrImage1 : (Finset.univ.image (Pipeline.arrRef spec1) : Finset (Ref sig .tc)) = {main_v4, main_v5} := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v5) ↦{fullShare} V main_v5)) := by
  unfold Pipeline.arrBufs
  rw [arrImage1, bigSep_insert (by decide), bigSep_singleton]
  rfl

/-- The pipeline's four arrays one by one: the shared input array at a third of its share per window, the output
    array whole. -/
theorem arrays1_eq (V : (c : Dev nD) → (b : Ref sig .tc) → Buf (Elt F) ((c : Thread nD τ).loc b)) (c : Dev nD)
    (Fn : (w : Fin cfg1.W) → Buf (Elt F) ((cfg1.win w).arr.view.loc (c : Thread nD τ))) :
    ((dat1 V c).arrays Fn : sProp 𝕄)
      = iprop((((c : Thread nD τ).loc main_v4) ↦{fullShare.left} Fn 0) ∗ (((c : Thread nD τ).loc main_v4) ↦{fullShare.right.left} Fn 1)
          ∗ (((c : Thread nD τ).loc main_v4) ↦{fullShare.right.right} Fn 2) ∗ (((c : Thread nD τ).loc main_v5) ↦{fullShare} Fn 3)) := by
  unfold Pipeline.Dat.arrays
  rw [bigSep_W1, (arr_whole1 0).set_eq_univ, (arr_whole1 3).set_eq_univ]
  rfl

/-- A whole buffer's full share cut in three, and the three parts at one contents put together. -/
theorem cut3 (ℓ : Loc nD τ sig) (f : Buf (Elt F) ℓ) :
    (ℓ ↦{fullShare} f : sProp 𝕄) ⊢ iprop((ℓ ↦{fullShare.left} f) ∗ (ℓ ↦{fullShare.right.left} f) ∗ (ℓ ↦{fullShare.right.right} f)) :=
  (pointsTo_share (PosShare.mem_left_op_right fullShare)).1.trans
    (sep_mono .rfl (pointsTo_share (PosShare.mem_left_op_right fullShare.right)).1)
theorem join3 (ℓ : Loc nD τ sig) (f : Buf (Elt F) ℓ) :
    (iprop((ℓ ↦{fullShare.left} f) ∗ (ℓ ↦{fullShare.right.left} f) ∗ (ℓ ↦{fullShare.right.right} f)) : sProp 𝕄) ⊢ ℓ ↦{fullShare} f :=
  (sep_mono .rfl (pointsTo_share (PosShare.mem_left_op_right fullShare.right)).2).trans
    (pointsTo_share (PosShare.mem_left_op_right fullShare)).2

/-- ENTRY: the unscoped buffers at `W2` are the pipeline's arrays at their entry contents and the rest. -/
theorem entry1 (c : Dev nD) :
    (StableHlo.held (c : Thread nD τ) (Pipeline.ucRefs τ sig) (W2 m c) : sProp 𝕄)
      ⊢ iprop((dat1 (Vr2 m) c).arrays ((dat1 (Vr2 m) c).arrAt · 0)
          ∗ Pipeline.unscopedRest (Ix := Unit) (Name := ℕ) (U := UR sig nD τ) (Lvl := ℕ) spec1 c (Vr2 m c)) := by
  have hub : (unscopedBufs (Ix := Unit) (Name := ℕ) (U := UR sig nD τ) (Lvl := ℕ) c (fun b => W2 m c b) : sProp 𝕄)
      = iprop(Pipeline.arrBufs spec1 c (Vr2 m c) ∗ Pipeline.unscopedRest spec1 c (Vr2 m c)) :=
    Pipeline.unscopedBufs_split₀ cfgs 1 winFacts₀1.arr_unscoped c (Vr2 m c)
  rw [← Pipeline.unscopedBufs_held (Ix := Unit) (Name := ℕ) (U := UR sig nD τ) (Lvl := ℕ) c (W2 m c), hub, arrBufs1_eq, arrays1_eq]
  refine sep_mono ?_ .rfl
  iintro ⟨H4, H5⟩
  ihave H := (cut3 _ _) $$ H4
  icases H with ⟨Ha, Hb, Hc⟩
  isplitl [Ha]; · iexact Ha
  isplitl [Hb]; · iexact Hb
  isplitl [Hc]; · iexact Hc
  iexact H5

/-- After region 1 its input windows' array is as entered (each window says so of its own part). -/
theorem arrAt1_in (c : Dev nD) : ∀ w : Fin cfg1.W, w ≠ 3 → (dat1 (Vr2 m) c).arrAt w cfg1.N = Vr2 m c (Pipeline.arrRef spec1 w)
  | ⟨0, _⟩, _ => ((dat1 (Vr2 m) c).arrAt_in 0 rfl _).trans (A_eq1 (Vr2 m) c 0)
  | ⟨1, _⟩, _ => ((dat1 (Vr2 m) c).arrAt_in 1 rfl _).trans (A_eq1 (Vr2 m) c 1)
  | ⟨2, _⟩, _ => ((dat1 (Vr2 m) c).arrAt_in 2 rfl _).trans (A_eq1 (Vr2 m) c 2)
  | ⟨3, _⟩, h => absurd rfl h

/-- EXIT: the pipeline's arrays at their final contents and the rest are the unscoped buffers at `W3`. -/
theorem exit1 (c : Dev nD) :
    (iprop((dat1 (Vr2 m) c).arrays ((dat1 (Vr2 m) c).arrAt · cfg1.N)
        ∗ Pipeline.unscopedRest (Ix := Unit) (Name := ℕ) (U := UR sig nD τ) (Lvl := ℕ) spec1 c (Vr2 m c)) : sProp 𝕄)
      ⊢ StableHlo.held (c : Thread nD τ) (Pipeline.ucRefs τ sig) (W3 m c) := by
  have hub : (unscopedBufs (Ix := Unit) (Name := ℕ) (U := UR sig nD τ) (Lvl := ℕ) c (fun b => W3 m c b) : sProp 𝕄)
      = iprop(Pipeline.arrBufs spec1 c (Vr3 m c) ∗ Pipeline.unscopedRest spec1 c (Vr3 m c)) :=
    Pipeline.unscopedBufs_split₀ cfgs 1 winFacts₀1.arr_unscoped c (Vr3 m c)
  rw [← Pipeline.unscopedBufs_held (Ix := Unit) (Name := ℕ) (U := UR sig nD τ) (Lvl := ℕ) c (W3 m c), hub, arrBufs1_eq, arrays1_eq,
    arrAt1_in m c 0 (by decide), arrAt1_in m c 1 (by decide), arrAt1_in m c 2 (by decide)]
  have hrest : (Pipeline.unscopedRest (Ix := Unit) (Name := ℕ) (U := UR sig nD τ) (Lvl := ℕ) spec1 c (Vr2 m c) : sProp 𝕄)
      = Pipeline.unscopedRest spec1 c (Vr3 m c) := by
    unfold Pipeline.unscopedRest
    exact bigSep_congr fun b hb => by
      rw [show Vr3 m c b = Vr2 m c b from Function.update_of_ne (StableHlo.devRef_ne_of_ne fun e =>
        (Finset.mem_sdiff.mp hb).2 (Finset.mem_image.mpr ⟨3, Finset.mem_univ _, e.symm⟩)) _ _]
  rw [hrest]
  refine sep_mono ?_ .rfl
  have h4 : Vr3 m c main_v4 = Vr2 m c main_v4 := Function.update_of_ne (StableHlo.devRef_ne_of_ne (by decide)) _ _
  have h5 : Vr3 m c main_v5 = (dat1 (Vr2 m) c).arrAt 3 cfg1.N :=
    Function.update_self (β := fun b : DevRef τ sig => Buf (Elt F) ((c : Thread nD τ).1, b)) (Proc.devRef .tc main_v5) (o3 m c) (W2 m c)
  rw [h4, h5]
  iintro ⟨Ha, Hb, Hc, H5⟩
  isplitr [H5]
  · iapply (join3 _ _)
    isplitl [Ha]; · iexact Ha
    isplitl [Hb]; · iexact Hb
    iexact Hc
  iexact H5

set_option backward.isDefEq.respectTransparency.types false in
/-- Region 1 over the thread states: entered with every unscoped buffer at `W2`, left with them at `W3`. -/
def reg1 : Pipeline.RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Run.lean ====
/-
  The run of the whole program: host operations, region 0, region 1, one more host operation — composed in order by
  the launch theorem for several regions. Every weakly fair execution from a memory with zero counters terminates
  without a fault, and in every final memory each unscoped buffer holds the last valuation `W4`: the launch contents
  followed through the host operations and the two regions' write-backs. The arguments are read back through that
  valuation to their launch contents (no segment writes one), and the result is the last reshape of what region 1
  left in its output array.
-/
import proofs.«143152_j40097814675891_2_alg».proof.Proof.Gen.Kernel.Launch
import proofs.«143152_j40097814675891_2_alg».proof.Proof.Gen.Kernel.Skeleton
import proofs.«143152_j40097814675891_2_alg».proof.Proof.Gen.Kernel.Points
import proofs.«143152_j40097814675891_2_alg».proof.Proof.K.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at the end: the last host operation over what region 1 left. -/
abbrev W4 (c : Dev nD) : Valuation τ sig (Elt F) := StableHlo.after hostOps2 (W3 m c)

theorem W4_eq (c : Dev nD) : V4 m (outs m) c = W4 m c := by
  show StableHlo.after hostOps2 (V3 m (outs m) c) = _
  rw [V3_eq]

/-- A stretch of host operations as a segment over the unscoped buffers from the contents `W`, the generator register
    and the empty dues riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The program's four segments in order. -/
abbrev segs : List (Pipeline.Seg (pcfgs (F := F)) adm (pdats m) () defs₀ Variants.none L lv) :=
  [ .host (hseg hostOps0 hostOps0_sub hostOps0_fresh (fun c => V0 m c)),
    .region (reg0 m),
    .region (reg1 m),
    .host (hseg hostOps2 hostOps2_sub hostOps2_fresh (W3 m)) ]

/-- The program is the run of its segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every execution terminates, and every final memory holds each unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show (iprop(StableHlo.held (c : Thread nD τ) (Pipeline.ucRefs τ sig) (W4 m c) ∗ R c) : sProp 𝕄) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The arguments end as launched. -/
theorem W4_arg (c : Dev nD) :
    W4 m c main_arg0 = m ((c : Thread nD τ).loc main_arg0) ∧ W4 m c main_arg1 = m ((c : Thread nD τ).loc main_arg1)
    ∧ W4 m c main_arg2 = m ((c : Thread nD τ).loc main_arg2) ∧ W4 m c main_arg3 = m ((c : Thread nD τ).loc main_arg3)
    ∧ W4 m c main_arg4 = m ((c : Thread nD τ).loc main_arg4) ∧ W4 m c main_arg5 = m ((c : Thread nD τ).loc main_arg5)
    ∧ W4 m c main_arg6 = m ((c : Thread nD τ).loc main_arg6) ∧ W4 m c main_arg7 = m ((c : Thread nD τ).loc main_arg7) := by
  rw [← W4_eq]
  exact ⟨V4_main_arg0 m _ c, V4_main_arg1 m _ c, V4_main_arg2 m _ c, V4_main_arg3 m _ c, V4_main_arg4 m _ c,
    V4_main_arg5 m _ c, V4_main_arg6 m _ c, V4_main_arg7 m _ c⟩

/-- The frame: every execution terminates and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    obtain ⟨h0, h1, h2, h3, h4, h5, h6, h7⟩ := W4_arg m c
    exact ⟨(h c _ (mem_uc main_arg0 (by decide))).trans h0, (h c _ (mem_uc main_arg1 (by decide))).trans h1,
      (h c _ (mem_uc main_arg2 (by decide))).trans h2, (h c _ (mem_uc main_arg3 (by decide))).trans h3,
      (h c _ (mem_uc main_arg4 (by decide))).trans h4, (h c _ (mem_uc main_arg5 (by decide))).trans h5,
      (h c _ (mem_uc main_arg6 (by decide))).trans h6, (h c _ (mem_uc main_arg7 (by decide))).trans h7⟩) (run_all m ρ)

end Cert.Kernel.Hand

end
-- ==== Proof.KI.Body0.lean ====
/-
  The projection kernel's body at one grid point: it reads its three input blocks whole — a [1024, 1024] block of the
  flattened input, a [512, 1024] block of the stacked weights, a [1, 512] block of the stacked bias —, and overwrites
  its whole [1024, 512] output block with one value computed from them (x·wᵀ + b); it also reads the output block
  before overwriting it and uses nothing of what it read.
-/
import proofs.«143152_j40097814675891_2_alg».proof.Proof.Gen.KernelIdeal.Launch
import proofs.«143152_j40097814675891_2_alg».proof.Proof.Gen.KernelIdeal.Skeleton
import proofs.«143152_j40097814675891_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body touches: each is the whole block -/

abbrev r0x : Rect S1024x1024 := Rect.unit (s := S1024x1024) ![0, 0] S1024x1024.size inb_S1024x1024_S1024x1024_0_0
abbrev r0w : Rect S512x1024 := Rect.unit (s := S512x1024) ![0, 0] S512x1024.size inb_S512x1024_S512x1024_0_0
abbrev r0b : Rect S1x512 := Rect.unit (s := S1x512) ![0, 0] S1x512.size inb_S1x512_S1x512_0_0
abbrev r0o : Rect S1024x512 := Rect.unit (s := S1024x512) ![0, 0] S1024x512.size inb_S1024x512_S1024x512_0_0

/-- What the body leaves in the output block, from the three input blocks: its one store, over the whole block. -/
def out0_3 (x0 : Vec F S1024x1024 .f32) (x1 : Vec F S512x1024 .f32) (x2 : Vec F S1x512 .f32) : Vec F S1024x512 .bf16 :=
  View.canon [⟨r0o, k0_pay1 (View.ld x0 r0x) (View.ld x1 r0w) (View.ld x2 r0b)⟩]

/-- The one store covers the block. -/
theorem cover0_3 (p0 : Vec F S1024x512 .bf16) (y : S1024x512.Idx) :
    ∃ pc ∈ ([⟨r0o, p0⟩] : List (View.Piece (Elt F) S1024x512 .bf16)), y ∈ pc.1.set :=
  View.cover_of_tiled [⟨r0o, p0⟩] S1024x512.size (by rfl) y

set_option maxHeartbeats 1000000 in
/-- The body on whole staging memrefs — the inputs' at contents x0, x1, x2, the output's at anything — runs to the
    continuation with the inputs as they were and the output at `out0_3` of them. -/
theorem sound_kernel0 (c : Dev nD) (E : Set ℕ) (i : grid0.Coords)
    (arg0 : Memref sig .tc .vmem S1024x1024 .f32) (harg0 : arg0.IsWhole) (arg1 : Memref sig .tc .vmem S512x1024 .f32) (harg1 : arg1.IsWhole)
    (arg2 : Memref sig .tc .vmem S1x512 .f32) (harg2 : arg2.IsWhole) (arg3 : Memref sig .tc .vmem S1024x512 .bf16) (harg3 : arg3.IsWhole)
    (x0 : Vec F S1024x1024 .f32) (x1 : Vec F S512x1024 .f32) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__proj_kernel i arg0 harg0 arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.KernelIdeal.Hand

end
-- ==== Proof.KI.Body1.lean ====
/-
  The attention kernel's body at one grid point: it reads its three input blocks whole — 256 query rows and the
  2048 key and value rows of one batch entry, each 1024 columns (16 heads of 64 lanes) — and writes its [256, 1024]
  output block head by head: sixteen stores, one per 64-column band, each a value computed from the three blocks
  (before each store it reads the band it is about to overwrite and uses nothing of what it read). The sixteen bands
  tile the block, so after the body the block is one function of the three input blocks.
-/
import proofs.«143152_j40097814675891_2_alg».proof.Proof.Gen.KernelIdeal.Launch
import proofs.«143152_j40097814675891_2_alg».proof.Proof.Gen.KernelIdeal.Skeleton
import proofs.«143152_j40097814675891_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body touches -/

abbrev r1q : Rect S256x1024 := Rect.unit (s := S256x1024) ![0, 0] S256x1024.size inb_S256x1024_S256x1024_0_0
abbrev r1k : Rect S2048x1024 := Rect.unit (s := S2048x1024) ![0, 0] S2048x1024.size inb_S2048x1024_S2048x1024_0_0
abbrev ro0 : Rect S256x1024 := Rect.unit (s := S256x1024) ![0, 0] S256x64.size inb_S256x1024_S256x64_0_0
abbrev ro64 : Rect S256x1024 := Rect.unit (s := S256x1024) ![0, 64] S256x64.size inb_S256x1024_S256x64_0_64
abbrev ro128 : Rect S256x1024 := Rect.unit (s := S256x1024) ![0, 128] S256x64.size inb_S256x1024_S256x64_0_128
abbrev ro192 : Rect S256x1024 := Rect.unit (s := S256x1024) ![0, 192] S256x64.size inb_S256x1024_S256x64_0_192
abbrev ro256 : Rect S256x1024 := Rect.unit (s := S256x1024) ![0, 256] S256x64.size inb_S256x1024_S256x64_0_256
abbrev ro320 : Rect S256x1024 := Rect.unit (s := S256x1024) ![0, 320] S256x64.size inb_S256x1024_S256x64_0_320
abbrev ro384 : Rect S256x1024 := Rect.unit (s := S256x1024) ![0, 384] S256x64.size inb_S256x1024_S256x64_0_384
abbrev ro448 : Rect S256x1024 := Rect.unit (s := S256x1024) ![0, 448] S256x64.size inb_S256x1024_S256x64_0_448
abbrev ro512 : Rect S256x1024 := Rect.unit (s := S256x1024) ![0, 512] S256x64.size inb_S256x1024_S256x64_0_512
abbrev ro576 : Rect S256x1024 := Rect.unit (s := S256x1024) ![0, 576] S256x64.size inb_S256x1024_S256x64_0_576
abbrev ro640 : Rect S256x1024 := Rect.unit (s := S256x1024) ![0, 640] S256x64.size inb_S256x1024_S256x64_0_640
abbrev ro704 : Rect S256x1024 := Rect.unit (s := S256x1024) ![0, 704] S256x64.size inb_S256x1024_S256x64_0_704
abbrev ro768 : Rect S256x1024 := Rect.unit (s := S256x1024) ![0, 768] S256x64.size inb_S256x1024_S256x64_0_768
abbrev ro832 : Rect S256x1024 := Rect.unit (s := S256x1024) ![0, 832] S256x64.size inb_S256x1024_S256x64_0_832
abbrev ro896 : Rect S256x1024 := Rect.unit (s := S256x1024) ![0, 896] S256x64.size inb_S256x1024_S256x64_0_896
abbrev ro960 : Rect S256x1024 := Rect.unit (s := S256x1024) ![0, 960] S256x64.size inb_S256x1024_S256x64_0_960

/-- What the body leaves in the output block, from the three input blocks: its sixteen stores, last first — head h's
    band at columns 64·h … 64·h + 63 holds that head's value. -/
def out1_3 (x0 : Vec F S256x1024 .bf16) (x1 x2 : Vec F S2048x1024 .bf16) : Vec F S256x1024 .f32 :=
  let v0 := View.ld x0 r1q
  let v2 := View.ld x1 r1k
  let v4 := View.ld x2 r1k
  let v1 := k1_pay2 v0
  let v3 := k1_pay3 v2
  let v5 := k1_pay4 v4
  View.canon [
    ⟨ro960, k1_pay1 v3 v5 (k1_pay27 v1)⟩,
    ⟨ro896, k1_pay26 v1 v3 v5⟩,
    ⟨ro832, k1_pay25 v1 v3 v5⟩,
    ⟨ro768, k1_pay24 (k1_pay22 v5) (k1_pay23 v1 v3)⟩,
    ⟨ro704, k1_pay21 v1 v3 v5⟩,
    ⟨ro640, k1_pay20 v1 v3 v5⟩,
    ⟨ro576, k1_pay19 v1 v3 v5⟩,
    ⟨ro512, k1_pay18 v1 v3 v5⟩,
    ⟨ro448, k1_pay17 (k1_pay15 v5) (k1_pay16 v1 v3)⟩,
    ⟨ro384, k1_pay14 v1 v3 v5⟩,
    ⟨ro320, k1_pay13 v1 v3 v5⟩,
    ⟨ro256, k1_pay12 (k1_pay9 v5) (k1_pay10 v1 v3) (k1_pay11 v1 v3)⟩,
    ⟨ro192, k1_pay8 v1 v3 v5⟩,
    ⟨ro128, k1_pay7 v1 v3 v5⟩,
    ⟨ro64, k1_pay6 v0 v2 v4⟩,
    ⟨ro0, k1_pay5 v0 v2 v4⟩]

/-- The sixteen bands tile the block. -/
theorem cover1_3 (p0 : Vec F S256x64 .f32) (p64 : Vec F S256x64 .f32) (p128 : Vec F S256x64 .f32) (p192 : Vec F S256x64 .f32) (p256 : Vec F S256x64 .f32) (p320 : Vec F S256x64 .f32) (p384 : Vec F S256x64 .f32) (p448 : Vec F S256x64 .f32) (p512 : Vec F S256x64 .f32) (p576 : Vec F S256x64 .f32) (p640 : Vec F S256x64 .f32) (p704 : Vec F S256x64 .f32) (p768 : Vec F S256x64 .f32) (p832 : Vec F S256x64 .f32) (p896 : Vec F S256x64 .f32) (p960 : Vec F S256x64 .f32) (y : S256x1024.Idx) :
    ∃ pc ∈ ([⟨ro960, p960⟩, ⟨ro896, p896⟩, ⟨ro832, p832⟩, ⟨ro768, p768⟩, ⟨ro704, p704⟩, ⟨ro640, p640⟩, ⟨ro576, p576⟩, ⟨ro512, p512⟩, ⟨ro448, p448⟩, ⟨ro384, p384⟩, ⟨ro320, p320⟩, ⟨ro256, p256⟩, ⟨ro192, p192⟩, ⟨ro128, p128⟩, ⟨ro64, p64⟩, ⟨ro0, p0⟩] : List (View.Piece (Elt F) S256x1024 .f32)), y ∈ pc.1.set :=
  View.cover_of_tiledL [⟨ro960, p960⟩, ⟨ro896, p896⟩, ⟨ro832, p832⟩, ⟨ro768, p768⟩, ⟨ro704, p704⟩, ⟨ro640, p640⟩, ⟨ro576, p576⟩, ⟨ro512, p512⟩, ⟨ro448, p448⟩, ⟨ro384, p384⟩, ⟨ro320, p320⟩, ⟨ro256, p256⟩, ⟨ro192, p192⟩, ⟨ro128, p128⟩, ⟨ro64, p64⟩, ⟨ro0, p0⟩] S256x64.size (by sl_kernel_rfl) y

set_option maxHeartbeats 4000000 in
/-- The body on whole staging memrefs — the inputs' at contents x0, x1, x2, the output's at anything — runs to the
    continuation with the inputs as they were and the output at `out1_3` of them. -/
theorem sound_kernel1 (c : Dev nD) (E : Set ℕ) (i : grid1.Coords)
    (arg0 : Memref sig .tc .vmem S256x1024 .bf16) (harg0 : arg0.IsWhole) (arg1 : Memref sig .tc .vmem S2048x1024 .bf16) (harg1 : arg1.IsWhole)
    (arg2 : Memref sig .tc .vmem S2048x1024 .bf16) (harg2 : arg2.IsWhole) (arg3 : Memref sig .tc .vmem S256x1024 .f32) (harg3 : arg3.IsWhole)
    (x0 : Vec F S256x1024 .bf16) (x1 x2 : Vec F S2048x1024 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _ _ _ _ _ _ _ _ _ _ _ _ _ _ _)

end Cert.KernelIdeal.Hand

end
-- ==== Proof.KI.Dats.lean ====
/-
  The proof data of the two pipelines, at a parameter `V` — the buffers' contents when the region is entered: what
  each window's staging buffer holds after the body at each grid point (an input's its block of the array, the
  output's the body's function of the three input blocks), and the body obligation at every point from the body's
  triple. In the second pipeline the three input windows read one array: each holds a third of its share.
-/
import proofs.«143152_j40097814675891_2_alg».proof.Proof.Gen.KernelIdeal.Launch
import proofs.«143152_j40097814675891_2_alg».proof.Proof.Gen.KernelIdeal.Skeleton
import proofs.«143152_j40097814675891_2_alg».proof.Proof.Gen.KernelIdeal.Points
import proofs.«143152_j40097814675891_2_alg».proof.Proof.KI.Body0
import proofs.«143152_j40097814675891_2_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0 at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, its
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data: the arrays as the region finds them; after the body each input's buffer still at its block and
    the output's at the body's function of the three input blocks; the invariant the scoped rest and the generator
    register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, its
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data: the arrays as the region finds them; after the body each input's buffer still at its block and
    the output's at the body's function of the three input blocks; the invariant the scoped rest and the generator
    register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Regs.lean ====
/-
  The two kernel regions as segments of the program's run. Between segments a core holds every unscoped buffer whole,
  at a valuation that follows the run: the launch contents, then the host operations' results, then — after a
  region — the region's output array replaced by what the pipeline's write-backs leave (each block of the output at
  what its grid point's body stored) and everything else as before. Region 0 reads three distinct arrays; region 1
  reads ONE array through three windows, so on entry the array's full share is cut in three, one part per window,
  and on exit the three parts — all still at the entry contents — are put together again.
-/
import proofs.«143152_j40097814675891_2_alg».proof.Proof.Gen.KernelIdeal.Launch
import proofs.«143152_j40097814675891_2_alg».proof.Proof.Gen.KernelIdeal.Skeleton
import proofs.«143152_j40097814675891_2_alg».proof.Proof.Gen.KernelIdeal.Points
import proofs.«143152_j40097814675891_2_alg».proof.Proof.KI.Dats
import proofs.«143152_j40097814675891_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The valuations between segments -/

/-- The buffers when region 0 is entered: the launch contents after the first host operations. -/
abbrev W1 (c : Dev nD) : Valuation τ sig (Elt F) := V1 m c
abbrev Vr1 : (c : Dev nD) → (b : Ref sig .tc) → Buf (Elt F) ((c : Thread nD τ).loc b) := fun c b => W1 m c b

/-- What region 0 leaves in its output array: the write-backs of its 24 grid points folded. -/
def o2 (c : Dev nD) : Buf (Elt F) ((c : Thread nD τ).loc main_v4) := (dat0 (Vr1 m) c).arrAt 3 cfg0.N

/-- The buffers when region 1 is entered. -/
abbrev W2 (c : Dev nD) : Valuation τ sig (Elt F) := Function.update (W1 m c) main_v4 (o2 m c)
abbrev Vr2 : (c : Dev nD) → (b : Ref sig .tc) → Buf (Elt F) ((c : Thread nD τ).loc b) := fun c b => W2 m c b

/-- What region 1 leaves in its output array: the write-backs of its 16 grid points folded. -/
def o3 (c : Dev nD) : Buf (Elt F) ((c : Thread nD τ).loc main_v5) := (dat1 (Vr2 m) c).arrAt 3 cfg1.N

/-- The buffers when region 1 is left. -/
abbrev W3 (c : Dev nD) : Valuation τ sig (Elt F) := Function.update (W2 m c) main_v5 (o3 m c)
abbrev Vr3 : (c : Dev nD) → (b : Ref sig .tc) → Buf (Elt F) ((c : Thread nD τ).loc b) := fun c b => W3 m c b

/-- The same, as the contents the regions leave in the buffers they may change. -/
def outs : Outs (F := F) := fun J r c => match J with
  | 2 => Function.update (fun r' : Ref sig .tc => m ((c : Thread nD τ).loc r')) main_v4 (o2 m c) r
  | 3 => Function.update (fun r' : Ref sig .tc => m ((c : Thread nD τ).loc r')) main_v5 (o3 m c) r
  | _ => m ((c : Thread nD τ).loc r)

theorem outs_2 (c : Dev nD) : outs m 2 main_v4 c = o2 m c :=
  Function.update_self (β := fun r' : Ref sig .tc => Buf (Elt F) ((c : Thread nD τ).loc r')) main_v4 (o2 m c) (fun r' : Ref sig .tc => m ((c : Thread nD τ).loc r'))
theorem outs_3 (c : Dev nD) : outs m 3 main_v5 c = o3 m c :=
  Function.update_self (β := fun r' : Ref sig .tc => Buf (Elt F) ((c : Thread nD τ).loc r')) main_v5 (o3 m c) (fun r' : Ref sig .tc => m ((c : Thread nD τ).loc r'))
theorem V2_eq (c : Dev nD) : V2 m (outs m) c = W2 m c := by
  show Function.update (V1 m c) main_v4 (outs m 2 main_v4 c) = _
  rw [outs_2]
theorem V3_eq (c : Dev nD) : V3 m (outs m) c = W3 m c := by
  show Function.update (V2 m (outs m) c) main_v5 (outs m 3 main_v5 c) = _
  rw [outs_3, V2_eq]

/-! ## The proof data family and what rides along -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr2 m) c

/-- No core owes another anything: no level is assigned. -/
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)

/-! ## Region 0 -/

/-- After region 0 each of its arrays holds what the pipeline leaves: an input as entered, the output its write-backs. -/
theorem hF0 (c : Dev nD) : ∀ w : Fin cfg0.W, (dat0 (Vr1 m) c).arrAt w cfg0.N = Vr2 m c (Pipeline.arrRef spec0 w)
  | ⟨0, _⟩ => ((dat0 (Vr1 m) c).arrAt_in 0 rfl _).trans ((A_eq0 (Vr1 m) c 0).trans (Function.update_of_ne (StableHlo.devRef_ne_of_ne (by decide)) _ _).symm)
  | ⟨1, _⟩ => ((dat0 (Vr1 m) c).arrAt_in 1 rfl _).trans ((A_eq0 (Vr1 m) c 1).trans (Function.update_of_ne (StableHlo.devRef_ne_of_ne (by decide)) _ _).symm)
  | ⟨2, _⟩ => ((dat0 (Vr1 m) c).arrAt_in 2 rfl _).trans ((A_eq0 (Vr1 m) c 2).trans (Function.update_of_ne (StableHlo.devRef_ne_of_ne (by decide)) _ _).symm)
  | ⟨3, _⟩ => (Function.update_self (β := fun b : DevRef τ sig => Buf (Elt F) ((c : Thread nD τ).1, b)) (Proc.devRef .tc main_v4) (o2 m c) (W1 m c)).symm
theorem hrest0 (c : Dev nD) : ∀ b, b ∉ Finset.univ.image (Pipeline.arrRef spec0) → Vr2 m c b = Vr1 m c b := fun b hb =>
  Function.update_of_ne (StableHlo.devRef_ne_of_ne fun e => hb (Finset.mem_image.mpr ⟨3, Finset.mem_univ _, e.symm⟩)) _ _

set_option backward.isDefEq.respectTransparency.types false in
/-- Region 0 over the thread states: entered with every unscoped buffer at `W1`, left with them at `W2`. Its arrays are
    split out of the unscoped buffers and put back at the exit contents; the generator register goes into the
    pipeline's invariant and comes out; nothing is owed; the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: one array through three windows -/

/-- Region 1's windows stand on two buffers: the packed projection (three input windows) and the output. -/
theorem arrImage1 : (Finset.univ.image (Pipeline.arrRef spec1) : Finset (Ref sig .tc)) = {main_v4, main_v5} := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v5) ↦{fullShare} V main_v5)) := by
  unfold Pipeline.arrBufs
  rw [arrImage1, bigSep_insert (by decide), bigSep_singleton]
  rfl

/-- The pipeline's four arrays one by one: the shared input array at a third of its share per window, the output
    array whole. -/
theorem arrays1_eq (V : (c : Dev nD) → (b : Ref sig .tc) → Buf (Elt F) ((c : Thread nD τ).loc b)) (c : Dev nD)
    (Fn : (w : Fin cfg1.W) → Buf (Elt F) ((cfg1.win w).arr.view.loc (c : Thread nD τ))) :
    ((dat1 V c).arrays Fn : sProp 𝕄)
      = iprop((((c : Thread nD τ).loc main_v4) ↦{fullShare.left} Fn 0) ∗ (((c : Thread nD τ).loc main_v4) ↦{fullShare.right.left} Fn 1)
          ∗ (((c : Thread nD τ).loc main_v4) ↦{fullShare.right.right} Fn 2) ∗ (((c : Thread nD τ).loc main_v5) ↦{fullShare} Fn 3)) := by
  unfold Pipeline.Dat.arrays
  rw [bigSep_W1, (arr_whole1 0).set_eq_univ, (arr_whole1 3).set_eq_univ]
  rfl

/-- A whole buffer's full share cut in three, and the three parts at one contents put together. -/
theorem cut3 (ℓ : Loc nD τ sig) (f : Buf (Elt F) ℓ) :
    (ℓ ↦{fullShare} f : sProp 𝕄) ⊢ iprop((ℓ ↦{fullShare.left} f) ∗ (ℓ ↦{fullShare.right.left} f) ∗ (ℓ ↦{fullShare.right.right} f)) :=
  (pointsTo_share (PosShare.mem_left_op_right fullShare)).1.trans
    (sep_mono .rfl (pointsTo_share (PosShare.mem_left_op_right fullShare.right)).1)
theorem join3 (ℓ : Loc nD τ sig) (f : Buf (Elt F) ℓ) :
    (iprop((ℓ ↦{fullShare.left} f) ∗ (ℓ ↦{fullShare.right.left} f) ∗ (ℓ ↦{fullShare.right.right} f)) : sProp 𝕄) ⊢ ℓ ↦{fullShare} f :=
  (sep_mono .rfl (pointsTo_share (PosShare.mem_left_op_right fullShare.right)).2).trans
    (pointsTo_share (PosShare.mem_left_op_right fullShare)).2

/-- ENTRY: the unscoped buffers at `W2` are the pipeline's arrays at their entry contents and the rest. -/
theorem entry1 (c : Dev nD) :
    (StableHlo.held (c : Thread nD τ) (Pipeline.ucRefs τ sig) (W2 m c) : sProp 𝕄)
      ⊢ iprop((dat1 (Vr2 m) c).arrays ((dat1 (Vr2 m) c).arrAt · 0)
          ∗ Pipeline.unscopedRest (Ix := Unit) (Name := ℕ) (U := UR sig nD τ) (Lvl := ℕ) spec1 c (Vr2 m c)) := by
  have hub : (unscopedBufs (Ix := Unit) (Name := ℕ) (U := UR sig nD τ) (Lvl := ℕ) c (fun b => W2 m c b) : sProp 𝕄)
      = iprop(Pipeline.arrBufs spec1 c (Vr2 m c) ∗ Pipeline.unscopedRest spec1 c (Vr2 m c)) :=
    Pipeline.unscopedBufs_split₀ cfgs 1 winFacts₀1.arr_unscoped c (Vr2 m c)
  rw [← Pipeline.unscopedBufs_held (Ix := Unit) (Name := ℕ) (U := UR sig nD τ) (Lvl := ℕ) c (W2 m c), hub, arrBufs1_eq, arrays1_eq]
  refine sep_mono ?_ .rfl
  iintro ⟨H4, H5⟩
  ihave H := (cut3 _ _) $$ H4
  icases H with ⟨Ha, Hb, Hc⟩
  isplitl [Ha]; · iexact Ha
  isplitl [Hb]; · iexact Hb
  isplitl [Hc]; · iexact Hc
  iexact H5

/-- After region 1 its input windows' array is as entered (each window says so of its own part). -/
theorem arrAt1_in (c : Dev nD) : ∀ w : Fin cfg1.W, w ≠ 3 → (dat1 (Vr2 m) c).arrAt w cfg1.N = Vr2 m c (Pipeline.arrRef spec1 w)
  | ⟨0, _⟩, _ => ((dat1 (Vr2 m) c).arrAt_in 0 rfl _).trans (A_eq1 (Vr2 m) c 0)
  | ⟨1, _⟩, _ => ((dat1 (Vr2 m) c).arrAt_in 1 rfl _).trans (A_eq1 (Vr2 m) c 1)
  | ⟨2, _⟩, _ => ((dat1 (Vr2 m) c).arrAt_in 2 rfl _).trans (A_eq1 (Vr2 m) c 2)
  | ⟨3, _⟩, h => absurd rfl h

/-- EXIT: the pipeline's arrays at their final contents and the rest are the unscoped buffers at `W3`. -/
theorem exit1 (c : Dev nD) :
    (iprop((dat1 (Vr2 m) c).arrays ((dat1 (Vr2 m) c).arrAt · cfg1.N)
        ∗ Pipeline.unscopedRest (Ix := Unit) (Name := ℕ) (U := UR sig nD τ) (Lvl := ℕ) spec1 c (Vr2 m c)) : sProp 𝕄)
      ⊢ StableHlo.held (c : Thread nD τ) (Pipeline.ucRefs τ sig) (W3 m c) := by
  have hub : (unscopedBufs (Ix := Unit) (Name := ℕ) (U := UR sig nD τ) (Lvl := ℕ) c (fun b => W3 m c b) : sProp 𝕄)
      = iprop(Pipeline.arrBufs spec1 c (Vr3 m c) ∗ Pipeline.unscopedRest spec1 c (Vr3 m c)) :=
    Pipeline.unscopedBufs_split₀ cfgs 1 winFacts₀1.arr_unscoped c (Vr3 m c)
  rw [← Pipeline.unscopedBufs_held (Ix := Unit) (Name := ℕ) (U := UR sig nD τ) (Lvl := ℕ) c (W3 m c), hub, arrBufs1_eq, arrays1_eq,
    arrAt1_in m c 0 (by decide), arrAt1_in m c 1 (by decide), arrAt1_in m c 2 (by decide)]
  have hrest : (Pipeline.unscopedRest (Ix := Unit) (Name := ℕ) (U := UR sig nD τ) (Lvl := ℕ) spec1 c (Vr2 m c) : sProp 𝕄)
      = Pipeline.unscopedRest spec1 c (Vr3 m c) := by
    unfold Pipeline.unscopedRest
    exact bigSep_congr fun b hb => by
      rw [show Vr3 m c b = Vr2 m c b from Function.update_of_ne (StableHlo.devRef_ne_of_ne fun e =>
        (Finset.mem_sdiff.mp hb).2 (Finset.mem_image.mpr ⟨3, Finset.mem_univ _, e.symm⟩)) _ _]
  rw [hrest]
  refine sep_mono ?_ .rfl
  have h4 : Vr3 m c main_v4 = Vr2 m c main_v4 := Function.update_of_ne (StableHlo.devRef_ne_of_ne (by decide)) _ _
  have h5 : Vr3 m c main_v5 = (dat1 (Vr2 m) c).arrAt 3 cfg1.N :=
    Function.update_self (β := fun b : DevRef τ sig => Buf (Elt F) ((c : Thread nD τ).1, b)) (Proc.devRef .tc main_v5) (o3 m c) (W2 m c)
  rw [h4, h5]
  iintro ⟨Ha, Hb, Hc, H5⟩
  isplitr [H5]
  · iapply (join3 _ _)
    isplitl [Ha]; · iexact Ha
    isplitl [Hb]; · iexact Hb
    iexact Hc
  iexact H5

set_option backward.isDefEq.respectTransparency.types false in
/-- Region 1 over the thread states: entered with every unscoped buffer at `W2`, left with them at `W3`. -/
def reg1 : Pipeline.RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Run.lean ====
/-
  The run of the whole program: host operations, region 0, region 1, one more host operation — composed in order by
  the launch theorem for several regions. Every weakly fair execution from a memory with zero counters terminates
  without a fault, and in every final memory each unscoped buffer holds the last valuation `W4`: the launch contents
  followed through the host operations and the two regions' write-backs. The arguments are read back through that
  valuation to their launch contents (no segment writes one), and the result is the last reshape of what region 1
  left in its output array.
-/
import proofs.«143152_j40097814675891_2_alg».proof.Proof.Gen.KernelIdeal.Launch
import proofs.«143152_j40097814675891_2_alg».proof.Proof.Gen.KernelIdeal.Skeleton
import proofs.«143152_j40097814675891_2_alg».proof.Proof.Gen.KernelIdeal.Points
import proofs.«143152_j40097814675891_2_alg».proof.Proof.KI.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at the end: the last host operation over what region 1 left. -/
abbrev W4 (c : Dev nD) : Valuation τ sig (Elt F) := StableHlo.after hostOps2 (W3 m c)

theorem W4_eq (c : Dev nD) : V4 m (outs m) c = W4 m c := by
  show StableHlo.after hostOps2 (V3 m (outs m) c) = _
  rw [V3_eq]

/-- A stretch of host operations as a segment over the unscoped buffers from the contents `W`, the generator register
    and the empty dues riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The program's four segments in order. -/
abbrev segs : List (Pipeline.Seg (pcfgs (F := F)) adm (pdats m) () defs₀ Variants.none L lv) :=
  [ .host (hseg hostOps0 hostOps0_sub hostOps0_fresh (fun c => V0 m c)),
    .region (reg0 m),
    .region (reg1 m),
    .host (hseg hostOps2 hostOps2_sub hostOps2_fresh (W3 m)) ]

/-- The program is the run of its segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every execution terminates, and every final memory holds each unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show (iprop(StableHlo.held (c : Thread nD τ) (Pipeline.ucRefs τ sig) (W4 m c) ∗ R c) : sProp 𝕄) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The arguments end as launched. -/
theorem W4_arg (c : Dev nD) :
    W4 m c main_arg0 = m ((c : Thread nD τ).loc main_arg0) ∧ W4 m c main_arg1 = m ((c : Thread nD τ).loc main_arg1)
    ∧ W4 m c main_arg2 = m ((c : Thread nD τ).loc main_arg2) ∧ W4 m c main_arg3 = m ((c : Thread nD τ).loc main_arg3)
    ∧ W4 m c main_arg4 = m ((c : Thread nD τ).loc main_arg4) ∧ W4 m c main_arg5 = m ((c : Thread nD τ).loc main_arg5)
    ∧ W4 m c main_arg6 = m ((c : Thread nD τ).loc main_arg6) ∧ W4 m c main_arg7 = m ((c : Thread nD τ).loc main_arg7) := by
  rw [← W4_eq]
  exact ⟨V4_main_arg0 m _ c, V4_main_arg1 m _ c, V4_main_arg2 m _ c, V4_main_arg3 m _ c, V4_main_arg4 m _ c,
    V4_main_arg5 m _ c, V4_main_arg6 m _ c, V4_main_arg7 m _ c⟩

/-- The frame: every execution terminates and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    obtain ⟨h0, h1, h2, h3, h4, h5, h6, h7⟩ := W4_arg m c
    exact ⟨(h c _ (mem_uc main_arg0 (by decide))).trans h0, (h c _ (mem_uc main_arg1 (by decide))).trans h1,
      (h c _ (mem_uc main_arg2 (by decide))).trans h2, (h c _ (mem_uc main_arg3 (by decide))).trans h3,
      (h c _ (mem_uc main_arg4 (by decide))).trans h4, (h c _ (mem_uc main_arg5 (by decide))).trans h5,
      (h c _ (mem_uc main_arg6 (by decide))).trans h6, (h c _ (mem_uc main_arg7 (by decide))).trans h7⟩) (run_all m ρ)

end Cert.KernelIdeal.Hand

end
-- ==== Proof.Spec.lean ====
/-
  The mathematics both programs compute, stated once over coordinates on the extended reals.

  For a batch entry n and a position s, three linear layers give the query, key and value rows
  q = x·wqᵀ + bq, k = x·wkᵀ + bk, v = x·wvᵀ + bv (1024 features each, read as 16 heads of 64 lanes).
  Head h of the output at position s is the softmax-weighted average of the value rows of the same batch entry:
  the score of key position t is the inner product of the 64 lanes of head h of q(n,s) and k(n,t); the weights
  are exp(score − max score) divided by their sum over the 2048 key positions; there is no scaling and no mask.
-/
import Mathlib
import Idealize.ShloMosaic.PureOps.Ideal
import Idealize.ShloMosaic.Lib.ValueIdx

noncomputable section

namespace Cert.Spec

open Idealize.ShloMosaic

/-- −∞ as the f32 word both programs start their row maxima from, read on the extended reals (never evaluated). -/
abbrev negInf : EReal := Ideal.ofBits .f32 0xFF800000#32

/-- Lane `e` of the head that column `c` belongs to: column (c / 64)·64 + e. -/
def headCol (c : Fin 1024) (e : Fin 64) : Fin 1024 := ⟨c.val / 64 * 64 + e.val, by omega⟩

/-- A linear layer x·wᵀ + b at batch entry n, position s, output feature o. -/
def lin (x : Fin 2 → Fin 2048 → Fin 1024 → EReal) (w : Fin 1024 → Fin 1024 → EReal) (b : Fin 1024 → EReal)
    (n : Fin 2) (s : Fin 2048) (o : Fin 1024) : EReal :=
  (∑ k : Fin 1024, x n s k * w o k) + b o

/-- The maximum of 2048 scores, folded from −∞. -/
def rowMax (sc : Fin 2048 → EReal) : EReal := (Finset.univ : Finset (Fin 2048)).fold max negInf sc

/-- The softmax-weighted average of `vals` under the scores `sc`:
    Σ_t (exp(sc t − max sc) / Σ_u exp(sc u − max sc)) · vals t. -/
def softmaxAvg (sc vals : Fin 2048 → EReal) : EReal :=
  ∑ t : Fin 2048, Ideal.div (Ideal.exp (sc t - rowMax sc)) (∑ u : Fin 2048, Ideal.exp (sc u - rowMax sc)) * vals t

/-- Attention over projected rows q, k, v at batch entry n, position s, output column c. -/
def attn (q k v : Fin 2 → Fin 2048 → Fin 1024 → EReal) (n : Fin 2) (s : Fin 2048) (c : Fin 1024) : EReal :=
  softmaxAvg (fun t => ∑ e : Fin 64, q n s (headCol c e) * k n t (headCol c e)) (fun t => v n t c)

/-- The whole computation at output index (n, s, c). -/
def G (x : Fin 2 → Fin 2048 → Fin 1024 → EReal) (wq : Fin 1024 → Fin 1024 → EReal) (bq : Fin 1024 → EReal)
    (wk : Fin 1024 → Fin 1024 → EReal) (bk : Fin 1024 → EReal) (wv : Fin 1024 → Fin 1024 → EReal) (bv : Fin 1024 → EReal)
    (n : Fin 2) (s : Fin 2048) (c : Fin 1024) : EReal :=
  attn (lin x wq bq) (lin x wk bk) (lin x wv bv) n s c

/-! ## The same over arrays

The arrays are functions on index types of literal shapes; a coordinate function is the array read at `ix2` / `ix3`. -/

open Idealize.ShloMosaic.ValueIdx

/-- The result array [2, 2048, 1024] from the seven float arguments as arrays. -/
def GA (x : (⟨3, ![2, 2048, 1024]⟩ : Shape).Idx → EReal)
    (wq : (⟨2, ![1024, 1024]⟩ : Shape).Idx → EReal) (bq : (⟨1, ![1024]⟩ : Shape).Idx → EReal)
    (wk : (⟨2, ![1024, 1024]⟩ : Shape).Idx → EReal) (bk : (⟨1, ![1024]⟩ : Shape).Idx → EReal)
    (wv : (⟨2, ![1024, 1024]⟩ : Shape).Idx → EReal) (bv : (⟨1, ![1024]⟩ : Shape).Idx → EReal) :
    (⟨3, ![2, 2048, 1024]⟩ : Shape).Idx → EReal :=
  fun i => G (fun n s k => x (ix3 n s k)) (fun o k => wq (ix2 o k)) (fun o => bq (ix1 o))
    (fun o k => wk (ix2 o k)) (fun o => bk (ix1 o)) (fun o k => wv (ix2 o k)) (fun o => bv (ix1 o)) (i 0) (i 1) (i 2)

/-- The packed projection [4096, 3072]: row i of the flattened input against row j of the stacked weights, plus the
    stacked bias laid out as one row. -/
def projA (x2 : (⟨2, ![4096, 1024]⟩ : Shape).Idx → EReal) (w3 : (⟨2, ![3072, 1024]⟩ : Shape).Idx → EReal)
    (b3 : (⟨2, ![1, 3072]⟩ : Shape).Idx → EReal) : (⟨2, ![4096, 3072]⟩ : Shape).Idx → EReal :=
  fun i => (∑ k : Fin 1024, x2 (ix2 (i 0) k) * w3 (ix2 (i 1) k)) + b3 (ix2 (0 : Fin 1) (i 1))

/-- Row `(r / 2048)·2048 + t` of a [4096, ·] array: position t of the batch entry row r belongs to. -/
def batchRow (r : Fin 4096) (t : Fin 2048) : Fin 4096 := ⟨r.val / 2048 * 2048 + t.val, by omega⟩

/-- Column c of the query / key / value third of the packed [·, 3072] axis. -/
def qCol (c : Fin 1024) : Fin 3072 := ⟨c.val, by omega⟩
def kCol (c : Fin 1024) : Fin 3072 := ⟨1024 + c.val, by omega⟩
def vCol (c : Fin 1024) : Fin 3072 := ⟨2048 + c.val, by omega⟩

/-- Attention read off the packed projection P [4096, 3072] (columns 0–1023 the queries, 1024–2047 the keys,
    2048–3071 the values), at row r and column c of the [4096, 1024] output. -/
def attnRC (P : (⟨2, ![4096, 3072]⟩ : Shape).Idx → EReal) (r : Fin 4096) (c : Fin 1024) : EReal :=
  softmaxAvg
    (fun t => ∑ e : Fin 64, P (ix2 r (qCol (headCol c e))) * P (ix2 (batchRow r t) (kCol (headCol c e))))
    (fun t => P (ix2 (batchRow r t) (vCol c)))

/-- The same as an array over [4096, 1024]. -/
def attnA (P : (⟨2, ![4096, 3072]⟩ : Shape).Idx → EReal) : (⟨2, ![4096, 1024]⟩ : Shape).Idx → EReal :=
  fun i => attnRC P (i 0) (i 1)

end Cert.Spec

end
-- ==== Proof.KI.Final0.lean ====
/-
  What region 0 leaves in its output array, as ONE function of the three arrays it reads. At grid point (a, b) the
  body reads rows a·1024 … of the flattened input (all 1024 columns), rows b·512 … of the stacked weights and columns
  b·512 … of the bias row, and writes block (a, b) of the [4096, 3072] output. Entry (r, q) of the written block is
  the inner product of input row a·1024 + r with weight row b·512 + q plus the bias at b·512 + q — entry
  (a·1024 + r, b·512 + q) of the packed projection. The 4 × 6 blocks tile the output, so after the run it IS the
  packed projection of the arrays the region found.
-/
import proofs.«143152_j40097814675891_2_alg».proof.Proof.Gen.KernelIdeal.Launch
import proofs.«143152_j40097814675891_2_alg».proof.Proof.Gen.KernelIdeal.Skeleton
import proofs.«143152_j40097814675891_2_alg».proof.Proof.Gen.KernelIdeal.Points
import proofs.«143152_j40097814675891_2_alg».proof.Proof.KI.Dats
import proofs.«143152_j40097814675891_2_alg».proof.Proof.Spec
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The body's block function read at an index: the inner product of a row of the first block with a row of the
    second, plus the bias. -/
def Blk0 : Prop := ∀ (x0 : Vec Ideal S1024x1024 .f32) (x1 : Vec Ideal S512x1024 .f32) (x2 : Vec Ideal S1x512 .f32) (i : Fin 1024) (j : Fin 512),
  out0_3 (F := Ideal) x0 x1 x2 (ix2 i j) = (∑ k : Fin 1024, x0 (ix2 i k) * x1 (ix2 j k)) + x2 (ix2 (0 : Fin 1) j)

/-- The index maps over the grid: the input block moves with the output's row block, the weight and bias blocks with
    its column block, and the other coordinates stay at zero. -/
theorem idx_facts0 : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 5 :=
  (by decide +kernel : ∀ t : Fin grid0.N, _)

/-- Every block of the output is some point's. -/
theorem idx_onto0 : ∀ (q0 : Fin 4) (q1 : Fin 6), ∃ t : Fin cfg0.N, win0_3.index t = ![q0.val, q1.val] :=
  (by decide +kernel : ∀ (q0 : Fin 4) (q1 : Fin 6), ∃ t : Fin grid0.N, win0_3.index t = ![q0.val, q1.val])

/-- The packed projection of the arrays region 0 finds. -/
abbrev P0 (c : Dev nD) : S4096x3072.Idx → EReal := Cert.Spec.projA (V c main_v2) (V c main_v0) (V c main_v3)

/-- What point `t` writes back, at block entry (r, q): the packed projection at the entry's place in the array. -/
theorem flushed0_at (hblk : Blk0) (c : Dev nD) (t : Fin cfg0.N) (r : Fin 1024) (q : Fin 512) :
    out0_3 (F := Ideal) (iblk0 V c 0 t) (iblk0 V c 1 t) (iblk0 V c 2 t) (ix2 r q)
      = P0 V c (((cfg0.win 3).blk t).view.emb (ix2 r q)) := by
  rw [hblk]
  obtain ⟨e0, e1, e2, e3, e4, e5, b0, b1⟩ := idx_facts0 t
  unfold P0 Cert.Spec.projA
  have hx : ∀ k : Fin 1024, iblk0 V c 0 t (ix2 r k) = V c main_v2 (ix2 ((((cfg0.win 3).blk t).view.emb (ix2 r q)) 0) k) := fun k => by
    show V c main_v2 (((cfg0.win 0).blk t).view.emb (ix2 r k)) = _
    refine congrArg _ (funext fun a => Fin.ext ?_)
    match a with
    | ⟨0, _⟩ => show win0_0.index t (0 : Fin 2) * 1024 + 1 * r.val = win0_3.index t (0 : Fin 2) * 1024 + 1 * r.val; omega
    | ⟨1, _⟩ => show win0_0.index t (1 : Fin 2) * 1024 + 1 * k.val = k.val; omega
  have hw : ∀ k : Fin 1024, iblk0 V c 1 t (ix2 q k) = V c main_v0 (ix2 ((((cfg0.win 3).blk t).view.emb (ix2 r q)) 1) k) := fun k => by
    show V c main_v0 (((cfg0.win 1).blk t).view.emb (ix2 q k)) = _
    refine congrArg _ (funext fun a => Fin.ext ?_)
    match a with
    | ⟨0, _⟩ => show win0_1.index t (0 : Fin 2) * 512 + 1 * q.val = win0_3.index t (1 : Fin 2) * 512 + 1 * q.val; omega
    | ⟨1, _⟩ => show win0_1.index t (1 : Fin 2) * 1024 + 1 * k.val = k.val; omega
  have hb : iblk0 V c 2 t (ix2 (0 : Fin 1) q) = V c main_v3 (ix2 (0 : Fin 1) ((((cfg0.win 3).blk t).view.emb (ix2 r q)) 1)) := by
    show V c main_v3 (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * q.val = win0_3.index t (1 : Fin 2) * 512 + 1 * q.val; omega
  rw [hb]
  exact congrArg (· + _) (Finset.sum_congr rfl fun k _ => by rw [hx k, hw k])

/-- WHAT POINT `t` WRITES BACK is block `t` of the packed projection. -/
theorem flushed0_eq (hblk : Blk0) (c : Dev nD) (t : Fin cfg0.N) :
    (dat0 V c).flushed 3 t = ((cfg0.win 3).blk t).view.read (Elt Ideal) (P0 V c) := by
  show (cfg0.win 3).cut (grid0.coords t) ((dat0 V c).after 3 t) = _
  rw [after0_3]
  funext j
  have hj : j = ix2 (j 0) (j 1) := eq_ix2 j
  rw [hj]
  exact flushed0_at V hblk c t (j 0) (j 1)

/-- An index of the output is in point `t`'s block iff each coordinate is in the block's range on its axis. -/
theorem mem_blk0 (t : Fin cfg0.N) (i : S4096x3072.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v4).slice (win0_3.rect t)).set ↔ _
  rw [View.set_slice_whole, Rect.mem_set_unit]
  exact Iff.rfl

/-- The blocks cover the output. -/
theorem cover0 (i : S4096x3072.Idx) : ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := idx_onto0 ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- THE OUTPUT ARRAY after region 0: the packed projection of the arrays the region found. -/
theorem final0 (hblk : Blk0) (c : Dev nD) : (dat0 V c).arrAt 3 cfg0.N = P0 V c :=
  (dat0 V c).arrAt_eq_of_cover 3 (P0 V c) (fun t _ => flushed0_eq V hblk c t) cover0

end Cert.KernelIdeal.Hand

end
-- ==== Proof.KI.Final1.lean ====
/-
  What region 1 leaves in its output array, as ONE function of the packed projection it reads through three windows.
  At grid point (n, a) — batch entry n, query tile a — the body reads the 256 query rows (n·8 + a)·256 … of the packed
  array's first 1024 columns, and the 2048 rows of batch entry n of its second (keys) and third (values) 1024
  columns, and writes rows (n·8 + a)·256 … of the [4096, 1024] output. Entry (r, c) of the written block is the
  softmax-weighted average over the 2048 key rows of batch entry n — the batch entry the query row belongs to — so it
  is the attention read off the packed array at the entry's place. The 16 row blocks tile the output.
-/
import proofs.«143152_j40097814675891_2_alg».proof.Proof.Gen.KernelIdeal.Launch
import proofs.«143152_j40097814675891_2_alg».proof.Proof.Gen.KernelIdeal.Skeleton
import proofs.«143152_j40097814675891_2_alg».proof.Proof.Gen.KernelIdeal.Points
import proofs.«143152_j40097814675891_2_alg».proof.Proof.KI.Dats
import proofs.«143152_j40097814675891_2_alg».proof.Proof.Spec
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The body's block function read at an index: the softmax-weighted average of the value block's column under the
    scores of the query row against the key rows, over the 64 lanes of the column's head. -/
def Blk1 : Prop := ∀ (x0 : Vec Ideal S256x1024 .bf16) (x1 x2 : Vec Ideal S2048x1024 .bf16) (r : Fin 256) (c : Fin 1024),
  out1_3 (F := Ideal) x0 x1 x2 (ix2 r c)
    = Cert.Spec.softmaxAvg (fun t => ∑ e : Fin 64, x0 (ix2 r (Cert.Spec.headCol c e)) * x1 (ix2 t (Cert.Spec.headCol c e))) (fun t => x2 (ix2 t c))

/-- The index maps over the grid: the query block moves with the output's row block in the first column block; the
    key and value blocks are batch entry (row block / 8) in the second and third column blocks. -/
theorem idx_facts1 : ∀ t : Fin cfg1.N,
    win1_0.index t (0 : Fin 2) = win1_3.index t (0 : Fin 2) ∧ win1_0.index t (1 : Fin 2) = 0
    ∧ win1_1.index t (0 : Fin 2) = win1_3.index t (0 : Fin 2) / 8 ∧ win1_1.index t (1 : Fin 2) = 1
    ∧ win1_2.index t (0 : Fin 2) = win1_3.index t (0 : Fin 2) / 8 ∧ win1_2.index t (1 : Fin 2) = 2
    ∧ win1_3.index t (0 : Fin 2) ≤ 15 ∧ win1_3.index t (1 : Fin 2) = 0 :=
  (by decide +kernel : ∀ t : Fin grid1.N, _)

/-- Every row block of the output is some point's. -/
theorem idx_onto1 : ∀ q0 : Fin 16, ∃ t : Fin cfg1.N, win1_3.index t = ![q0.val, 0] :=
  (by decide +kernel : ∀ q0 : Fin 16, ∃ t : Fin grid1.N, win1_3.index t = ![q0.val, 0])

/-- The attention read off the packed array region 1 finds. -/
abbrev A1 (c : Dev nD) : S4096x1024.Idx → EReal := Cert.Spec.attnA (V c main_v4)

/-- What point `t` writes back, at block entry (r, q): the attention at the entry's place in the array. -/
theorem flushed1_at (hblk : Blk1) (c : Dev nD) (t : Fin cfg1.N) (r : Fin 256) (q : Fin 1024) :
    out1_3 (F := Ideal) (iblk1 V c 0 t) (iblk1 V c 1 t) (iblk1 V c 2 t) (ix2 r q)
      = A1 V c (((cfg1.win 3).blk t).view.emb (ix2 r q)) := by
  rw [hblk]
  obtain ⟨e0, e1, e2, e3, e4, e5, b0, b1⟩ := idx_facts1 t
  have hc : ((((cfg1.win 3).blk t).view.emb (ix2 r q)) 1 : Fin 1024) = q :=
    Fin.ext (by show win1_3.index t (1 : Fin 2) * 1024 + 1 * q.val = q.val; omega)
  have hr0 : ((((cfg1.win 3).blk t).view.emb (ix2 r q)) 0 : Fin 4096).val = win1_3.index t (0 : Fin 2) * 256 + 1 * r.val := rfl
  refine Eq.trans ?_ (congrArg (Cert.Spec.attnRC (V c main_v4) ((((cfg1.win 3).blk t).view.emb (ix2 r q)) 0)) hc.symm)
  unfold Cert.Spec.attnRC
  have hq : ∀ x : Fin 1024, iblk1 V c 0 t (ix2 r x)
      = V c main_v4 (ix2 ((((cfg1.win 3).blk t).view.emb (ix2 r q)) 0 : Fin 4096) (Cert.Spec.qCol x)) := fun x => by
    show V c main_v4 (((cfg1.win 0).blk t).view.emb (ix2 r x)) = _
    refine congrArg _ (funext fun a => Fin.ext ?_)
    match a with
    | ⟨0, _⟩ => show win1_0.index t (0 : Fin 2) * 256 + 1 * r.val = win1_3.index t (0 : Fin 2) * 256 + 1 * r.val; omega
    | ⟨1, _⟩ => show win1_0.index t (1 : Fin 2) * 1024 + 1 * x.val = x.val; omega
  have hk : ∀ (tt : Fin 2048) (x : Fin 1024), iblk1 V c 1 t (ix2 tt x)
      = V c main_v4 (ix2 (Cert.Spec.batchRow ((((cfg1.win 3).blk t).view.emb (ix2 r q)) 0 : Fin 4096) tt) (Cert.Spec.kCol x)) := fun tt x => by
    show V c main_v4 (((cfg1.win 1).blk t).view.emb (ix2 tt x)) = _
    refine congrArg _ (funext fun a => Fin.ext ?_)
    have hr := r.isLt
    match a with
    | ⟨0, _⟩ => show win1_1.index t (0 : Fin 2) * 2048 + 1 * tt.val = (win1_3.index t (0 : Fin 2) * 256 + 1 * r.val) / 2048 * 2048 + tt.val; omega
    | ⟨1, _⟩ => show win1_1.index t (1 : Fin 2) * 1024 + 1 * x.val = 1024 + x.val; omega
  have hv : ∀ (tt : Fin 2048) (x : Fin 1024), iblk1 V c 2 t (ix2 tt x)
      = V c main_v4 (ix2 (Cert.Spec.batchRow ((((cfg1.win 3).blk t).view.emb (ix2 r q)) 0 : Fin 4096) tt) (Cert.Spec.vCol x)) := fun tt x => by
    show V c main_v4 (((cfg1.win 2).blk t).view.emb (ix2 tt x)) = _
    refine congrArg _ (funext fun a => Fin.ext ?_)
    have hr := r.isLt
    match a with
    | ⟨0, _⟩ => show win1_2.index t (0 : Fin 2) * 2048 + 1 * tt.val = (win1_3.index t (0 : Fin 2) * 256 + 1 * r.val) / 2048 * 2048 + tt.val; omega
    | ⟨1, _⟩ => show win1_2.index t (1 : Fin 2) * 1024 + 1 * x.val = 2048 + x.val; omega
  exact congrArg₂ Cert.Spec.softmaxAvg
    (funext fun tt => Finset.sum_congr rfl fun e _ => by rw [hq, hk])
    (funext fun tt => hv tt q)

/-- WHAT POINT `t` WRITES BACK is block `t` of the attention array. -/
theorem flushed1_eq (hblk : Blk1) (c : Dev nD) (t : Fin cfg1.N) :
    (dat1 V c).flushed 3 t = ((cfg1.win 3).blk t).view.read (Elt Ideal) (A1 V c) := by
  show (cfg1.win 3).cut (grid1.coords t) ((dat1 V c).after 3 t) = _
  rw [after1_3]
  funext j
  have hj : j = ix2 (j 0) (j 1) := eq_ix2 j
  rw [hj]
  exact flushed1_at V hblk c t (j 0) (j 1)

/-- An index of the output is in point `t`'s block iff each coordinate is in the block's range on its axis. -/
theorem mem_blk1 (t : Fin cfg1.N) (i : S4096x1024.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v5).slice (win1_3.rect t)).set ↔ _
  rw [View.set_slice_whole, Rect.mem_set_unit]
  exact Iff.rfl

/-- The blocks cover the output. -/
theorem cover1 (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ := idx_onto1 ⟨(i 0).val / 256, by omega⟩
  have q0 : win1_3.index t (0 : Fin 2) = (i 0).val / 256 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 1024 ≤ (i 1).val ∧ (i 1).val < win1_3.index t (1 : Fin 2) * 1024 + 1024; omega

/-- THE OUTPUT ARRAY after region 1: the attention read off the packed array the region found. -/
theorem final1 (hblk : Blk1) (c : Dev nD) : (dat1 V c).arrAt 3 cfg1.N = A1 V c :=
  (dat1 V c).arrAt_eq_of_cover 3 (A1 V c) (fun t _ => flushed1_eq V hblk c t) cover1

end Cert.KernelIdeal.Hand

end
-- ==== Proof.LibDotNT.lean ====
/-
  A matrix product that contracts the LAST axis of both operands, [M,K] × [N,K] → [M,N] (the right operand used
  transposed: q·kᵀ, x·Wᵀ), accumulated into the zero matrix and read at (i, j) over the extended reals:
  the sum over k of l(i,k) · r(j,k).
-/
import Idealize.ShloMosaic.PureOps.Ideal.Laws
import Idealize.ShloMosaic.Lib.ValueIdx

namespace Idealize.ShloMosaic.ValueIdx

open Idealize.ShloMosaic

/-- A `tpu.matmul` with dimension numbers ⟨[1],[1],[0],[0],[],[]⟩ into the zero accumulator, at `(i, j)`, is
    `∑ k, l (i, k) * r (j, k)`. The record is any with those dimension numbers (`hr`, `hs`: its contraction shape has one
    axis of extent `K`; for a printed record both are `rfl`). -/
theorem matmul_nt_zero_apply {M N K : ℕ} {φ₁ φ₂ : FTy}
    (D : DotDims (⟨2, ![M, K]⟩ : Shape) ⟨2, ![N, K]⟩ ⟨2, ![M, N]⟩)
    (hlc : D.lhsContracting = [1]) (hrc : D.rhsContracting = [1])
    (hln : D.lhsNonContracting = [0]) (hrn : D.rhsNonContracting = [0])
    (hlb : D.lhsBatch = []) (hrb : D.rhsBatch = [])
    (hr : D.contr.rank = 1) (hs : D.contr.size ⟨0, by omega⟩ = K)
    (prec : Option ContractPrecision)
    (l : FVec Ideal (⟨2, ![M, K]⟩ : Shape) φ₁) (r : FVec Ideal (⟨2, ![N, K]⟩ : Shape) φ₂) (i : Fin M) (j : Fin N) :
    FloatOps.matmul D prec l r (constant (⟨2, ![M, N]⟩ : Shape) .f32 0x00000000#32) (ix2 i j)
      = ∑ k : Fin K, l (ix2 i k) * r (ix2 j k) := by
  rw [Ideal.matmul_constant_zero_apply, ← Equiv.sum_comp (contrEquiv1 D K hr hs).symm]
  refine Finset.sum_congr rfl fun k _ => ?_
  have hk := contrEquiv1_symm_val D K hr hs k
  have key : ∀ (p : ℕ) (hp : p < (⟨2, ![M, N]⟩ : Shape).rank) (q : Fin 2), p = q.val → ((ix2 i j) ⟨p, hp⟩).val = ((ix2 i j) q).val :=
    fun p hp q h => by subst h; rfl
  have el : D.lhsIdx (ix2 i j) ((contrEquiv1 D K hr hs).symm k) = ix2 i k := funext fun a => Fin.ext (by
    match a with
    | ⟨0, _⟩ =>
      unfold DotDims.lhsIdx
      rw [dif_neg (by rw [hlb]; exact List.not_mem_nil), dif_pos (by rw [hln]; exact List.mem_singleton.mpr rfl)]
      simp only [Fin.val_cast]
      exact key _ _ 0 (by simp [hlb, hln])
    | ⟨1, _⟩ => exact (D.lhsIdx_val_of_single hlc _ _).trans hk)
  have er : D.rhsIdx (ix2 i j) ((contrEquiv1 D K hr hs).symm k) = ix2 j k := funext fun a => Fin.ext (by
    match a with
    | ⟨0, _⟩ =>
      unfold DotDims.rhsIdx
      rw [dif_neg (by rw [hrb]; exact List.not_mem_nil), dif_pos (by rw [hrn]; exact List.mem_singleton.mpr rfl)]
      simp only [Fin.val_cast]
      exact key _ _ 1 (by simp [hlb, hln, hrn])
    | ⟨1, _⟩ => exact (D.rhsIdx_val_of_single hrc _ _).trans hk)
  rw [el, er]

end Idealize.ShloMosaic.ValueIdx
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.HeadValue.lean ====
/-
  The arithmetic of the two kernels, read at an index over the extended reals.

  The first kernel's stored block is a linear layer: row i of x against row j of w, plus the bias row.
  The second kernel's sixteen stored blocks are each one attention head computed from three 64-column slices
  (queries [256, 64], keys and values [2048, 64]): the scores S = q·kᵀ, each row's maximum m folded from −∞,
  the weights exp(S − m) divided by their row sums, and the weighted average of the value rows.  Read at
  (r, d) that is the softmax-weighted average of column d of the values under the scores of row r.
-/
import proofs.«143152_j40097814675891_2_alg».proof.Proof.Gen.KernelIdeal.Skeleton
import proofs.«143152_j40097814675891_2_alg».proof.Proof.Spec
import proofs.«143152_j40097814675891_2_alg».proof.Proof.LibDotNT
import proofs.«143152_j40097814675891_2_alg».proof.Proof.LibDot
import proofs.«143152_j40097814675891_2_alg».proof.Proof.LibColumn
import proofs.«143152_j40097814675891_2_alg».proof.Proof.LibRowSum
import Idealize.ShloMosaic.PureOps.Ideal.Laws
import Idealize.ShloMosaic.Lib.ValueIdx
import Idealize.ShloMosaic.Lib.ValueLayout
import Idealize.ShloMosaic.Lib.Pipeline.Value

noncomputable section

namespace Cert.KernelValue

open Cert.KernelIdeal Cert.KernelIdeal.Gen Idealize.ShloMosaic Idealize.ShloMosaic.ValueIdx

/-! ## One attention head from its three slices -/

/-- One head from its 64-column slices of the queries, keys and values: scores, row maxima, exponentials,
    row sums, quotient, weighted average of the values. -/
noncomputable def head {F : FTy → Type} [FloatOps F] (qh : FVec F S256x64 .bf16) (kh vh : FVec F S2048x64 .bf16) :
    FVec F S256x64 .f32 :=
  have cst_80 : FVec F S256x2048 .f32 := constant S256x2048 .f32 0x00000000#32
  have v249 : FVec F S256x2048 .f32 := matmul dot_S256x64_S2048x64_S256x2048_1_1_0_0_n_n none qh kh cst_80
  have v250 : FVec F S256 .f32 := multiReduction .maximumf [1] S256 v249 0xFF800000#32 reduces_S256x2048_S256 (.inl rfl) rfl
  have v251 : FVec F S256x1 .f32 := shapeCast S256x1 v250 shapeCasts_S256_S256x1
  have v252 : FVec F S256x2048 .f32 := broadcastTo S256x2048 v251 broadcasts_S256x1_S256x2048
  have v253 : FVec F S256x2048 .f32 := subf v249 v252
  have v254 : FVec F S256x2048 .f32 := exp v253
  have v255 : FVec F S256 .f32 := multiReduction .add [1] S256 v254 0x00000000#32 reduces_S256x2048_S256 (.inl rfl) rfl
  have v256 : FVec F S256x1 .f32 := shapeCast S256x1 v255 shapeCasts_S256_S256x1
  have v257 : FVec F S256x2048 .f32 := broadcastTo S256x2048 v256 broadcasts_S256x1_S256x2048
  have v258 : FVec F S256x2048 .f32 := divf v254 v257
  have v259 : FVec F S256x2048 .bf16 := truncf .bf16 v258 bitsLt_bf16_f32
  have cst_83 : FVec F S256x64 .f32 := constant S256x64 .f32 0x00000000#32
  have v260 : FVec F S256x64 .f32 := matmul dot_S256x2048_S2048x64_S256x64_1_0_0_1_n_n none v259 vh cst_83
  v260

/-- The last store's payload is the head of its three slices. -/
theorem k1_pay1_eq_head {F : FTy → Type} [FloatOps F] (v3 v5 : FVec F S2048x1024 .bf16) (v246 : FVec F S256x64 .bf16) :
    k1_pay1 v3 v5 v246
      = head v246 (extractStridedSlice S2048x64 ![0, 960] v3 slices_S2048x1024_o0_960_S2048x64)
          (extractStridedSlice S2048x64 ![0, 960] v5 slices_S2048x1024_o0_960_S2048x64) := rfl

/-! ## The head read at an index

The chain after the scores is named piece by piece: the row maxima laid out over the score matrix, the exponentials,
their row sums laid out the same way, and the weighted average. -/

/-- Each row's maximum (folded from −∞), laid out over the whole [256, 2048] matrix. -/
def rowMaxV {F : FTy → Type} [FloatOps F] (S : FVec F S256x2048 .f32) : FVec F S256x2048 .f32 :=
  broadcastTo S256x2048
    (shapeCast S256x1 (multiReduction .maximumf [1] S256 S 0xFF800000#32 reduces_S256x2048_S256 (.inl rfl) rfl) shapeCasts_S256_S256x1)
    broadcasts_S256x1_S256x2048

/-- exp(S − row maximum). -/
def expV {F : FTy → Type} [FloatOps F] (S : FVec F S256x2048 .f32) : FVec F S256x2048 .f32 := exp (subf S (rowMaxV S))

/-- Each row's sum (from zero), laid out over the whole [256, 2048] matrix. -/
def rowSumV {F : FTy → Type} [FloatOps F] (E : FVec F S256x2048 .f32) : FVec F S256x2048 .f32 :=
  broadcastTo S256x2048
    (shapeCast S256x1 (multiReduction .add [1] S256 E 0x00000000#32 reduces_S256x2048_S256 (.inl rfl) rfl) shapeCasts_S256_S256x1)
    broadcasts_S256x1_S256x2048

/-- The head from its scores: the normalised exponentials times the values. -/
def tail {F : FTy → Type} [FloatOps F] (S : FVec F S256x2048 .f32) (vh : FVec F S2048x64 .bf16) : FVec F S256x64 .f32 :=
  matmul dot_S256x2048_S2048x64_S256x64_1_0_0_1_n_n none (truncf .bf16 (divf (expV S) (rowSumV (expV S))) bitsLt_bf16_f32) vh
    (constant S256x64 .f32 0x00000000#32)

/-- The head is the tail of its scores q·kᵀ. -/
theorem head_eq_tail {F : FTy → Type} [FloatOps F] (qh : FVec F S256x64 .bf16) (kh vh : FVec F S2048x64 .bf16) :
    head qh kh vh = tail (matmul dot_S256x64_S2048x64_S256x2048_1_1_0_0_n_n none qh kh (constant S256x2048 .f32 0x00000000#32)) vh := rfl

/-- The scores at (r, t): the inner product of query row r and key row t. -/
theorem scores_apply (qh : FVec Ideal S256x64 .bf16) (kh : FVec Ideal S2048x64 .bf16) (r : Fin 256) (t : Fin 2048) :
    matmul dot_S256x64_S2048x64_S256x2048_1_1_0_0_n_n none qh kh (constant (F := Ideal) S256x2048 .f32 0x00000000#32) (ix2 r t)
      = ∑ e : Fin 64, qh (ix2 r e) * kh (ix2 t e) :=
  matmul_nt_zero_apply dot_S256x64_S2048x64_S256x2048_1_1_0_0_n_n rfl rfl rfl rfl rfl rfl rfl rfl none qh kh r t

/-- A vector [256] laid out as a column and broadcast along the rows reads its entry r at (r, t). -/
theorem column_apply (v : FVec Ideal S256 .f32) (r : Fin 256) (t : Fin 2048) :
    broadcastTo S256x2048 (shapeCast S256x1 v shapeCasts_S256_S256x1) broadcasts_S256x1_S256x2048 (ix2 r t) = v (ix1 r) :=
  (broadcastTo_a1_ab_apply (shapeCast S256x1 v shapeCasts_S256_S256x1) broadcasts_S256x1_S256x2048 r t).trans
    (shapeCast_a_a1_apply v shapeCasts_S256_S256x1 r 0)

/-- A row maximum from the word of −∞, read at row r: the fold of max over the row's entries. -/
theorem multiReduction_max_rows_apply (S : FVec Ideal S256x2048 .f32) (hr : S256x2048.Reduces [1] S256) (hφ : FKind.Formats .f32)
    (hacc : (0xFF800000#32 : BitVec 32) = FKind.maximumf.neutral .f32 hφ) (r : Fin 256) (sc : Fin 2048 → EReal)
    (hS : ∀ t, S (ix2 r t) = sc t) :
    multiReduction .maximumf [1] S256 S 0xFF800000#32 hr hφ hacc (ix1 r) = Cert.Spec.rowMax sc :=
  (Ideal.multiReduction_maximumf_single S _ hr hφ hacc (ix1 r)).trans
    (Finset.fold_congr fun k _ => (congrArg S (idx2_ext _ r k rfl rfl)).trans (hS k))

theorem rowMaxV_apply (S : FVec Ideal S256x2048 .f32) (r : Fin 256) (t : Fin 2048) (sc : Fin 2048 → EReal)
    (hS : ∀ t, S (ix2 r t) = sc t) : rowMaxV S (ix2 r t) = Cert.Spec.rowMax sc :=
  (column_apply _ r t).trans (multiReduction_max_rows_apply S _ _ _ r sc hS)

theorem expV_apply (S : FVec Ideal S256x2048 .f32) (r : Fin 256) (t : Fin 2048) (sc : Fin 2048 → EReal)
    (hS : ∀ t, S (ix2 r t) = sc t) : expV S (ix2 r t) = Ideal.exp (sc t - Cert.Spec.rowMax sc) := by
  show Ideal.exp (S (ix2 r t) - rowMaxV S (ix2 r t)) = _
  rw [hS t, rowMaxV_apply S r t sc hS]

theorem rowSumV_apply (E : FVec Ideal S256x2048 .f32) (r : Fin 256) (t : Fin 2048) :
    rowSumV E (ix2 r t) = ∑ u : Fin 2048, E (ix2 r u) :=
  (column_apply _ r t).trans (multiReduction_add_rows_apply E _ _ _ r)

/-- The record of the product P·v: rows by columns. -/
theorem plainPV : Cert.LibDot.Plain dot_S256x2048_S2048x64_S256x64_1_0_0_1_n_n where
  hrank := rfl
  hs := rfl
  hl0 := fun j k => by
    unfold DotDims.lhsIdx
    rw [dif_neg (by decide), dif_pos (by decide)]
    rfl
  hl1 := fun j k => dot_S256x2048_S2048x64_S256x64_1_0_0_1_n_n.lhsIdx_val_of_single rfl j k
  hr0 := fun j k => dot_S256x2048_S2048x64_S256x64_1_0_0_1_n_n.rhsIdx_val_of_single rfl j k
  hr1 := fun j k => by
    unfold DotDims.rhsIdx
    rw [dif_neg (by decide), dif_pos (by decide)]
    rfl

theorem tail_apply (S : FVec Ideal S256x2048 .f32) (vh : FVec Ideal S2048x64 .bf16) (r : Fin 256) (d : Fin 64)
    (sc : Fin 2048 → EReal) (hS : ∀ t, S (ix2 r t) = sc t) :
    tail S vh (ix2 r d) = Cert.Spec.softmaxAvg sc (fun t => vh (ix2 t d)) := by
  refine (Cert.LibDot.matmul_ix2 plainPV none _ vh r d).trans ?_
  refine Finset.sum_congr rfl fun t _ => congrArg (· * vh (ix2 t d)) ?_
  show Ideal.div (expV S (ix2 r t)) (rowSumV (expV S) (ix2 r t)) = _
  rw [rowSumV_apply, expV_apply S r t sc hS]
  exact congrArg _ (Finset.sum_congr rfl fun u _ => expV_apply S r u sc hS)

/-- One head at (r, d): the softmax-weighted average of column d of the values under the scores of query row r. -/
theorem head_apply (qh : FVec Ideal S256x64 .bf16) (kh vh : FVec Ideal S2048x64 .bf16) (r : Fin 256) (d : Fin 64) :
    head (F := Ideal) qh kh vh (ix2 r d)
      = Cert.Spec.softmaxAvg (fun t => ∑ e : Fin 64, qh (ix2 r e) * kh (ix2 t e)) (fun t => vh (ix2 t d)) :=
  (congrFun (head_eq_tail qh kh vh) (ix2 r d)).trans
    (tail_apply _ vh r d _ fun t => scores_apply qh kh r t)

/-! ## The first kernel's block: a linear layer -/

/-- The record of the product x·wᵀ contracts the last axis of both operands. -/
theorem proj_scores_apply (l : FVec Ideal S1024x1024 .bf16) (rr : FVec Ideal S512x1024 .bf16) (i : Fin 1024) (j : Fin 512) :
    matmul dot_S1024x1024_S512x1024_S1024x512_1_1_0_0_n_n none l rr (constant (F := Ideal) S1024x512 .f32 0x00000000#32) (ix2 i j)
      = ∑ k : Fin 1024, l (ix2 i k) * rr (ix2 j k) :=
  matmul_nt_zero_apply dot_S1024x1024_S512x1024_S1024x512_1_1_0_0_n_n rfl rfl rfl rfl rfl rfl rfl rfl none l rr i j

/-- The first kernel's stored block at (i, j): row i of x against row j of w, plus the bias row at j. -/
theorem proj_pay_apply (x : Vec Ideal S1024x1024 .f32) (w : Vec Ideal S512x1024 .f32) (b : Vec Ideal S1x512 .f32)
    (i : Fin 1024) (j : Fin 512) :
    k0_pay1 (F := Ideal) x w b (ix2 i j) = (∑ k : Fin 1024, x (ix2 i k) * w (ix2 j k)) + b (ix2 (0 : Fin 1) j) := by
  show matmul dot_S1024x1024_S512x1024_S1024x512_1_1_0_0_n_n none
        (truncf .bf16 (shapeCast S1024x1024 x shapeCasts_S1024x1024_S1024x1024) bitsLt_bf16_f32)
        (truncf .bf16 (shapeCast S512x1024 w shapeCasts_S512x1024_S512x1024) bitsLt_bf16_f32)
        (constant (F := Ideal) S1024x512 .f32 0x00000000#32) (ix2 i j)
      + broadcastTo S1024x512 (shapeCast S1x512 b shapeCasts_S1x512_S1x512) broadcasts_S1x512_S1024x512 (ix2 i j) = _
  rw [proj_scores_apply, shapeCast_self, shapeCast_self, shapeCast_self]
  exact congrArg _ (broadcastTo_1b_ab_apply b broadcasts_S1x512_S1024x512 i j)

/-! ## A 64-column slice read at an index -/

/-- Columns o … o+63 of a [256, 1024] array, read at (r, e): the array at (r, o + e). -/
theorem slice_q_apply {α : Type} (o : ℕ) (ho : o + 64 ≤ 1024) (x : S256x1024.Idx → α) (h : S256x1024.Slices ![0, o] S256x64)
    (r : Fin 256) (e : Fin 64) :
    extractStridedSlice S256x64 ![0, o] x h (ix2 r e) = x (ix2 r (⟨o + e.val, by omega⟩ : Fin 1024)) :=
  extractStridedSlice_apply ![0, o] x h (ix2 r e) (ix2 r (⟨o + e.val, by omega⟩ : Fin 1024)) fun a => by
    match a with
    | ⟨0, _⟩ => exact (Nat.zero_add _).symm
    | ⟨1, _⟩ => rfl

/-- Columns o … o+63 of a [2048, 1024] array, read at (t, e): the array at (t, o + e). -/
theorem slice_kv_apply {α : Type} (o : ℕ) (ho : o + 64 ≤ 1024) (x : S2048x1024.Idx → α) (h : S2048x1024.Slices ![0, o] S2048x64)
    (t : Fin 2048) (e : Fin 64) :
    extractStridedSlice S2048x64 ![0, o] x h (ix2 t e) = x (ix2 t (⟨o + e.val, by omega⟩ : Fin 1024)) :=
  extractStridedSlice_apply ![0, o] x h (ix2 t e) (ix2 t (⟨o + e.val, by omega⟩ : Fin 1024)) fun a => by
    match a with
    | ⟨0, _⟩ => exact (Nat.zero_add _).symm
    | ⟨1, _⟩ => rfl

/-- The head of the three slices at column offset o, at (r, d): the scores pair lanes o … o+63 of query row r with
    those of key row t, and the average is of column o + d of the values. -/
theorem head_slices_apply (o : ℕ) (ho : o + 64 ≤ 1024) (v1 : FVec Ideal S256x1024 .bf16) (v3 v5 : FVec Ideal S2048x1024 .bf16)
    (hq : S256x1024.Slices ![0, o] S256x64) (hk : S2048x1024.Slices ![0, o] S2048x64) (r : Fin 256) (d : Fin 64) :
    head (F := Ideal) (extractStridedSlice S256x64 ![0, o] v1 hq) (extractStridedSlice S2048x64 ![0, o] v3 hk)
        (extractStridedSlice S2048x64 ![0, o] v5 hk) (ix2 r d)
      = Cert.Spec.softmaxAvg
          (fun t => ∑ e : Fin 64, v1 (ix2 r (⟨o + e.val, by omega⟩ : Fin 1024)) * v3 (ix2 t (⟨o + e.val, by omega⟩ : Fin 1024)))
          (fun t => v5 (ix2 t (⟨o + d.val, by omega⟩ : Fin 1024))) :=
  (head_apply _ _ _ r d).trans
    (congrArg₂ Cert.Spec.softmaxAvg
      (funext fun t => Finset.sum_congr rfl fun e _ =>
        congrArg₂ (· * ·) (slice_q_apply o ho v1 hq r e) (slice_kv_apply o ho v3 hk t e))
      (funext fun t => slice_kv_apply o ho v5 hk t d))

/-! ## The loaded blocks as the kernel first names them -/

theorem k1_pay2_eq {F : FTy → Type} [FloatOps F] (v0 : Vec F S256x1024 .bf16) : k1_pay2 v0 = v0 := shapeCast_self v0 _
theorem k1_pay3_eq {F : FTy → Type} [FloatOps F] (v2 : Vec F S2048x1024 .bf16) : k1_pay3 v2 = v2 := shapeCast_self v2 _
theorem k1_pay4_eq {F : FTy → Type} [FloatOps F] (v4 : Vec F S2048x1024 .bf16) : k1_pay4 v4 = v4 := shapeCast_self v4 _

/-! ## The sixteen stored blocks of the second kernel

Each stored block, as the kernel's parts compose it, is the head of the three slices at its column offset. -/

/-- The block stored at column offset 0. -/
theorem pay_eq_head_0 {F : FTy → Type} [FloatOps F] (v0 : Vec F S256x1024 .bf16) (v2 v4 : Vec F S2048x1024 .bf16) :
    k1_pay5 v0 v2 v4
      = head (extractStridedSlice S256x64 ![0, 0] (k1_pay2 v0) slices_S256x1024_o0_0_S256x64)
          (extractStridedSlice S2048x64 ![0, 0] (k1_pay3 v2) slices_S2048x1024_o0_0_S2048x64)
          (extractStridedSlice S2048x64 ![0, 0] (k1_pay4 v4) slices_S2048x1024_o0_0_S2048x64) := rfl

theorem pay_apply_0 (v0 : Vec Ideal S256x1024 .bf16) (v2 v4 : Vec Ideal S2048x1024 .bf16) (r : Fin 256) (d : Fin 64) :
    (k1_pay5 v0 v2 v4 : FVec Ideal S256x64 .f32) (ix2 r d)
      = Cert.Spec.softmaxAvg
          (fun t => ∑ e : Fin 64, (k1_pay2 v0) (ix2 r (⟨0 + e.val, by omega⟩ : Fin 1024)) * (k1_pay3 v2) (ix2 t (⟨0 + e.val, by omega⟩ : Fin 1024)))
          (fun t => (k1_pay4 v4) (ix2 t (⟨0 + d.val, by omega⟩ : Fin 1024))) :=
  (congrFun (pay_eq_head_0 v0 v2 v4) (ix2 r d)).trans
    (head_slices_apply 0 (by omega) (k1_pay2 v0) (k1_pay3 v2) (k1_pay4 v4) _ _ r d)

/-- The block stored at column offset 64. -/
theorem pay_eq_head_64 {F : FTy → Type} [FloatOps F] (v0 : Vec F S256x1024 .bf16) (v2 v4 : Vec F S2048x1024 .bf16) :
    k1_pay6 v0 v2 v4
      = head (extractStridedSlice S256x64 ![0, 64] (k1_pay2 v0) slices_S256x1024_o0_64_S256x64)
          (extractStridedSlice S2048x64 ![0, 64] (k1_pay3 v2) slices_S2048x1024_o0_64_S2048x64)
          (extractStridedSlice S2048x64 ![0, 64] (k1_pay4 v4) slices_S2048x1024_o0_64_S2048x64) := rfl

theorem pay_apply_64 (v0 : Vec Ideal S256x1024 .bf16) (v2 v4 : Vec Ideal S2048x1024 .bf16) (r : Fin 256) (d : Fin 64) :
    (k1_pay6 v0 v2 v4 : FVec Ideal S256x64 .f32) (ix2 r d)
      = Cert.Spec.softmaxAvg
          (fun t => ∑ e : Fin 64, (k1_pay2 v0) (ix2 r (⟨64 + e.val, by omega⟩ : Fin 1024)) * (k1_pay3 v2) (ix2 t (⟨64 + e.val, by omega⟩ : Fin 1024)))
          (fun t => (k1_pay4 v4) (ix2 t (⟨64 + d.val, by omega⟩ : Fin 1024))) :=
  (congrFun (pay_eq_head_64 v0 v2 v4) (ix2 r d)).trans
    (head_slices_apply 64 (by omega) (k1_pay2 v0) (k1_pay3 v2) (k1_pay4 v4) _ _ r d)

/-- The block stored at column offset 128. -/
theorem pay_eq_head_128 {F : FTy → Type} [FloatOps F] (v1 : FVec F S256x1024 .bf16) (v3 v5 : FVec F S2048x1024 .bf16) :
    k1_pay7 v1 v3 v5
      = head (extractStridedSlice S256x64 ![0, 128] v1 slices_S256x1024_o0_128_S256x64)
          (extractStridedSlice S2048x64 ![0, 128] v3 slices_S2048x1024_o0_128_S2048x64)
          (extractStridedSlice S2048x64 ![0, 128] v5 slices_S2048x1024_o0_128_S2048x64) := rfl

theorem pay_apply_128 (v1 : FVec Ideal S256x1024 .bf16) (v3 v5 : FVec Ideal S2048x1024 .bf16) (r : Fin 256) (d : Fin 64) :
    (k1_pay7 v1 v3 v5 : FVec Ideal S256x64 .f32) (ix2 r d)
      = Cert.Spec.softmaxAvg
          (fun t => ∑ e : Fin 64, v1 (ix2 r (⟨128 + e.val, by omega⟩ : Fin 1024)) * v3 (ix2 t (⟨128 + e.val, by omega⟩ : Fin 1024)))
          (fun t => v5 (ix2 t (⟨128 + d.val, by omega⟩ : Fin 1024))) :=
  (congrFun (pay_eq_head_128 v1 v3 v5) (ix2 r d)).trans
    (head_slices_apply 128 (by omega) v1 v3 v5 _ _ r d)

/-- The block stored at column offset 192. -/
theorem pay_eq_head_192 {F : FTy → Type} [FloatOps F] (v1 : FVec F S256x1024 .bf16) (v3 v5 : FVec F S2048x1024 .bf16) :
    k1_pay8 v1 v3 v5
      = head (extractStridedSlice S256x64 ![0, 192] v1 slices_S256x1024_o0_192_S256x64)
          (extractStridedSlice S2048x64 ![0, 192] v3 slices_S2048x1024_o0_192_S2048x64)
          (extractStridedSlice S2048x64 ![0, 192] v5 slices_S2048x1024_o0_192_S2048x64) := rfl

theorem pay_apply_192 (v1 : FVec Ideal S256x1024 .bf16) (v3 v5 : FVec Ideal S2048x1024 .bf16) (r : Fin 256) (d : Fin 64) :
    (k1_pay8 v1 v3 v5 : FVec Ideal S256x64 .f32) (ix2 r d)
      = Cert.Spec.softmaxAvg
          (fun t => ∑ e : Fin 64, v1 (ix2 r (⟨192 + e.val, by omega⟩ : Fin 1024)) * v3 (ix2 t (⟨192 + e.val, by omega⟩ : Fin 1024)))
          (fun t => v5 (ix2 t (⟨192 + d.val, by omega⟩ : Fin 1024))) :=
  (congrFun (pay_eq_head_192 v1 v3 v5) (ix2 r d)).trans
    (head_slices_apply 192 (by omega) v1 v3 v5 _ _ r d)

/-- The block stored at column offset 256. -/
theorem pay_eq_head_256 {F : FTy → Type} [FloatOps F] (v1 : FVec F S256x1024 .bf16) (v3 v5 : FVec F S2048x1024 .bf16) :
    k1_pay12 (k1_pay9 v5) (k1_pay10 v1 v3) (k1_pay11 v1 v3)
      = head (extractStridedSlice S256x64 ![0, 256] v1 slices_S256x1024_o0_256_S256x64)
          (extractStridedSlice S2048x64 ![0, 256] v3 slices_S2048x1024_o0_256_S2048x64)
          (extractStridedSlice S2048x64 ![0, 256] v5 slices_S2048x1024_o0_256_S2048x64) := rfl

theorem pay_apply_256 (v1 : FVec Ideal S256x1024 .bf16) (v3 v5 : FVec Ideal S2048x1024 .bf16) (r : Fin 256) (d : Fin 64) :
    (k1_pay12 (k1_pay9 v5) (k1_pay10 v1 v3) (k1_pay11 v1 v3) : FVec Ideal S256x64 .f32) (ix2 r d)
      = Cert.Spec.softmaxAvg
          (fun t => ∑ e : Fin 64, v1 (ix2 r (⟨256 + e.val, by omega⟩ : Fin 1024)) * v3 (ix2 t (⟨256 + e.val, by omega⟩ : Fin 1024)))
          (fun t => v5 (ix2 t (⟨256 + d.val, by omega⟩ : Fin 1024))) :=
  (congrFun (pay_eq_head_256 v1 v3 v5) (ix2 r d)).trans
    (head_slices_apply 256 (by omega) v1 v3 v5 _ _ r d)

/-- The block stored at column offset 320. -/
theorem pay_eq_head_320 {F : FTy → Type} [FloatOps F] (v1 : FVec F S256x1024 .bf16) (v3 v5 : FVec F S2048x1024 .bf16) :
    k1_pay13 v1 v3 v5
      = head (extractStridedSlice S256x64 ![0, 320] v1 slices_S256x1024_o0_320_S256x64)
          (extractStridedSlice S2048x64 ![0, 320] v3 slices_S2048x1024_o0_320_S2048x64)
          (extractStridedSlice S2048x64 ![0, 320] v5 slices_S2048x1024_o0_320_S2048x64) := rfl

theorem pay_apply_320 (v1 : FVec Ideal S256x1024 .bf16) (v3 v5 : FVec Ideal S2048x1024 .bf16) (r : Fin 256) (d : Fin 64) :
    (k1_pay13 v1 v3 v5 : FVec Ideal S256x64 .f32) (ix2 r d)
      = Cert.Spec.softmaxAvg
          (fun t => ∑ e : Fin 64, v1 (ix2 r (⟨320 + e.val, by omega⟩ : Fin 1024)) * v3 (ix2 t (⟨320 + e.val, by omega⟩ : Fin 1024)))
          (fun t => v5 (ix2 t (⟨320 + d.val, by omega⟩ : Fin 1024))) :=
  (congrFun (pay_eq_head_320 v1 v3 v5) (ix2 r d)).trans
    (head_slices_apply 320 (by omega) v1 v3 v5 _ _ r d)

/-- The block stored at column offset 384. -/
theorem pay_eq_head_384 {F : FTy → Type} [FloatOps F] (v1 : FVec F S256x1024 .bf16) (v3 v5 : FVec F S2048x1024 .bf16) :
    k1_pay14 v1 v3 v5
      = head (extractStridedSlice S256x64 ![0, 384] v1 slices_S256x1024_o0_384_S256x64)
          (extractStridedSlice S2048x64 ![0, 384] v3 slices_S2048x1024_o0_384_S2048x64)
          (extractStridedSlice S2048x64 ![0, 384] v5 slices_S2048x1024_o0_384_S2048x64) := rfl

theorem pay_apply_384 (v1 : FVec Ideal S256x1024 .bf16) (v3 v5 : FVec Ideal S2048x1024 .bf16) (r : Fin 256) (d : Fin 64) :
    (k1_pay14 v1 v3 v5 : FVec Ideal S256x64 .f32) (ix2 r d)
      = Cert.Spec.softmaxAvg
          (fun t => ∑ e : Fin 64, v1 (ix2 r (⟨384 + e.val, by omega⟩ : Fin 1024)) * v3 (ix2 t (⟨384 + e.val, by omega⟩ : Fin 1024)))
          (fun t => v5 (ix2 t (⟨384 + d.val, by omega⟩ : Fin 1024))) :=
  (congrFun (pay_eq_head_384 v1 v3 v5) (ix2 r d)).trans
    (head_slices_apply 384 (by omega) v1 v3 v5 _ _ r d)

/-- The block stored at column offset 448. -/
theorem pay_eq_head_448 {F : FTy → Type} [FloatOps F] (v1 : FVec F S256x1024 .bf16) (v3 v5 : FVec F S2048x1024 .bf16) :
    k1_pay17 (k1_pay15 v5) (k1_pay16 v1 v3)
      = head (extractStridedSlice S256x64 ![0, 448] v1 slices_S256x1024_o0_448_S256x64)
          (extractStridedSlice S2048x64 ![0, 448] v3 slices_S2048x1024_o0_448_S2048x64)
          (extractStridedSlice S2048x64 ![0, 448] v5 slices_S2048x1024_o0_448_S2048x64) := rfl

theorem pay_apply_448 (v1 : FVec Ideal S256x1024 .bf16) (v3 v5 : FVec Ideal S2048x1024 .bf16) (r : Fin 256) (d : Fin 64) :
    (k1_pay17 (k1_pay15 v5) (k1_pay16 v1 v3) : FVec Ideal S256x64 .f32) (ix2 r d)
      = Cert.Spec.softmaxAvg
          (fun t => ∑ e : Fin 64, v1 (ix2 r (⟨448 + e.val, by omega⟩ : Fin 1024)) * v3 (ix2 t (⟨448 + e.val, by omega⟩ : Fin 1024)))
          (fun t => v5 (ix2 t (⟨448 + d.val, by omega⟩ : Fin 1024))) :=
  (congrFun (pay_eq_head_448 v1 v3 v5) (ix2 r d)).trans
    (head_slices_apply 448 (by omega) v1 v3 v5 _ _ r d)

/-- The block stored at column offset 512. -/
theorem pay_eq_head_512 {F : FTy → Type} [FloatOps F] (v1 : FVec F S256x1024 .bf16) (v3 v5 : FVec F S2048x1024 .bf16) :
    k1_pay18 v1 v3 v5
      = head (extractStridedSlice S256x64 ![0, 512] v1 slices_S256x1024_o0_512_S256x64)
          (extractStridedSlice S2048x64 ![0, 512] v3 slices_S2048x1024_o0_512_S2048x64)
          (extractStridedSlice S2048x64 ![0, 512] v5 slices_S2048x1024_o0_512_S2048x64) := rfl

theorem pay_apply_512 (v1 : FVec Ideal S256x1024 .bf16) (v3 v5 : FVec Ideal S2048x1024 .bf16) (r : Fin 256) (d : Fin 64) :
    (k1_pay18 v1 v3 v5 : FVec Ideal S256x64 .f32) (ix2 r d)
      = Cert.Spec.softmaxAvg
          (fun t => ∑ e : Fin 64, v1 (ix2 r (⟨512 + e.val, by omega⟩ : Fin 1024)) * v3 (ix2 t (⟨512 + e.val, by omega⟩ : Fin 1024)))
          (fun t => v5 (ix2 t (⟨512 + d.val, by omega⟩ : Fin 1024))) :=
  (congrFun (pay_eq_head_512 v1 v3 v5) (ix2 r d)).trans
    (head_slices_apply 512 (by omega) v1 v3 v5 _ _ r d)

/-- The block stored at column offset 576. -/
theorem pay_eq_head_576 {F : FTy → Type} [FloatOps F] (v1 : FVec F S256x1024 .bf16) (v3 v5 : FVec F S2048x1024 .bf16) :
    k1_pay19 v1 v3 v5
      = head (extractStridedSlice S256x64 ![0, 576] v1 slices_S256x1024_o0_576_S256x64)
          (extractStridedSlice S2048x64 ![0, 576] v3 slices_S2048x1024_o0_576_S2048x64)
          (extractStridedSlice S2048x64 ![0, 576] v5 slices_S2048x1024_o0_576_S2048x64) := rfl

theorem pay_apply_576 (v1 : FVec Ideal S256x1024 .bf16) (v3 v5 : FVec Ideal S2048x1024 .bf16) (r : Fin 256) (d : Fin 64) :
    (k1_pay19 v1 v3 v5 : FVec Ideal S256x64 .f32) (ix2 r d)
      = Cert.Spec.softmaxAvg
          (fun t => ∑ e : Fin 64, v1 (ix2 r (⟨576 + e.val, by omega⟩ : Fin 1024)) * v3 (ix2 t (⟨576 + e.val, by omega⟩ : Fin 1024)))
          (fun t => v5 (ix2 t (⟨576 + d.val, by omega⟩ : Fin 1024))) :=
  (congrFun (pay_eq_head_576 v1 v3 v5) (ix2 r d)).trans
    (head_slices_apply 576 (by omega) v1 v3 v5 _ _ r d)

/-- The block stored at column offset 640. -/
theorem pay_eq_head_640 {F : FTy → Type} [FloatOps F] (v1 : FVec F S256x1024 .bf16) (v3 v5 : FVec F S2048x1024 .bf16) :
    k1_pay20 v1 v3 v5
      = head (extractStridedSlice S256x64 ![0, 640] v1 slices_S256x1024_o0_640_S256x64)
          (extractStridedSlice S2048x64 ![0, 640] v3 slices_S2048x1024_o0_640_S2048x64)
          (extractStridedSlice S2048x64 ![0, 640] v5 slices_S2048x1024_o0_640_S2048x64) := rfl

theorem pay_apply_640 (v1 : FVec Ideal S256x1024 .bf16) (v3 v5 : FVec Ideal S2048x1024 .bf16) (r : Fin 256) (d : Fin 64) :
    (k1_pay20 v1 v3 v5 : FVec Ideal S256x64 .f32) (ix2 r d)
      = Cert.Spec.softmaxAvg
          (fun t => ∑ e : Fin 64, v1 (ix2 r (⟨640 + e.val, by omega⟩ : Fin 1024)) * v3 (ix2 t (⟨640 + e.val, by omega⟩ : Fin 1024)))
          (fun t => v5 (ix2 t (⟨640 + d.val, by omega⟩ : Fin 1024))) :=
  (congrFun (pay_eq_head_640 v1 v3 v5) (ix2 r d)).trans
    (head_slices_apply 640 (by omega) v1 v3 v5 _ _ r d)

/-- The block stored at column offset 704. -/
theorem pay_eq_head_704 {F : FTy → Type} [FloatOps F] (v1 : FVec F S256x1024 .bf16) (v3 v5 : FVec F S2048x1024 .bf16) :
    k1_pay21 v1 v3 v5
      = head (extractStridedSlice S256x64 ![0, 704] v1 slices_S256x1024_o0_704_S256x64)
          (extractStridedSlice S2048x64 ![0, 704] v3 slices_S2048x1024_o0_704_S2048x64)
          (extractStridedSlice S2048x64 ![0, 704] v5 slices_S2048x1024_o0_704_S2048x64) := rfl

theorem pay_apply_704 (v1 : FVec Ideal S256x1024 .bf16) (v3 v5 : FVec Ideal S2048x1024 .bf16) (r : Fin 256) (d : Fin 64) :
    (k1_pay21 v1 v3 v5 : FVec Ideal S256x64 .f32) (ix2 r d)
      = Cert.Spec.softmaxAvg
          (fun t => ∑ e : Fin 64, v1 (ix2 r (⟨704 + e.val, by omega⟩ : Fin 1024)) * v3 (ix2 t (⟨704 + e.val, by omega⟩ : Fin 1024)))
          (fun t => v5 (ix2 t (⟨704 + d.val, by omega⟩ : Fin 1024))) :=
  (congrFun (pay_eq_head_704 v1 v3 v5) (ix2 r d)).trans
    (head_slices_apply 704 (by omega) v1 v3 v5 _ _ r d)

/-- The block stored at column offset 768. -/
theorem pay_eq_head_768 {F : FTy → Type} [FloatOps F] (v1 : FVec F S256x1024 .bf16) (v3 v5 : FVec F S2048x1024 .bf16) :
    k1_pay24 (k1_pay22 v5) (k1_pay23 v1 v3)
      = head (extractStridedSlice S256x64 ![0, 768] v1 slices_S256x1024_o0_768_S256x64)
          (extractStridedSlice S2048x64 ![0, 768] v3 slices_S2048x1024_o0_768_S2048x64)
          (extractStridedSlice S2048x64 ![0, 768] v5 slices_S2048x1024_o0_768_S2048x64) := rfl

theorem pay_apply_768 (v1 : FVec Ideal S256x1024 .bf16) (v3 v5 : FVec Ideal S2048x1024 .bf16) (r : Fin 256) (d : Fin 64) :
    (k1_pay24 (k1_pay22 v5) (k1_pay23 v1 v3) : FVec Ideal S256x64 .f32) (ix2 r d)
      = Cert.Spec.softmaxAvg
          (fun t => ∑ e : Fin 64, v1 (ix2 r (⟨768 + e.val, by omega⟩ : Fin 1024)) * v3 (ix2 t (⟨768 + e.val, by omega⟩ : Fin 1024)))
          (fun t => v5 (ix2 t (⟨768 + d.val, by omega⟩ : Fin 1024))) :=
  (congrFun (pay_eq_head_768 v1 v3 v5) (ix2 r d)).trans
    (head_slices_apply 768 (by omega) v1 v3 v5 _ _ r d)

/-- The block stored at column offset 832. -/
theorem pay_eq_head_832 {F : FTy → Type} [FloatOps F] (v1 : FVec F S256x1024 .bf16) (v3 v5 : FVec F S2048x1024 .bf16) :
    k1_pay25 v1 v3 v5
      = head (extractStridedSlice S256x64 ![0, 832] v1 slices_S256x1024_o0_832_S256x64)
          (extractStridedSlice S2048x64 ![0, 832] v3 slices_S2048x1024_o0_832_S2048x64)
          (extractStridedSlice S2048x64 ![0, 832] v5 slices_S2048x1024_o0_832_S2048x64) := rfl

theorem pay_apply_832 (v1 : FVec Ideal S256x1024 .bf16) (v3 v5 : FVec Ideal S2048x1024 .bf16) (r : Fin 256) (d : Fin 64) :
    (k1_pay25 v1 v3 v5 : FVec Ideal S256x64 .f32) (ix2 r d)
      = Cert.Spec.softmaxAvg
          (fun t => ∑ e : Fin 64, v1 (ix2 r (⟨832 + e.val, by omega⟩ : Fin 1024)) * v3 (ix2 t (⟨832 + e.val, by omega⟩ : Fin 1024)))
          (fun t => v5 (ix2 t (⟨832 + d.val, by omega⟩ : Fin 1024))) :=
  (congrFun (pay_eq_head_832 v1 v3 v5) (ix2 r d)).trans
    (head_slices_apply 832 (by omega) v1 v3 v5 _ _ r d)

/-- The block stored at column offset 896. -/
theorem pay_eq_head_896 {F : FTy → Type} [FloatOps F] (v1 : FVec F S256x1024 .bf16) (v3 v5 : FVec F S2048x1024 .bf16) :
    k1_pay26 v1 v3 v5
      = head (extractStridedSlice S256x64 ![0, 896] v1 slices_S256x1024_o0_896_S256x64)
          (extractStridedSlice S2048x64 ![0, 896] v3 slices_S2048x1024_o0_896_S2048x64)
          (extractStridedSlice S2048x64 ![0, 896] v5 slices_S2048x1024_o0_896_S2048x64) := rfl

theorem pay_apply_896 (v1 : FVec Ideal S256x1024 .bf16) (v3 v5 : FVec Ideal S2048x1024 .bf16) (r : Fin 256) (d : Fin 64) :
    (k1_pay26 v1 v3 v5 : FVec Ideal S256x64 .f32) (ix2 r d)
      = Cert.Spec.softmaxAvg
          (fun t => ∑ e : Fin 64, v1 (ix2 r (⟨896 + e.val, by omega⟩ : Fin 1024)) * v3 (ix2 t (⟨896 + e.val, by omega⟩ : Fin 1024)))
          (fun t => v5 (ix2 t (⟨896 + d.val, by omega⟩ : Fin 1024))) :=
  (congrFun (pay_eq_head_896 v1 v3 v5) (ix2 r d)).trans
    (head_slices_apply 896 (by omega) v1 v3 v5 _ _ r d)

/-- The block stored at column offset 960. -/
theorem pay_eq_head_960 {F : FTy → Type} [FloatOps F] (v1 : FVec F S256x1024 .bf16) (v3 v5 : FVec F S2048x1024 .bf16) :
    k1_pay1 v3 v5 (k1_pay27 v1)
      = head (extractStridedSlice S256x64 ![0, 960] v1 slices_S256x1024_o0_960_S256x64)
          (extractStridedSlice S2048x64 ![0, 960] v3 slices_S2048x1024_o0_960_S2048x64)
          (extractStridedSlice S2048x64 ![0, 960] v5 slices_S2048x1024_o0_960_S2048x64) := rfl

theorem pay_apply_960 (v1 : FVec Ideal S256x1024 .bf16) (v3 v5 : FVec Ideal S2048x1024 .bf16) (r : Fin 256) (d : Fin 64) :
    (k1_pay1 v3 v5 (k1_pay27 v1) : FVec Ideal S256x64 .f32) (ix2 r d)
      = Cert.Spec.softmaxAvg
          (fun t => ∑ e : Fin 64, v1 (ix2 r (⟨960 + e.val, by omega⟩ : Fin 1024)) * v3 (ix2 t (⟨960 + e.val, by omega⟩ : Fin 1024)))
          (fun t => v5 (ix2 t (⟨960 + d.val, by omega⟩ : Fin 1024))) :=
  (congrFun (pay_eq_head_960 v1 v3 v5) (ix2 r d)).trans
    (head_slices_apply 960 (by omega) v1 v3 v5 _ _ r d)

end Cert.KernelValue

end
-- ==== Proof.HeadStores.lean ====
/-
  The second kernel's sixteen stored blocks read off the three loaded arrays, and the same at a column of the
  [256, 1024] output: column c lies in the block at offset (c / 64)·64, at lane c mod 64, and the lanes of that block
  are the lanes of the head column c belongs to.
-/
import proofs.«143152_j40097814675891_2_alg».proof.Proof.HeadValue

noncomputable section

namespace Cert.KernelValue

open Cert.KernelIdeal Cert.KernelIdeal.Gen Idealize.ShloMosaic Idealize.ShloMosaic.ValueIdx

/-! ## A column of the output and its block -/

/-- Lane e of the head that column c belongs to is column o + e, when c lies in the block at offset o. -/
theorem headCol_eq (o : ℕ) (ho : o + 64 ≤ 1024) (c : Fin 1024) (hc : c.val / 64 * 64 = o) (e : Fin 64) :
    Cert.Spec.headCol c e = (⟨o + e.val, by omega⟩ : Fin 1024) :=
  Fin.ext (by show c.val / 64 * 64 + e.val = o + e.val; omega)

/-- Column c is lane c mod 64 of its block. -/
theorem col_eq (o : ℕ) (ho : o + 64 ≤ 1024) (c : Fin 1024) (hc : c.val / 64 * 64 = o) :
    (⟨o + c.val % 64, by omega⟩ : Fin 1024) = c :=
  Fin.ext (by show o + c.val % 64 = c.val; omega)

/-- The average of a block at offset o, at the lane of column c, spelt with the column's own head lanes. -/
theorem softmaxAvg_at_col (o : ℕ) (ho : o + 64 ≤ 1024) (q : S256x1024.Idx → EReal) (k v : S2048x1024.Idx → EReal)
    (r : Fin 256) (c : Fin 1024) (hc : c.val / 64 * 64 = o) :
    Cert.Spec.softmaxAvg
        (fun t => ∑ e : Fin 64, q (ix2 r (⟨o + e.val, by omega⟩ : Fin 1024)) * k (ix2 t (⟨o + e.val, by omega⟩ : Fin 1024)))
        (fun t => v (ix2 t (⟨o + c.val % 64, by omega⟩ : Fin 1024)))
      = Cert.Spec.softmaxAvg
          (fun t => ∑ e : Fin 64, q (ix2 r (Cert.Spec.headCol c e)) * k (ix2 t (Cert.Spec.headCol c e)))
          (fun t => v (ix2 t c)) :=
  congrArg₂ Cert.Spec.softmaxAvg
    (funext fun t => Finset.sum_congr rfl fun e _ => by rw [headCol_eq o ho c hc e])
    (funext fun t => congrArg (fun j => v (ix2 t j)) (col_eq o ho c hc))

/-! ## The sixteen stored blocks read off the three loaded arrays

The stored terms with the kernel's first names of the loaded blocks substituted, at (r, d) and at the lane of a
column c of the block. -/

/-- The block stored at column offset 0, from the loaded arrays. -/
theorem store_apply_0 (v0 : Vec Ideal S256x1024 .bf16) (v2 v4 : Vec Ideal S2048x1024 .bf16) (r : Fin 256) (d : Fin 64) :
    (k1_pay5 v0 v2 v4 : FVec Ideal S256x64 .f32) (ix2 r d)
      = Cert.Spec.softmaxAvg
          (fun t => ∑ e : Fin 64, v0 (ix2 r (⟨0 + e.val, by omega⟩ : Fin 1024)) * v2 (ix2 t (⟨0 + e.val, by omega⟩ : Fin 1024)))
          (fun t => v4 (ix2 t (⟨0 + d.val, by omega⟩ : Fin 1024))) :=
  (pay_apply_0 v0 v2 v4 r d).trans (by rw [k1_pay2_eq, k1_pay3_eq, k1_pay4_eq])

theorem store_col_apply_0 (v0 : Vec Ideal S256x1024 .bf16) (v2 v4 : Vec Ideal S2048x1024 .bf16) (r : Fin 256) (c : Fin 1024)
    (hc : c.val / 64 * 64 = 0) :
    (k1_pay5 v0 v2 v4 : FVec Ideal S256x64 .f32) (ix2 r (⟨c.val % 64, Nat.mod_lt _ (by omega)⟩ : Fin 64))
      = Cert.Spec.softmaxAvg
          (fun t => ∑ e : Fin 64, v0 (ix2 r (Cert.Spec.headCol c e)) * v2 (ix2 t (Cert.Spec.headCol c e)))
          (fun t => v4 (ix2 t c)) :=
  (store_apply_0 v0 v2 v4 r _).trans (softmaxAvg_at_col 0 (by omega) v0 v2 v4 r c hc)

/-- The block stored at column offset 64, from the loaded arrays. -/
theorem store_apply_64 (v0 : Vec Ideal S256x1024 .bf16) (v2 v4 : Vec Ideal S2048x1024 .bf16) (r : Fin 256) (d : Fin 64) :
    (k1_pay6 v0 v2 v4 : FVec Ideal S256x64 .f32) (ix2 r d)
      = Cert.Spec.softmaxAvg
          (fun t => ∑ e : Fin 64, v0 (ix2 r (⟨64 + e.val, by omega⟩ : Fin 1024)) * v2 (ix2 t (⟨64 + e.val, by omega⟩ : Fin 1024)))
          (fun t => v4 (ix2 t (⟨64 + d.val, by omega⟩ : Fin 1024))) :=
  (pay_apply_64 v0 v2 v4 r d).trans (by rw [k1_pay2_eq, k1_pay3_eq, k1_pay4_eq])

theorem store_col_apply_64 (v0 : Vec Ideal S256x1024 .bf16) (v2 v4 : Vec Ideal S2048x1024 .bf16) (r : Fin 256) (c : Fin 1024)
    (hc : c.val / 64 * 64 = 64) :
    (k1_pay6 v0 v2 v4 : FVec Ideal S256x64 .f32) (ix2 r (⟨c.val % 64, Nat.mod_lt _ (by omega)⟩ : Fin 64))
      = Cert.Spec.softmaxAvg
          (fun t => ∑ e : Fin 64, v0 (ix2 r (Cert.Spec.headCol c e)) * v2 (ix2 t (Cert.Spec.headCol c e)))
          (fun t => v4 (ix2 t c)) :=
  (store_apply_64 v0 v2 v4 r _).trans (softmaxAvg_at_col 64 (by omega) v0 v2 v4 r c hc)

/-- The block stored at column offset 128, from the loaded arrays. -/
theorem store_apply_128 (v0 : Vec Ideal S256x1024 .bf16) (v2 v4 : Vec Ideal S2048x1024 .bf16) (r : Fin 256) (d : Fin 64) :
    (k1_pay7 (k1_pay2 v0) (k1_pay3 v2) (k1_pay4 v4) : FVec Ideal S256x64 .f32) (ix2 r d)
      = Cert.Spec.softmaxAvg
          (fun t => ∑ e : Fin 64, v0 (ix2 r (⟨128 + e.val, by omega⟩ : Fin 1024)) * v2 (ix2 t (⟨128 + e.val, by omega⟩ : Fin 1024)))
          (fun t => v4 (ix2 t (⟨128 + d.val, by omega⟩ : Fin 1024))) :=
  (pay_apply_128 (k1_pay2 v0) (k1_pay3 v2) (k1_pay4 v4) r d).trans (by rw [k1_pay2_eq, k1_pay3_eq, k1_pay4_eq])

theorem store_col_apply_128 (v0 : Vec Ideal S256x1024 .bf16) (v2 v4 : Vec Ideal S2048x1024 .bf16) (r : Fin 256) (c : Fin 1024)
    (hc : c.val / 64 * 64 = 128) :
    (k1_pay7 (k1_pay2 v0) (k1_pay3 v2) (k1_pay4 v4) : FVec Ideal S256x64 .f32) (ix2 r (⟨c.val % 64, Nat.mod_lt _ (by omega)⟩ : Fin 64))
      = Cert.Spec.softmaxAvg
          (fun t => ∑ e : Fin 64, v0 (ix2 r (Cert.Spec.headCol c e)) * v2 (ix2 t (Cert.Spec.headCol c e)))
          (fun t => v4 (ix2 t c)) :=
  (store_apply_128 v0 v2 v4 r _).trans (softmaxAvg_at_col 128 (by omega) v0 v2 v4 r c hc)

/-- The block stored at column offset 192, from the loaded arrays. -/
theorem store_apply_192 (v0 : Vec Ideal S256x1024 .bf16) (v2 v4 : Vec Ideal S2048x1024 .bf16) (r : Fin 256) (d : Fin 64) :
    (k1_pay8 (k1_pay2 v0) (k1_pay3 v2) (k1_pay4 v4) : FVec Ideal S256x64 .f32) (ix2 r d)
      = Cert.Spec.softmaxAvg
          (fun t => ∑ e : Fin 64, v0 (ix2 r (⟨192 + e.val, by omega⟩ : Fin 1024)) * v2 (ix2 t (⟨192 + e.val, by omega⟩ : Fin 1024)))
          (fun t => v4 (ix2 t (⟨192 + d.val, by omega⟩ : Fin 1024))) :=
  (pay_apply_192 (k1_pay2 v0) (k1_pay3 v2) (k1_pay4 v4) r d).trans (by rw [k1_pay2_eq, k1_pay3_eq, k1_pay4_eq])

theorem store_col_apply_192 (v0 : Vec Ideal S256x1024 .bf16) (v2 v4 : Vec Ideal S2048x1024 .bf16) (r : Fin 256) (c : Fin 1024)
    (hc : c.val / 64 * 64 = 192) :
    (k1_pay8 (k1_pay2 v0) (k1_pay3 v2) (k1_pay4 v4) : FVec Ideal S256x64 .f32) (ix2 r (⟨c.val % 64, Nat.mod_lt _ (by omega)⟩ : Fin 64))
      = Cert.Spec.softmaxAvg
          (fun t => ∑ e : Fin 64, v0 (ix2 r (Cert.Spec.headCol c e)) * v2 (ix2 t (Cert.Spec.headCol c e)))
          (fun t => v4 (ix2 t c)) :=
  (store_apply_192 v0 v2 v4 r _).trans (softmaxAvg_at_col 192 (by omega) v0 v2 v4 r c hc)

/-- The block stored at column offset 256, from the loaded arrays. -/
theorem store_apply_256 (v0 : Vec Ideal S256x1024 .bf16) (v2 v4 : Vec Ideal S2048x1024 .bf16) (r : Fin 256) (d : Fin 64) :
    (k1_pay12 (k1_pay9 (k1_pay4 v4)) (k1_pay10 (k1_pay2 v0) (k1_pay3 v2)) (k1_pay11 (k1_pay2 v0) (k1_pay3 v2)) : FVec Ideal S256x64 .f32) (ix2 r d)
      = Cert.Spec.softmaxAvg
          (fun t => ∑ e : Fin 64, v0 (ix2 r (⟨256 + e.val, by omega⟩ : Fin 1024)) * v2 (ix2 t (⟨256 + e.val, by omega⟩ : Fin 1024)))
          (fun t => v4 (ix2 t (⟨256 + d.val, by omega⟩ : Fin 1024))) :=
  (pay_apply_256 (k1_pay2 v0) (k1_pay3 v2) (k1_pay4 v4) r d).trans (by rw [k1_pay2_eq, k1_pay3_eq, k1_pay4_eq])

theorem store_col_apply_256 (v0 : Vec Ideal S256x1024 .bf16) (v2 v4 : Vec Ideal S2048x1024 .bf16) (r : Fin 256) (c : Fin 1024)
    (hc : c.val / 64 * 64 = 256) :
    (k1_pay12 (k1_pay9 (k1_pay4 v4)) (k1_pay10 (k1_pay2 v0) (k1_pay3 v2)) (k1_pay11 (k1_pay2 v0) (k1_pay3 v2)) : FVec Ideal S256x64 .f32) (ix2 r (⟨c.val % 64, Nat.mod_lt _ (by omega)⟩ : Fin 64))
      = Cert.Spec.softmaxAvg
          (fun t => ∑ e : Fin 64, v0 (ix2 r (Cert.Spec.headCol c e)) * v2 (ix2 t (Cert.Spec.headCol c e)))
          (fun t => v4 (ix2 t c)) :=
  (store_apply_256 v0 v2 v4 r _).trans (softmaxAvg_at_col 256 (by omega) v0 v2 v4 r c hc)

/-- The block stored at column offset 320, from the loaded arrays. -/
theorem store_apply_320 (v0 : Vec Ideal S256x1024 .bf16) (v2 v4 : Vec Ideal S2048x1024 .bf16) (r : Fin 256) (d : Fin 64) :
    (k1_pay13 (k1_pay2 v0) (k1_pay3 v2) (k1_pay4 v4) : FVec Ideal S256x64 .f32) (ix2 r d)
      = Cert.Spec.softmaxAvg
          (fun t => ∑ e : Fin 64, v0 (ix2 r (⟨320 + e.val, by omega⟩ : Fin 1024)) * v2 (ix2 t (⟨320 + e.val, by omega⟩ : Fin 1024)))
          (fun t => v4 (ix2 t (⟨320 + d.val, by omega⟩ : Fin 1024))) :=
  (pay_apply_320 (k1_pay2 v0) (k1_pay3 v2) (k1_pay4 v4) r d).trans (by rw [k1_pay2_eq, k1_pay3_eq, k1_pay4_eq])

theorem store_col_apply_320 (v0 : Vec Ideal S256x1024 .bf16) (v2 v4 : Vec Ideal S2048x1024 .bf16) (r : Fin 256) (c : Fin 1024)
    (hc : c.val / 64 * 64 = 320) :
    (k1_pay13 (k1_pay2 v0) (k1_pay3 v2) (k1_pay4 v4) : FVec Ideal S256x64 .f32) (ix2 r (⟨c.val % 64, Nat.mod_lt _ (by omega)⟩ : Fin 64))
      = Cert.Spec.softmaxAvg
          (fun t => ∑ e : Fin 64, v0 (ix2 r (Cert.Spec.headCol c e)) * v2 (ix2 t (Cert.Spec.headCol c e)))
          (fun t => v4 (ix2 t c)) :=
  (store_apply_320 v0 v2 v4 r _).trans (softmaxAvg_at_col 320 (by omega) v0 v2 v4 r c hc)

/-- The block stored at column offset 384, from the loaded arrays. -/
theorem store_apply_384 (v0 : Vec Ideal S256x1024 .bf16) (v2 v4 : Vec Ideal S2048x1024 .bf16) (r : Fin 256) (d : Fin 64) :
    (k1_pay14 (k1_pay2 v0) (k1_pay3 v2) (k1_pay4 v4) : FVec Ideal S256x64 .f32) (ix2 r d)
      = Cert.Spec.softmaxAvg
          (fun t => ∑ e : Fin 64, v0 (ix2 r (⟨384 + e.val, by omega⟩ : Fin 1024)) * v2 (ix2 t (⟨384 + e.val, by omega⟩ : Fin 1024)))
          (fun t => v4 (ix2 t (⟨384 + d.val, by omega⟩ : Fin 1024))) :=
  (pay_apply_384 (k1_pay2 v0) (k1_pay3 v2) (k1_pay4 v4) r d).trans (by rw [k1_pay2_eq, k1_pay3_eq, k1_pay4_eq])

theorem store_col_apply_384 (v0 : Vec Ideal S256x1024 .bf16) (v2 v4 : Vec Ideal S2048x1024 .bf16) (r : Fin 256) (c : Fin 1024)
    (hc : c.val / 64 * 64 = 384) :
    (k1_pay14 (k1_pay2 v0) (k1_pay3 v2) (k1_pay4 v4) : FVec Ideal S256x64 .f32) (ix2 r (⟨c.val % 64, Nat.mod_lt _ (by omega)⟩ : Fin 64))
      = Cert.Spec.softmaxAvg
          (fun t => ∑ e : Fin 64, v0 (ix2 r (Cert.Spec.headCol c e)) * v2 (ix2 t (Cert.Spec.headCol c e)))
          (fun t => v4 (ix2 t c)) :=
  (store_apply_384 v0 v2 v4 r _).trans (softmaxAvg_at_col 384 (by omega) v0 v2 v4 r c hc)

/-- The block stored at column offset 448, from the loaded arrays. -/
theorem store_apply_448 (v0 : Vec Ideal S256x1024 .bf16) (v2 v4 : Vec Ideal S2048x1024 .bf16) (r : Fin 256) (d : Fin 64) :
    (k1_pay17 (k1_pay15 (k1_pay4 v4)) (k1_pay16 (k1_pay2 v0) (k1_pay3 v2)) : FVec Ideal S256x64 .f32) (ix2 r d)
      = Cert.Spec.softmaxAvg
          (fun t => ∑ e : Fin 64, v0 (ix2 r (⟨448 + e.val, by omega⟩ : Fin 1024)) * v2 (ix2 t (⟨448 + e.val, by omega⟩ : Fin 1024)))
          (fun t => v4 (ix2 t (⟨448 + d.val, by omega⟩ : Fin 1024))) :=
  (pay_apply_448 (k1_pay2 v0) (k1_pay3 v2) (k1_pay4 v4) r d).trans (by rw [k1_pay2_eq, k1_pay3_eq, k1_pay4_eq])

theorem store_col_apply_448 (v0 : Vec Ideal S256x1024 .bf16) (v2 v4 : Vec Ideal S2048x1024 .bf16) (r : Fin 256) (c : Fin 1024)
    (hc : c.val / 64 * 64 = 448) :
    (k1_pay17 (k1_pay15 (k1_pay4 v4)) (k1_pay16 (k1_pay2 v0) (k1_pay3 v2)) : FVec Ideal S256x64 .f32) (ix2 r (⟨c.val % 64, Nat.mod_lt _ (by omega)⟩ : Fin 64))
      = Cert.Spec.softmaxAvg
          (fun t => ∑ e : Fin 64, v0 (ix2 r (Cert.Spec.headCol c e)) * v2 (ix2 t (Cert.Spec.headCol c e)))
          (fun t => v4 (ix2 t c)) :=
  (store_apply_448 v0 v2 v4 r _).trans (softmaxAvg_at_col 448 (by omega) v0 v2 v4 r c hc)

/-- The block stored at column offset 512, from the loaded arrays. -/
theorem store_apply_512 (v0 : Vec Ideal S256x1024 .bf16) (v2 v4 : Vec Ideal S2048x1024 .bf16) (r : Fin 256) (d : Fin 64) :
    (k1_pay18 (k1_pay2 v0) (k1_pay3 v2) (k1_pay4 v4) : FVec Ideal S256x64 .f32) (ix2 r d)
      = Cert.Spec.softmaxAvg
          (fun t => ∑ e : Fin 64, v0 (ix2 r (⟨512 + e.val, by omega⟩ : Fin 1024)) * v2 (ix2 t (⟨512 + e.val, by omega⟩ : Fin 1024)))
          (fun t => v4 (ix2 t (⟨512 + d.val, by omega⟩ : Fin 1024))) :=
  (pay_apply_512 (k1_pay2 v0) (k1_pay3 v2) (k1_pay4 v4) r d).trans (by rw [k1_pay2_eq, k1_pay3_eq, k1_pay4_eq])

theorem store_col_apply_512 (v0 : Vec Ideal S256x1024 .bf16) (v2 v4 : Vec Ideal S2048x1024 .bf16) (r : Fin 256) (c : Fin 1024)
    (hc : c.val / 64 * 64 = 512) :
    (k1_pay18 (k1_pay2 v0) (k1_pay3 v2) (k1_pay4 v4) : FVec Ideal S256x64 .f32) (ix2 r (⟨c.val % 64, Nat.mod_lt _ (by omega)⟩ : Fin 64))
      = Cert.Spec.softmaxAvg
          (fun t => ∑ e : Fin 64, v0 (ix2 r (Cert.Spec.headCol c e)) * v2 (ix2 t (Cert.Spec.headCol c e)))
          (fun t => v4 (ix2 t c)) :=
  (store_apply_512 v0 v2 v4 r _).trans (softmaxAvg_at_col 512 (by omega) v0 v2 v4 r c hc)

/-- The block stored at column offset 576, from the loaded arrays. -/
theorem store_apply_576 (v0 : Vec Ideal S256x1024 .bf16) (v2 v4 : Vec Ideal S2048x1024 .bf16) (r : Fin 256) (d : Fin 64) :
    (k1_pay19 (k1_pay2 v0) (k1_pay3 v2) (k1_pay4 v4) : FVec Ideal S256x64 .f32) (ix2 r d)
      = Cert.Spec.softmaxAvg
          (fun t => ∑ e : Fin 64, v0 (ix2 r (⟨576 + e.val, by omega⟩ : Fin 1024)) * v2 (ix2 t (⟨576 + e.val, by omega⟩ : Fin 1024)))
          (fun t => v4 (ix2 t (⟨576 + d.val, by omega⟩ : Fin 1024))) :=
  (pay_apply_576 (k1_pay2 v0) (k1_pay3 v2) (k1_pay4 v4) r d).trans (by rw [k1_pay2_eq, k1_pay3_eq, k1_pay4_eq])

theorem store_col_apply_576 (v0 : Vec Ideal S256x1024 .bf16) (v2 v4 : Vec Ideal S2048x1024 .bf16) (r : Fin 256) (c : Fin 1024)
    (hc : c.val / 64 * 64 = 576) :
    (k1_pay19 (k1_pay2 v0) (k1_pay3 v2) (k1_pay4 v4) : FVec Ideal S256x64 .f32) (ix2 r (⟨c.val % 64, Nat.mod_lt _ (by omega)⟩ : Fin 64))
      = Cert.Spec.softmaxAvg
          (fun t => ∑ e : Fin 64, v0 (ix2 r (Cert.Spec.headCol c e)) * v2 (ix2 t (Cert.Spec.headCol c e)))
          (fun t => v4 (ix2 t c)) :=
  (store_apply_576 v0 v2 v4 r _).trans (softmaxAvg_at_col 576 (by omega) v0 v2 v4 r c hc)

/-- The block stored at column offset 640, from the loaded arrays. -/
theorem store_apply_640 (v0 : Vec Ideal S256x1024 .bf16) (v2 v4 : Vec Ideal S2048x1024 .bf16) (r : Fin 256) (d : Fin 64) :
    (k1_pay20 (k1_pay2 v0) (k1_pay3 v2) (k1_pay4 v4) : FVec Ideal S256x64 .f32) (ix2 r d)
      = Cert.Spec.softmaxAvg
          (fun t => ∑ e : Fin 64, v0 (ix2 r (⟨640 + e.val, by omega⟩ : Fin 1024)) * v2 (ix2 t (⟨640 + e.val, by omega⟩ : Fin 1024)))
          (fun t => v4 (ix2 t (⟨640 + d.val, by omega⟩ : Fin 1024))) :=
  (pay_apply_640 (k1_pay2 v0) (k1_pay3 v2) (k1_pay4 v4) r d).trans (by rw [k1_pay2_eq, k1_pay3_eq, k1_pay4_eq])

theorem store_col_apply_640 (v0 : Vec Ideal S256x1024 .bf16) (v2 v4 : Vec Ideal S2048x1024 .bf16) (r : Fin 256) (c : Fin 1024)
    (hc : c.val / 64 * 64 = 640) :
    (k1_pay20 (k1_pay2 v0) (k1_pay3 v2) (k1_pay4 v4) : FVec Ideal S256x64 .f32) (ix2 r (⟨c.val % 64, Nat.mod_lt _ (by omega)⟩ : Fin 64))
      = Cert.Spec.softmaxAvg
          (fun t => ∑ e : Fin 64, v0 (ix2 r (Cert.Spec.headCol c e)) * v2 (ix2 t (Cert.Spec.headCol c e)))
          (fun t => v4 (ix2 t c)) :=
  (store_apply_640 v0 v2 v4 r _).trans (softmaxAvg_at_col 640 (by omega) v0 v2 v4 r c hc)

/-- The block stored at column offset 704, from the loaded arrays. -/
theorem store_apply_704 (v0 : Vec Ideal S256x1024 .bf16) (v2 v4 : Vec Ideal S2048x1024 .bf16) (r : Fin 256) (d : Fin 64) :
    (k1_pay21 (k1_pay2 v0) (k1_pay3 v2) (k1_pay4 v4) : FVec Ideal S256x64 .f32) (ix2 r d)
      = Cert.Spec.softmaxAvg
          (fun t => ∑ e : Fin 64, v0 (ix2 r (⟨704 + e.val, by omega⟩ : Fin 1024)) * v2 (ix2 t (⟨704 + e.val, by omega⟩ : Fin 1024)))
          (fun t => v4 (ix2 t (⟨704 + d.val, by omega⟩ : Fin 1024))) :=
  (pay_apply_704 (k1_pay2 v0) (k1_pay3 v2) (k1_pay4 v4) r d).trans (by rw [k1_pay2_eq, k1_pay3_eq, k1_pay4_eq])

theorem store_col_apply_704 (v0 : Vec Ideal S256x1024 .bf16) (v2 v4 : Vec Ideal S2048x1024 .bf16) (r : Fin 256) (c : Fin 1024)
    (hc : c.val / 64 * 64 = 704) :
    (k1_pay21 (k1_pay2 v0) (k1_pay3 v2) (k1_pay4 v4) : FVec Ideal S256x64 .f32) (ix2 r (⟨c.val % 64, Nat.mod_lt _ (by omega)⟩ : Fin 64))
      = Cert.Spec.softmaxAvg
          (fun t => ∑ e : Fin 64, v0 (ix2 r (Cert.Spec.headCol c e)) * v2 (ix2 t (Cert.Spec.headCol c e)))
          (fun t => v4 (ix2 t c)) :=
  (store_apply_704 v0 v2 v4 r _).trans (softmaxAvg_at_col 704 (by omega) v0 v2 v4 r c hc)

/-- The block stored at column offset 768, from the loaded arrays. -/
theorem store_apply_768 (v0 : Vec Ideal S256x1024 .bf16) (v2 v4 : Vec Ideal S2048x1024 .bf16) (r : Fin 256) (d : Fin 64) :
    (k1_pay24 (k1_pay22 (k1_pay4 v4)) (k1_pay23 (k1_pay2 v0) (k1_pay3 v2)) : FVec Ideal S256x64 .f32) (ix2 r d)
      = Cert.Spec.softmaxAvg
          (fun t => ∑ e : Fin 64, v0 (ix2 r (⟨768 + e.val, by omega⟩ : Fin 1024)) * v2 (ix2 t (⟨768 + e.val, by omega⟩ : Fin 1024)))
          (fun t => v4 (ix2 t (⟨768 + d.val, by omega⟩ : Fin 1024))) :=
  (pay_apply_768 (k1_pay2 v0) (k1_pay3 v2) (k1_pay4 v4) r d).trans (by rw [k1_pay2_eq, k1_pay3_eq, k1_pay4_eq])

theorem store_col_apply_768 (v0 : Vec Ideal S256x1024 .bf16) (v2 v4 : Vec Ideal S2048x1024 .bf16) (r : Fin 256) (c : Fin 1024)
    (hc : c.val / 64 * 64 = 768) :
    (k1_pay24 (k1_pay22 (k1_pay4 v4)) (k1_pay23 (k1_pay2 v0) (k1_pay3 v2)) : FVec Ideal S256x64 .f32) (ix2 r (⟨c.val % 64, Nat.mod_lt _ (by omega)⟩ : Fin 64))
      = Cert.Spec.softmaxAvg
          (fun t => ∑ e : Fin 64, v0 (ix2 r (Cert.Spec.headCol c e)) * v2 (ix2 t (Cert.Spec.headCol c e)))
          (fun t => v4 (ix2 t c)) :=
  (store_apply_768 v0 v2 v4 r _).trans (softmaxAvg_at_col 768 (by omega) v0 v2 v4 r c hc)

/-- The block stored at column offset 832, from the loaded arrays. -/
theorem store_apply_832 (v0 : Vec Ideal S256x1024 .bf16) (v2 v4 : Vec Ideal S2048x1024 .bf16) (r : Fin 256) (d : Fin 64) :
    (k1_pay25 (k1_pay2 v0) (k1_pay3 v2) (k1_pay4 v4) : FVec Ideal S256x64 .f32) (ix2 r d)
      = Cert.Spec.softmaxAvg
          (fun t => ∑ e : Fin 64, v0 (ix2 r (⟨832 + e.val, by omega⟩ : Fin 1024)) * v2 (ix2 t (⟨832 + e.val, by omega⟩ : Fin 1024)))
          (fun t => v4 (ix2 t (⟨832 + d.val, by omega⟩ : Fin 1024))) :=
  (pay_apply_832 (k1_pay2 v0) (k1_pay3 v2) (k1_pay4 v4) r d).trans (by rw [k1_pay2_eq, k1_pay3_eq, k1_pay4_eq])

theorem store_col_apply_832 (v0 : Vec Ideal S256x1024 .bf16) (v2 v4 : Vec Ideal S2048x1024 .bf16) (r : Fin 256) (c : Fin 1024)
    (hc : c.val / 64 * 64 = 832) :
    (k1_pay25 (k1_pay2 v0) (k1_pay3 v2) (k1_pay4 v4) : FVec Ideal S256x64 .f32) (ix2 r (⟨c.val % 64, Nat.mod_lt _ (by omega)⟩ : Fin 64))
      = Cert.Spec.softmaxAvg
          (fun t => ∑ e : Fin 64, v0 (ix2 r (Cert.Spec.headCol c e)) * v2 (ix2 t (Cert.Spec.headCol c e)))
          (fun t => v4 (ix2 t c)) :=
  (store_apply_832 v0 v2 v4 r _).trans (softmaxAvg_at_col 832 (by omega) v0 v2 v4 r c hc)

/-- The block stored at column offset 896, from the loaded arrays. -/
theorem store_apply_896 (v0 : Vec Ideal S256x1024 .bf16) (v2 v4 : Vec Ideal S2048x1024 .bf16) (r : Fin 256) (d : Fin 64) :
    (k1_pay26 (k1_pay2 v0) (k1_pay3 v2) (k1_pay4 v4) : FVec Ideal S256x64 .f32) (ix2 r d)
      = Cert.Spec.softmaxAvg
          (fun t => ∑ e : Fin 64, v0 (ix2 r (⟨896 + e.val, by omega⟩ : Fin 1024)) * v2 (ix2 t (⟨896 + e.val, by omega⟩ : Fin 1024)))
          (fun t => v4 (ix2 t (⟨896 + d.val, by omega⟩ : Fin 1024))) :=
  (pay_apply_896 (k1_pay2 v0) (k1_pay3 v2) (k1_pay4 v4) r d).trans (by rw [k1_pay2_eq, k1_pay3_eq, k1_pay4_eq])

theorem store_col_apply_896 (v0 : Vec Ideal S256x1024 .bf16) (v2 v4 : Vec Ideal S2048x1024 .bf16) (r : Fin 256) (c : Fin 1024)
    (hc : c.val / 64 * 64 = 896) :
    (k1_pay26 (k1_pay2 v0) (k1_pay3 v2) (k1_pay4 v4) : FVec Ideal S256x64 .f32) (ix2 r (⟨c.val % 64, Nat.mod_lt _ (by omega)⟩ : Fin 64))
      = Cert.Spec.softmaxAvg
          (fun t => ∑ e : Fin 64, v0 (ix2 r (Cert.Spec.headCol c e)) * v2 (ix2 t (Cert.Spec.headCol c e)))
          (fun t => v4 (ix2 t c)) :=
  (store_apply_896 v0 v2 v4 r _).trans (softmaxAvg_at_col 896 (by omega) v0 v2 v4 r c hc)

/-- The block stored at column offset 960, from the loaded arrays. -/
theorem store_apply_960 (v0 : Vec Ideal S256x1024 .bf16) (v2 v4 : Vec Ideal S2048x1024 .bf16) (r : Fin 256) (d : Fin 64) :
    (k1_pay1 (k1_pay3 v2) (k1_pay4 v4) (k1_pay27 (k1_pay2 v0)) : FVec Ideal S256x64 .f32) (ix2 r d)
      = Cert.Spec.softmaxAvg
          (fun t => ∑ e : Fin 64, v0 (ix2 r (⟨960 + e.val, by omega⟩ : Fin 1024)) * v2 (ix2 t (⟨960 + e.val, by omega⟩ : Fin 1024)))
          (fun t => v4 (ix2 t (⟨960 + d.val, by omega⟩ : Fin 1024))) :=
  (pay_apply_960 (k1_pay2 v0) (k1_pay3 v2) (k1_pay4 v4) r d).trans (by rw [k1_pay2_eq, k1_pay3_eq, k1_pay4_eq])

theorem store_col_apply_960 (v0 : Vec Ideal S256x1024 .bf16) (v2 v4 : Vec Ideal S2048x1024 .bf16) (r : Fin 256) (c : Fin 1024)
    (hc : c.val / 64 * 64 = 960) :
    (k1_pay1 (k1_pay3 v2) (k1_pay4 v4) (k1_pay27 (k1_pay2 v0)) : FVec Ideal S256x64 .f32) (ix2 r (⟨c.val % 64, Nat.mod_lt _ (by omega)⟩ : Fin 64))
      = Cert.Spec.softmaxAvg
          (fun t => ∑ e : Fin 64, v0 (ix2 r (Cert.Spec.headCol c e)) * v2 (ix2 t (Cert.Spec.headCol c e)))
          (fun t => v4 (ix2 t c)) :=
  (store_apply_960 v0 v2 v4 r _).trans (softmaxAvg_at_col 960 (by omega) v0 v2 v4 r c hc)

end Cert.KernelValue

end
-- ==== Proof.BlockValue.lean ====
/-
  The two kernels' whole output blocks read at an index.

  The first kernel overwrites its [1024, 512] block by one store of a linear layer of its three input blocks.  The
  second writes its [256, 1024] block in sixteen 64-column bands, band h holding head h; the bands tile the block, and
  each band's value at (r, d) is the attention value of column 64·h + d, so the block is one function of the three
  input blocks: at (r, c), the softmax-weighted average of column c of the values under the scores of query row r
  against the key rows, over the 64 lanes of the head column c belongs to.
-/
import proofs.«143152_j40097814675891_2_alg».proof.Proof.HeadValue
import proofs.«143152_j40097814675891_2_alg».proof.Proof.HeadStores
import proofs.«143152_j40097814675891_2_alg».proof.Proof.KI.Body0
import proofs.«143152_j40097814675891_2_alg».proof.Proof.KI.Body1

noncomputable section

namespace Cert.KernelValue

open Cert.KernelIdeal Cert.KernelIdeal.Gen Idealize.ShloMosaic Idealize.ShloMosaic.ValueIdx

/-- The offsets of a whole-block rectangle are zero. -/
theorem zero2 : (![0, 0] : Fin 2 → ℕ) = fun _ => 0 :=
  funext fun a => by match a with | ⟨0, _⟩ => rfl | ⟨1, _⟩ => rfl

/-! ## The first kernel's block -/

/-- The projection block at (i, j): row i of the input block against row j of the weight block, plus the bias. -/
theorem out0_3_apply (x0 : Vec Ideal S1024x1024 .f32) (x1 : Vec Ideal S512x1024 .f32) (x2 : Vec Ideal S1x512 .f32)
    (i : Fin 1024) (j : Fin 512) :
    Cert.KernelIdeal.Hand.out0_3 (F := Ideal) x0 x1 x2 (ix2 i j)
      = (∑ k : Fin 1024, x0 (ix2 i k) * x1 (ix2 j k)) + x2 (ix2 (0 : Fin 1) j) := by
  unfold Cert.KernelIdeal.Hand.out0_3
  rw [View.canon_unit_zero zero2, View.ld_unit_zero zero2, View.ld_unit_zero zero2, View.ld_unit_zero zero2]
  exact proj_pay_apply x0 x1 x2 i j

/-! ## The second kernel's block -/

/-- The attention value at row r and column c, from the three input blocks. -/
def attnAt (x0 : Vec Ideal S256x1024 .bf16) (x1 x2 : Vec Ideal S2048x1024 .bf16) (r : Fin 256) (c : Fin 1024) : EReal :=
  Cert.Spec.softmaxAvg
    (fun t => ∑ e : Fin 64, x0 (ix2 r (Cert.Spec.headCol c e)) * x1 (ix2 t (Cert.Spec.headCol c e)))
    (fun t => x2 (ix2 t c))

/-- The same as a function of the block's index. -/
def attnBlock (x0 : Vec Ideal S256x1024 .bf16) (x1 x2 : Vec Ideal S2048x1024 .bf16) : S256x1024.Idx → EReal :=
  fun y => attnAt x0 x1 x2 (y 0) (y 1)

/-- The average of the block at offset o (a multiple of 64) at lane d is the attention value of column o + d. -/
theorem softmaxAvg_at_lane (o : ℕ) (ho : o + 64 ≤ 1024) (ho64 : o % 64 = 0) (x0 : Vec Ideal S256x1024 .bf16)
    (x1 x2 : Vec Ideal S2048x1024 .bf16) (r : Fin 256) (d : Fin 64) :
    Cert.Spec.softmaxAvg
        (fun t => ∑ e : Fin 64, x0 (ix2 r (⟨o + e.val, by omega⟩ : Fin 1024)) * x1 (ix2 t (⟨o + e.val, by omega⟩ : Fin 1024)))
        (fun t => x2 (ix2 t (⟨o + d.val, by omega⟩ : Fin 1024)))
      = attnAt x0 x1 x2 r (⟨o + d.val, by omega⟩ : Fin 1024) :=
  congrArg (fun sc => Cert.Spec.softmaxAvg sc (fun t => x2 (ix2 t (⟨o + d.val, by omega⟩ : Fin 1024))))
    (funext fun t => Finset.sum_congr rfl fun e _ => by
      rw [headCol_eq o ho (⟨o + d.val, by omega⟩ : Fin 1024) (by show (o + d.val) / 64 * 64 = o; omega) e])

/-- A band's payload that reads the head at its offset is the block function under the band's rectangle. -/
theorem band_piece (o : ℕ) (ho : o + 64 ≤ 1024) (ho64 : o % 64 = 0)
    (inb : ∀ a, (![0, o] : Fin 2 → ℕ) a + S256x64.size a ≤ S256x1024.size a)
    (x0 : Vec Ideal S256x1024 .bf16) (x1 x2 : Vec Ideal S2048x1024 .bf16) (p : S256x64.Idx → EReal)
    (hp : ∀ (r : Fin 256) (d : Fin 64), p (ix2 r d)
      = Cert.Spec.softmaxAvg
          (fun t => ∑ e : Fin 64, x0 (ix2 r (⟨o + e.val, by omega⟩ : Fin 1024)) * x1 (ix2 t (⟨o + e.val, by omega⟩ : Fin 1024)))
          (fun t => x2 (ix2 t (⟨o + d.val, by omega⟩ : Fin 1024))))
    (x : S256x64.Idx) :
    p x = attnBlock x0 x1 x2 ((Rect.unit (s := S256x1024) ![0, o] S256x64.size inb).emb x) := by
  obtain ⟨r, d, rfl⟩ : ∃ (r : Fin 256) (d : Fin 64), x = ix2 r d := ⟨x 0, x 1, eq_ix2 x⟩
  have hemb : (Rect.unit (s := S256x1024) ![0, o] S256x64.size inb).emb (ix2 r d) = ix2 r (⟨o + d.val, by omega⟩ : Fin 1024) :=
    idx2_ext _ r (⟨o + d.val, by omega⟩ : Fin 1024) (by show 0 + 1 * r.val = r.val; omega)
      (by show o + 1 * d.val = o + d.val; omega)
  rw [hemb, hp r d]
  exact softmaxAvg_at_lane o ho ho64 x0 x1 x2 r d

/-- The sixteen bands, each the head at its offset, read at (r, c) as the attention value there. -/
theorem bands_apply (v0 : Vec Ideal S256x1024 .bf16) (v2 v4 : Vec Ideal S2048x1024 .bf16) (r : Fin 256) (c : Fin 1024) :
    View.canon ([
      ⟨Cert.KernelIdeal.Hand.ro960, k1_pay1 (k1_pay3 v2) (k1_pay4 v4) (k1_pay27 (k1_pay2 v0))⟩,
      ⟨Cert.KernelIdeal.Hand.ro896, k1_pay26 (k1_pay2 v0) (k1_pay3 v2) (k1_pay4 v4)⟩,
      ⟨Cert.KernelIdeal.Hand.ro832, k1_pay25 (k1_pay2 v0) (k1_pay3 v2) (k1_pay4 v4)⟩,
      ⟨Cert.KernelIdeal.Hand.ro768, k1_pay24 (k1_pay22 (k1_pay4 v4)) (k1_pay23 (k1_pay2 v0) (k1_pay3 v2))⟩,
      ⟨Cert.KernelIdeal.Hand.ro704, k1_pay21 (k1_pay2 v0) (k1_pay3 v2) (k1_pay4 v4)⟩,
      ⟨Cert.KernelIdeal.Hand.ro640, k1_pay20 (k1_pay2 v0) (k1_pay3 v2) (k1_pay4 v4)⟩,
      ⟨Cert.KernelIdeal.Hand.ro576, k1_pay19 (k1_pay2 v0) (k1_pay3 v2) (k1_pay4 v4)⟩,
      ⟨Cert.KernelIdeal.Hand.ro512, k1_pay18 (k1_pay2 v0) (k1_pay3 v2) (k1_pay4 v4)⟩,
      ⟨Cert.KernelIdeal.Hand.ro448, k1_pay17 (k1_pay15 (k1_pay4 v4)) (k1_pay16 (k1_pay2 v0) (k1_pay3 v2))⟩,
      ⟨Cert.KernelIdeal.Hand.ro384, k1_pay14 (k1_pay2 v0) (k1_pay3 v2) (k1_pay4 v4)⟩,
      ⟨Cert.KernelIdeal.Hand.ro320, k1_pay13 (k1_pay2 v0) (k1_pay3 v2) (k1_pay4 v4)⟩,
      ⟨Cert.KernelIdeal.Hand.ro256, k1_pay12 (k1_pay9 (k1_pay4 v4)) (k1_pay10 (k1_pay2 v0) (k1_pay3 v2)) (k1_pay11 (k1_pay2 v0) (k1_pay3 v2))⟩,
      ⟨Cert.KernelIdeal.Hand.ro192, k1_pay8 (k1_pay2 v0) (k1_pay3 v2) (k1_pay4 v4)⟩,
      ⟨Cert.KernelIdeal.Hand.ro128, k1_pay7 (k1_pay2 v0) (k1_pay3 v2) (k1_pay4 v4)⟩,
      ⟨Cert.KernelIdeal.Hand.ro64, k1_pay6 v0 v2 v4⟩,
      ⟨Cert.KernelIdeal.Hand.ro0, k1_pay5 v0 v2 v4⟩] : List (View.Piece (Elt Ideal) S256x1024 .f32)) (ix2 r c)
      = attnAt v0 v2 v4 r c :=
  View.canon_apply_of_pieces (Val := Elt Ideal) (S := S256x1024) (e := .f32) (attnBlock v0 v2 v4) _
    (List.forall_mem_cons.2 ⟨band_piece 960 (by omega) (by omega) inb_S256x1024_S256x64_0_960 v0 v2 v4 _ (store_apply_960 v0 v2 v4),
    List.forall_mem_cons.2 ⟨band_piece 896 (by omega) (by omega) inb_S256x1024_S256x64_0_896 v0 v2 v4 _ (store_apply_896 v0 v2 v4),
    List.forall_mem_cons.2 ⟨band_piece 832 (by omega) (by omega) inb_S256x1024_S256x64_0_832 v0 v2 v4 _ (store_apply_832 v0 v2 v4),
    List.forall_mem_cons.2 ⟨band_piece 768 (by omega) (by omega) inb_S256x1024_S256x64_0_768 v0 v2 v4 _ (store_apply_768 v0 v2 v4),
    List.forall_mem_cons.2 ⟨band_piece 704 (by omega) (by omega) inb_S256x1024_S256x64_0_704 v0 v2 v4 _ (store_apply_704 v0 v2 v4),
    List.forall_mem_cons.2 ⟨band_piece 640 (by omega) (by omega) inb_S256x1024_S256x64_0_640 v0 v2 v4 _ (store_apply_640 v0 v2 v4),
    List.forall_mem_cons.2 ⟨band_piece 576 (by omega) (by omega) inb_S256x1024_S256x64_0_576 v0 v2 v4 _ (store_apply_576 v0 v2 v4),
    List.forall_mem_cons.2 ⟨band_piece 512 (by omega) (by omega) inb_S256x1024_S256x64_0_512 v0 v2 v4 _ (store_apply_512 v0 v2 v4),
    List.forall_mem_cons.2 ⟨band_piece 448 (by omega) (by omega) inb_S256x1024_S256x64_0_448 v0 v2 v4 _ (store_apply_448 v0 v2 v4),
    List.forall_mem_cons.2 ⟨band_piece 384 (by omega) (by omega) inb_S256x1024_S256x64_0_384 v0 v2 v4 _ (store_apply_384 v0 v2 v4),
    List.forall_mem_cons.2 ⟨band_piece 320 (by omega) (by omega) inb_S256x1024_S256x64_0_320 v0 v2 v4 _ (store_apply_320 v0 v2 v4),
    List.forall_mem_cons.2 ⟨band_piece 256 (by omega) (by omega) inb_S256x1024_S256x64_0_256 v0 v2 v4 _ (store_apply_256 v0 v2 v4),
    List.forall_mem_cons.2 ⟨band_piece 192 (by omega) (by omega) inb_S256x1024_S256x64_0_192 v0 v2 v4 _ (store_apply_192 v0 v2 v4),
    List.forall_mem_cons.2 ⟨band_piece 128 (by omega) (by omega) inb_S256x1024_S256x64_0_128 v0 v2 v4 _ (store_apply_128 v0 v2 v4),
    List.forall_mem_cons.2 ⟨band_piece 64 (by omega) (by omega) inb_S256x1024_S256x64_0_64 v0 v2 v4 _ (store_apply_64 v0 v2 v4),
    List.forall_mem_cons.2 ⟨band_piece 0 (by omega) (by omega) inb_S256x1024_S256x64_0_0 v0 v2 v4 _ (store_apply_0 v0 v2 v4),
    fun _ h => absurd h List.not_mem_nil⟩⟩⟩⟩⟩⟩⟩⟩⟩⟩⟩⟩⟩⟩⟩⟩)
    (ix2 r c) (Cert.KernelIdeal.Hand.cover1_3 _ _ _ _ _ _ _ _ _ _ _ _ _ _ _ _ (ix2 r c))

/-- The attention block at (r, c). -/
theorem out1_3_apply (x0 : Vec Ideal S256x1024 .bf16) (x1 x2 : Vec Ideal S2048x1024 .bf16) (r : Fin 256) (c : Fin 1024) :
    Cert.KernelIdeal.Hand.out1_3 (F := Ideal) x0 x1 x2 (ix2 r c)
      = Cert.Spec.softmaxAvg
          (fun t => ∑ e : Fin 64, x0 (ix2 r (Cert.Spec.headCol c e)) * x1 (ix2 t (Cert.Spec.headCol c e)))
          (fun t => x2 (ix2 t c)) :=
  (bands_apply (View.ld x0 Cert.KernelIdeal.Hand.r1q) (View.ld x1 Cert.KernelIdeal.Hand.r1k)
      (View.ld x2 Cert.KernelIdeal.Hand.r1k) r c).trans (by
    rw [View.ld_unit_zero zero2, View.ld_unit_zero zero2, View.ld_unit_zero zero2]
    rfl)

end Cert.KernelValue

end
-- ==== Proof.HostValue.lean ====
/-
  The host operations around the two kernels, read as functions of the arguments.

  Before the kernels the program stacks the three weight arrays along their rows into one [3072, 1024] array and the
  three biases into one row [1, 3072], and flattens the input [2, 2048, 1024] to [4096, 1024], row n·2048 + s holding
  position s of batch entry n. After them it cuts the [4096, 1024] result back into [2, 2048, 1024]. A stacked array read
  at a row of its first, second or last third is the query, key or value operand at that row less 0, 1024 or 2048, so the
  packed projection — flattened input against stacked weights, plus the bias row — is, at row n·2048 + s and column o of
  each third, the corresponding linear layer at (n, s, o). Position t of the batch entry that row n·2048 + s belongs to is
  row n·2048 + t. Attention read off the packed projection at (n·2048 + s, c) is therefore the specification at
  (n, s, c), the two being the same softmax-weighted average of the same scores and value entries.
-/
import proofs.«143152_j40097814675891_2_alg».proof.Proof.Gen.KernelIdeal.Launch
import proofs.«143152_j40097814675891_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelHost

open Cert.KernelIdeal Cert.KernelIdeal.Gen Idealize.ShloMosaic Idealize.ShloMosaic.TcCoe Idealize.ShloMosaic.ValueIdx
open Idealize.SL.Sem

/-- Row n·2048 + s of the arrays flattened to [4096, ·]: position s of batch entry n. -/
def row (n : Fin 2) (s : Fin 2048) : Fin 4096 := ⟨n.val * 2048 + s.val, by omega⟩

/-! ## The host operations before the kernels, as functions of the arguments -/

/-- The input flattened to [4096, 1024]. -/
def x2 (x : S2x2048x1024.Idx → EReal) : S4096x1024.Idx → EReal :=
  shapeCast S4096x1024 x shapeCasts_S2x2048x1024_S4096x1024

/-- The three weight arrays stacked along the rows to [3072, 1024]. -/
def w3 (wq wk wv : S1024x1024.Idx → EReal) : S3072x1024.Idx → EReal :=
  concatenate S3072x1024 0 [⟨S1024x1024, wq⟩, ⟨S1024x1024, wk⟩, ⟨S1024x1024, wv⟩]
    concatenates_S1024x1024_S1024x1024_S1024x1024_S3072x1024_d0

/-- The three biases laid end to end. -/
def bcat (bq bk bv : S1024.Idx → EReal) : S3072.Idx → EReal :=
  concatenate S3072 0 [⟨S1024, bq⟩, ⟨S1024, bk⟩, ⟨S1024, bv⟩] concatenates_S1024_S1024_S1024_S3072_d0

/-- The stacked bias as one row [1, 3072]. -/
def b3 (bq bk bv : S1024.Idx → EReal) : S1x3072.Idx → EReal :=
  shapeCast S1x3072 (bcat bq bk bv) shapeCasts_S3072_S1x3072

theorem stage_v2 (V0 : Valuation τ sig (Elt Ideal)) :
    StableHlo.after hostOps0 V0 main_v2 = x2 (V0 main_arg0) := by
  show StableHlo.after hostOps0 V0 (Proc.devRef .tc main_v2) = _
  after_results
  rfl

theorem stage_v0 (V0 : Valuation τ sig (Elt Ideal)) :
    StableHlo.after hostOps0 V0 main_v0 = w3 (V0 main_arg2) (V0 main_arg4) (V0 main_arg6) := by
  show StableHlo.after hostOps0 V0 (Proc.devRef .tc main_v0) = _
  after_results
  rfl

theorem stage_v3 (V0 : Valuation τ sig (Elt Ideal)) :
    StableHlo.after hostOps0 V0 main_v3 = b3 (V0 main_arg3) (V0 main_arg5) (V0 main_arg7) := by
  show StableHlo.after hostOps0 V0 (Proc.devRef .tc main_v3) = _
  after_results
  rfl

theorem stage_v6 (W3 : Valuation τ sig (Elt Ideal)) :
    StableHlo.after hostOps2 W3 main_v6 = shapeCast S2x2048x1024 (W3 main_v5) shapeCasts_S4096x1024_S2x2048x1024 := by
  show StableHlo.after hostOps2 W3 (Proc.devRef .tc main_v6) = _
  after_results
  rfl

/-! ## Each at an index -/

/-- The flattened input at row n·2048 + s is the input at (n, s). -/
theorem x2_at (x : S2x2048x1024.Idx → EReal) (n : Fin 2) (s : Fin 2048) (k : Fin 1024) :
    x2 x (ix2 (row n s) k) = x (ix3 n s k) := by
  unfold x2
  exact shapeCast_apply x _ _ _ (by
    rw [Shape.rowMajor_val_three, Shape.rowMajor_val_two]
    rfl)

/-- The [4096, 1024] result cut back into batch entries: (n, s, c) reads row n·2048 + s. -/
theorem unflat_at (y : S4096x1024.Idx → EReal) (n : Fin 2) (s : Fin 2048) (c : Fin 1024) :
    shapeCast S2x2048x1024 y shapeCasts_S4096x1024_S2x2048x1024 (ix3 n s c) = y (ix2 (row n s) c) :=
  shapeCast_apply y _ _ _ (by
    rw [Shape.rowMajor_val_three, Shape.rowMajor_val_two]
    rfl)

/-- Rows 0–1023 of the stacked weights are the query weights. -/
theorem w3_q (wq wk wv : S1024x1024.Idx → EReal) (o k : Fin 1024) :
    w3 wq wk wv (ix2 (Spec.qCol o) k) = wq (ix2 o k) := by
  unfold w3
  exact concatenate_apply_piece (0 : Fin S3072x1024.rank) _ _ (ix2 (Spec.qCol o) k) 0 (by show (0 : Nat) < 3; omega) S1024x1024 wq rfl rfl 0 rfl
    (ix2 o k) (fun b hb => by
      match b with
      | ⟨0, _⟩ => exact absurd rfl hb
      | ⟨1, _⟩ => rfl)
    (by show 0 + o.val = o.val; omega)

/-- Rows 1024–2047 are the key weights. -/
theorem w3_k (wq wk wv : S1024x1024.Idx → EReal) (o k : Fin 1024) :
    w3 wq wk wv (ix2 (Spec.kCol o) k) = wk (ix2 o k) := by
  unfold w3
  exact concatenate_apply_piece (0 : Fin S3072x1024.rank) _ _ (ix2 (Spec.kCol o) k) 1 (by show (1 : Nat) < 3; omega) S1024x1024 wk rfl rfl 1024 rfl
    (ix2 o k) (fun b hb => by
      match b with
      | ⟨0, _⟩ => exact absurd rfl hb
      | ⟨1, _⟩ => rfl)
    rfl

/-- Rows 2048–3071 are the value weights. -/
theorem w3_v (wq wk wv : S1024x1024.Idx → EReal) (o k : Fin 1024) :
    w3 wq wk wv (ix2 (Spec.vCol o) k) = wv (ix2 o k) := by
  unfold w3
  exact concatenate_apply_piece (0 : Fin S3072x1024.rank) _ _ (ix2 (Spec.vCol o) k) 2 (by show (2 : Nat) < 3; omega) S1024x1024 wv rfl rfl 2048 rfl
    (ix2 o k) (fun b hb => by
      match b with
      | ⟨0, _⟩ => exact absurd rfl hb
      | ⟨1, _⟩ => rfl)
    rfl

/-- The same three ranges of the stacked bias. -/
theorem b3_q (bq bk bv : S1024.Idx → EReal) (o : Fin 1024) :
    b3 bq bk bv (ix2 (0 : Fin 1) (Spec.qCol o)) = bq (ix1 o) := by
  unfold b3
  rw [shapeCast_a_1a_apply]
  unfold bcat
  exact concatenate_apply_piece (0 : Fin S3072.rank) _ _ (ix1 (Spec.qCol o)) 0 (by show (0 : Nat) < 3; omega) S1024 bq rfl rfl 0 rfl
    (ix1 o) (fun b hb => by
      match b with
      | ⟨0, _⟩ => exact absurd rfl hb)
    (by show 0 + o.val = o.val; omega)

theorem b3_k (bq bk bv : S1024.Idx → EReal) (o : Fin 1024) :
    b3 bq bk bv (ix2 (0 : Fin 1) (Spec.kCol o)) = bk (ix1 o) := by
  unfold b3
  rw [shapeCast_a_1a_apply]
  unfold bcat
  exact concatenate_apply_piece (0 : Fin S3072.rank) _ _ (ix1 (Spec.kCol o)) 1 (by show (1 : Nat) < 3; omega) S1024 bk rfl rfl 1024 rfl
    (ix1 o) (fun b hb => by
      match b with
      | ⟨0, _⟩ => exact absurd rfl hb)
    rfl

theorem b3_v (bq bk bv : S1024.Idx → EReal) (o : Fin 1024) :
    b3 bq bk bv (ix2 (0 : Fin 1) (Spec.vCol o)) = bv (ix1 o) := by
  unfold b3
  rw [shapeCast_a_1a_apply]
  unfold bcat
  exact concatenate_apply_piece (0 : Fin S3072.rank) _ _ (ix1 (Spec.vCol o)) 2 (by show (2 : Nat) < 3; omega) S1024 bv rfl rfl 2048 rfl
    (ix1 o) (fun b hb => by
      match b with
      | ⟨0, _⟩ => exact absurd rfl hb)
    rfl

/-! ## The packed projection at a row and a column of each third -/

/-- The arrays as coordinate functions (the same the specification's array form reads). -/
abbrev X (x : S2x2048x1024.Idx → EReal) : Fin 2 → Fin 2048 → Fin 1024 → EReal := fun n s k => x (ix3 n s k)
abbrev W (w : S1024x1024.Idx → EReal) : Fin 1024 → Fin 1024 → EReal := fun o k => w (ix2 o k)
abbrev B (b : S1024.Idx → EReal) : Fin 1024 → EReal := fun o => b (ix1 o)

/-- Row n·2048 + s, column o of the first third of the packed projection is the query layer at (n, s, o). -/
theorem proj_q (x : S2x2048x1024.Idx → EReal) (wq wk wv : S1024x1024.Idx → EReal) (bq bk bv : S1024.Idx → EReal)
    (n : Fin 2) (s : Fin 2048) (o : Fin 1024) :
    Spec.projA (x2 x) (w3 wq wk wv) (b3 bq bk bv) (ix2 (row n s) (Spec.qCol o)) = Spec.lin (X x) (W wq) (B bq) n s o := by
  show (∑ k : Fin 1024, x2 x (ix2 (row n s) k) * w3 wq wk wv (ix2 (Spec.qCol o) k)) + b3 bq bk bv (ix2 (0 : Fin 1) (Spec.qCol o))
    = (∑ k : Fin 1024, x (ix3 n s k) * wq (ix2 o k)) + bq (ix1 o)
  rw [b3_q]
  refine congrArg (· + bq (ix1 o)) (Finset.sum_congr rfl fun k _ => ?_)
  rw [x2_at, w3_q]

/-- The same for the second third and the key layer. -/
theorem proj_k (x : S2x2048x1024.Idx → EReal) (wq wk wv : S1024x1024.Idx → EReal) (bq bk bv : S1024.Idx → EReal)
    (n : Fin 2) (s : Fin 2048) (o : Fin 1024) :
    Spec.projA (x2 x) (w3 wq wk wv) (b3 bq bk bv) (ix2 (row n s) (Spec.kCol o)) = Spec.lin (X x) (W wk) (B bk) n s o := by
  show (∑ k : Fin 1024, x2 x (ix2 (row n s) k) * w3 wq wk wv (ix2 (Spec.kCol o) k)) + b3 bq bk bv (ix2 (0 : Fin 1) (Spec.kCol o))
    = (∑ k : Fin 1024, x (ix3 n s k) * wk (ix2 o k)) + bk (ix1 o)
  rw [b3_k]
  refine congrArg (· + bk (ix1 o)) (Finset.sum_congr rfl fun k _ => ?_)
  rw [x2_at, w3_k]

/-- The same for the last third and the value layer. -/
theorem proj_v (x : S2x2048x1024.Idx → EReal) (wq wk wv : S1024x1024.Idx → EReal) (bq bk bv : S1024.Idx → EReal)
    (n : Fin 2) (s : Fin 2048) (o : Fin 1024) :
    Spec.projA (x2 x) (w3 wq wk wv) (b3 bq bk bv) (ix2 (row n s) (Spec.vCol o)) = Spec.lin (X x) (W wv) (B bv) n s o := by
  show (∑ k : Fin 1024, x2 x (ix2 (row n s) k) * w3 wq wk wv (ix2 (Spec.vCol o) k)) + b3 bq bk bv (ix2 (0 : Fin 1) (Spec.vCol o))
    = (∑ k : Fin 1024, x (ix3 n s k) * wv (ix2 o k)) + bv (ix1 o)
  rw [b3_v]
  refine congrArg (· + bv (ix1 o)) (Finset.sum_congr rfl fun k _ => ?_)
  rw [x2_at, w3_v]

/-- Position t of the batch entry that row n·2048 + s belongs to is row n·2048 + t. -/
theorem batchRow_row (n : Fin 2) (s t : Fin 2048) : Spec.batchRow (row n s) t = row n t :=
  Fin.ext (by
    have hs := s.isLt
    show (n.val * 2048 + s.val) / 2048 * 2048 + t.val = n.val * 2048 + t.val
    omega)

/-! ## Attention read off the packed projection is the specification -/

theorem attn_packed (x : S2x2048x1024.Idx → EReal) (wq wk wv : S1024x1024.Idx → EReal) (bq bk bv : S1024.Idx → EReal)
    (n : Fin 2) (s : Fin 2048) (c : Fin 1024) :
    Spec.attnA (Spec.projA (x2 x) (w3 wq wk wv) (b3 bq bk bv)) (ix2 (row n s) c)
      = Spec.GA x wq bq wk bk wv bv (ix3 n s c) := by
  show Spec.attnRC (Spec.projA (x2 x) (w3 wq wk wv) (b3 bq bk bv)) (row n s) c
    = Spec.G (X x) (W wq) (B bq) (W wk) (B bk) (W wv) (B bv) n s c
  unfold Spec.attnRC Spec.G Spec.attn
  simp only [batchRow_row, proj_q, proj_k, proj_v]

/-- The program's result, given what the second kernel leaves in its output array: the specification's array of the
    arguments. -/
theorem final_value (V0 W3 : Valuation τ sig (Elt Ideal))
    (h5 : W3 main_v5 = Cert.Spec.attnA (Cert.Spec.projA (StableHlo.after hostOps0 V0 main_v2) (StableHlo.after hostOps0 V0 main_v0) (StableHlo.after hostOps0 V0 main_v3))) :
    StableHlo.after hostOps2 W3 main_v6 = Cert.Spec.GA (V0 main_arg0) (V0 main_arg2) (V0 main_arg3) (V0 main_arg4) (V0 main_arg5) (V0 main_arg6) (V0 main_arg7) := by
  rw [stage_v6, h5, stage_v2, stage_v0, stage_v3]
  funext i
  obtain ⟨n, s, c, rfl⟩ : ∃ (n : Fin 2) (s : Fin 2048) (c : Fin 1024), i = ix3 n s c := ⟨i 0, i 1, i 2, eq_ix3 i⟩
  rw [unflat_at]
  exact attn_packed _ _ _ _ _ _ _ n s c

end Cert.KernelHost

end
-- ==== Proof.KI.Value.lean ====
/-
  The result of the idealized kernel's run, named: the last buffer holds the specification's array of the arguments.
  Region 0 leaves the packed projection of what the first host operations wrote (the flattened input, the stacked
  weights and bias); region 1 leaves the attention read off that packed array; the last host operation reshapes it.
  Each of the three facts is proved on its own; here they are chained along the run's valuations.
-/
import proofs.«143152_j40097814675891_2_alg».proof.Proof.Gen.KernelIdeal.Launch
import proofs.«143152_j40097814675891_2_alg».proof.Proof.Gen.KernelIdeal.Skeleton
import proofs.«143152_j40097814675891_2_alg».proof.Proof.Gen.KernelIdeal.Points
import proofs.«143152_j40097814675891_2_alg».proof.Proof.KI.Run
import proofs.«143152_j40097814675891_2_alg».proof.Proof.KI.Final0
import proofs.«143152_j40097814675891_2_alg».proof.Proof.KI.Final1
import proofs.«143152_j40097814675891_2_alg».proof.Proof.BlockValue
import proofs.«143152_j40097814675891_2_alg».proof.Proof.HostValue
import proofs.«143152_j40097814675891_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- Region 0 leaves the packed projection of the arrays it found. -/
theorem o2_eq (c : Dev nD) : o2 m c = Cert.Spec.projA (Vr1 m c main_v2) (Vr1 m c main_v0) (Vr1 m c main_v3) :=
  final0 (Vr1 m) Cert.KernelValue.out0_3_apply c

/-- Region 1 leaves the attention read off the array it found, -/
theorem o3_eq (c : Dev nD) : o3 m c = Cert.Spec.attnA (Vr2 m c main_v4) :=
  final1 (Vr2 m) Cert.KernelValue.out1_3_apply c

/-- which is what region 0 left. -/
theorem Vr2_v4 (c : Dev nD) : Vr2 m c main_v4 = o2 m c :=
  Function.update_self (β := fun b : DevRef τ sig => Buf (Elt Ideal) ((c : Thread nD τ).1, b)) (Proc.devRef .tc main_v4) (o2 m c) (W1 m c)

theorem W3_v5 (c : Dev nD) : W3 m c main_v5
    = Cert.Spec.attnA (Cert.Spec.projA (StableHlo.after hostOps0 (V0 m c) main_v2) (StableHlo.after hostOps0 (V0 m c) main_v0) (StableHlo.after hostOps0 (V0 m c) main_v3)) :=
  (Function.update_self (β := fun b : DevRef τ sig => Buf (Elt Ideal) ((c : Thread nD τ).1, b)) (Proc.devRef .tc main_v5) (o3 m c) (W2 m c)).trans
    ((o3_eq m c).trans (by rw [Vr2_v4, o2_eq]))

/-- THE RESULT: the last buffer holds the specification's array of the arguments as launched. -/
theorem result_eq (c : Dev nD) : W4 m c main_v6 = Cert.Spec.GA (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  Cert.KernelHost.final_value (V0 m c) (W3 m c) (W3_v5 m c)

/-- The run with its result named and the arguments unchanged. -/
theorem value_run : θ_run defs (onTc (τ := τ) (main (F := Ideal))) ⟨m, fun _ => 0, ρ⟩ (fun r => ∀ c : Dev nD,
      r.2.mem ((c.tc : Thread nD τ).loc main_v6) = Cert.Spec.GA (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    obtain ⟨h0, h1, h2, h3, h4, h5, h6, h7⟩ := W4_arg m c
    exact ⟨(h c _ (mem_uc main_v6 (by decide))).trans (result_eq m c),
      (h c _ (mem_uc main_arg0 (by decide))).trans h0, (h c _ (mem_uc main_arg1 (by decide))).trans h1,
      (h c _ (mem_uc main_arg2 (by decide))).trans h2, (h c _ (mem_uc main_arg3 (by decide))).trans h3,
      (h c _ (mem_uc main_arg4 (by decide))).trans h4, (h c _ (mem_uc main_arg5 (by decide))).trans h5,
      (h c _ (mem_uc main_arg6 (by decide))).trans h6, (h c _ (mem_uc main_arg7 (by decide))).trans h7⟩) (run_all m ρ)

end Cert.KernelIdeal.Hand

end
-- ==== Proof.LibMaxFold.lean ====
/-
  Maxima folded over a finite index set, as both programs' softmax takes them: the fold of `max` over the set,
  starting from some value `b` (for the programs, −∞).  Such a fold lies above its starting value and above
  every entry, and nothing smaller does: it is the least upper bound of `b` and the family.  Two consequences are
  used: taking one more maximum with the starting value changes nothing, whatever that value is; and the fold
  only depends on the family through its values, so it may be re-indexed along a bijection.
-/
import Mathlib.Data.EReal.Basic
import Mathlib.Data.Finset.Fold

namespace Cert.LibMaxFold

variable {α : Type*} [LinearOrder α] {ι : Type*}

/-- A fold of `max` lies above the value it starts from. -/
theorem start_le_fold (s : Finset ι) (b : α) (f : ι → α) : b ≤ s.fold max b f :=
  (Finset.le_fold_max b).mpr (Or.inl le_rfl)

/-- One more maximum with the starting value changes nothing. -/
theorem max_start_fold (s : Finset ι) (b : α) (f : ι → α) : max b (s.fold max b f) = s.fold max b f :=
  max_eq_right (start_le_fold s b f)

/-- The same with the operands in the other order. -/
theorem max_fold_start (s : Finset ι) (b : α) (f : ι → α) : max (s.fold max b f) b = s.fold max b f :=
  max_eq_left (start_le_fold s b f)

/-- Two families with the same values have the same fold. -/
theorem fold_congr (s : Finset ι) (b : α) {f g : ι → α} (h : ∀ i ∈ s, f i = g i) :
    s.fold max b f = s.fold max b g :=
  Finset.fold_congr h

end Cert.LibMaxFold
-- ==== Proof.RefSpec.lean ====
/-
  The reference program computes the specification's array.

  The reference is read one operation at a time, at an index split into its coordinates. Each of the three linear
  layers is, at (n, s, c), the sum over the 1024 input features of x(n, s, k)·w(c, k), plus b(c); the reshape to
  [2, 2048, 16, 64] and the exchange of the two middle axes make head h, lane d of position s read feature h·64 + d.
  The batched contraction of query and key heads over the 64 lanes is the score; the maximum-reduce over the key axis is
  the fold of max over the 2048 scores from the −∞ word, and the further maximum with that same word changes nothing,
  because a fold of max lies above the value it starts from (the word is never evaluated). The shifted exponentials,
  their sum over the keys (started from the zero word, which is 0), the quotient, and the contraction of the weights
  with the value heads over the keys are then the softmax-weighted average of the specification, term for term; the
  way back to [2, 2048, 1024] reads head c / 64, lane c % 64 at column c, and (c / 64)·64 + c % 64 = c.
  Both sides are the same expression tree: no law of arithmetic and no finiteness is used.
-/
import proofs.«143152_j40097814675891_2_alg».proof.Proof.Gen.ReferenceIdeal.Read
import proofs.«143152_j40097814675891_2_alg».proof.Proof.Spec
import proofs.«143152_j40097814675891_2_alg».proof.Proof.LibMaxFold
import Idealize.ShloMosaic.PureOps.Reduce
import Idealize.ShloMosaic.PureOps.Ideal.Laws
import Idealize.ShloMosaic.Lib.ValueIdx

noncomputable section

namespace Cert.RefSpec

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-- Lane `d` of head `h`: column h·64 + d of the 1024 features. -/
def col (h : Fin 16) (d : Fin 64) : Fin 1024 := ⟨h.val * 64 + d.val, by omega⟩

/-- The input array as a function of (batch entry, position, feature). -/
abbrev X (x : (⟨S2x2048x1024, .f32⟩ : BufTy).Contents (Elt Ideal)) : Fin 2 → Fin 2048 → Fin 1024 → EReal :=
  fun n s k => x (ix3 n s k)
/-- A weight array as a function of (output feature, input feature). -/
abbrev W (w : (⟨S1024x1024, .f32⟩ : BufTy).Contents (Elt Ideal)) : Fin 1024 → Fin 1024 → EReal :=
  fun o k => w (ix2 o k)
/-- A bias array as a function of the output feature. -/
abbrev B (b : (⟨S1024, .f32⟩ : BufTy).Contents (Elt Ideal)) : Fin 1024 → EReal :=
  fun o => b (ix1 o)

/-! ## The three linear layers, read head by head -/

/-- The linear layer x·wᵀ + b before it is cut into heads, at (n, s, c). -/
theorem v3_at (x0 : (⟨S2x2048x1024, .f32⟩ : BufTy).Contents (Elt Ideal)) (w : (⟨S1024x1024, .f32⟩ : BufTy).Contents (Elt Ideal))
    (b : (⟨S1024, .f32⟩ : BufTy).Contents (Elt Ideal)) (n : Fin 2) (s : Fin 2048) (c : Fin 1024) :
    val_main_v3 (F := Ideal) x0 w b (ix3 n s c) = Spec.lin (X x0) (W w) (B b) n s c := by
  rw [val_main_v3_apply, val_main_v0_apply, val_main_v2_apply, val_main_v1_apply]
  have el : ∀ k : Fin 1024, lidx_main_v0 (ix3 n s c) k = ix3 n s k := fun k => funext fun a => Fin.ext (by
    match a with
    | ⟨0, _⟩ => rfl
    | ⟨1, _⟩ => rfl
    | ⟨2, _⟩ => rfl)
  have er : ∀ k : Fin 1024, ridx_main_v0 (ix3 n s c) k = ix2 c k := fun k => funext fun a => Fin.ext (by
    match a with
    | ⟨0, _⟩ => rfl
    | ⟨1, _⟩ => rfl)
  have eb : idx_main_v1 (idx_main_v2 (ix3 n s c)) = ix1 c := funext fun a => Fin.ext (by
    match a with
    | ⟨0, _⟩ => rfl)
  simp only [el, er, eb]
  rfl

/-- Head h, lane d of the layer at position s: the reshape to [2, 2048, 16, 64] followed by the exchange of the two middle
    axes reads feature h·64 + d of position s. -/
theorem v5_at (x0 : (⟨S2x2048x1024, .f32⟩ : BufTy).Contents (Elt Ideal)) (w : (⟨S1024x1024, .f32⟩ : BufTy).Contents (Elt Ideal))
    (b : (⟨S1024, .f32⟩ : BufTy).Contents (Elt Ideal)) (n : Fin 2) (h : Fin 16) (s : Fin 2048) (d : Fin 64) :
    val_main_v5 (F := Ideal) x0 w b (ix4 n h s d) = Spec.lin (X x0) (W w) (B b) n s (col h d) := by
  rw [val_main_v5_apply, val_main_v4_apply]
  have e : idx_main_v4 (idx_main_v5 (ix4 n h s d)) = ix3 n s (col h d) := funext fun a => Fin.ext (by
    have hn := n.isLt; have hh := h.isLt; have hs := s.isLt; have hd := d.isLt
    match a with
    | ⟨0, _⟩ => show (((n.val * 2048 + s.val) * 16 + h.val) * 64 + d.val) / 2097152 = n.val; omega
    | ⟨1, _⟩ => show (((n.val * 2048 + s.val) * 16 + h.val) * 64 + d.val) / 1024 % 2048 = s.val; omega
    | ⟨2, _⟩ => show (((n.val * 2048 + s.val) * 16 + h.val) * 64 + d.val) % 1024 = h.val * 64 + d.val; omega)
  rw [e]
  exact v3_at x0 w b n s (col h d)

theorem v11_eq_v5 : @val_main_v11 Ideal _ = @val_main_v5 Ideal _ := rfl
theorem v17_eq_v5 : @val_main_v17 Ideal _ = @val_main_v5 Ideal _ := rfl

/-! ## The scores -/

/-- The score of key position t for query position s in head h: the inner product of the head's 64 lanes. -/
def score (q k : Fin 2 → Fin 2048 → Fin 1024 → EReal) (n : Fin 2) (h : Fin 16) (s t : Fin 2048) : EReal :=
  ∑ e : Fin 64, q n s (col h e) * k n t (col h e)

/-- The batched contraction of the query and key heads over their lanes is the score. -/
theorem v18_at (x0 : (⟨S2x2048x1024, .f32⟩ : BufTy).Contents (Elt Ideal)) (wq : (⟨S1024x1024, .f32⟩ : BufTy).Contents (Elt Ideal))
    (bq : (⟨S1024, .f32⟩ : BufTy).Contents (Elt Ideal)) (wk : (⟨S1024x1024, .f32⟩ : BufTy).Contents (Elt Ideal))
    (bk : (⟨S1024, .f32⟩ : BufTy).Contents (Elt Ideal)) (n : Fin 2) (h : Fin 16) (s t : Fin 2048) :
    val_main_v18 (F := Ideal) x0 wq bq wk bk (ix4 n h s t)
      = score (Spec.lin (X x0) (W wq) (B bq)) (Spec.lin (X x0) (W wk) (B bk)) n h s t := by
  rw [val_main_v18_apply]
  refine Finset.sum_congr rfl fun e _ => ?_
  have el : lidx_main_v18 (ix4 n h s t) e = ix4 n h s e := funext fun a => Fin.ext (by
    match a with
    | ⟨0, _⟩ => rfl
    | ⟨1, _⟩ => rfl
    | ⟨2, _⟩ => rfl
    | ⟨3, _⟩ => rfl)
  have er : ridx_main_v18 (ix4 n h s t) e = ix4 n h t e := funext fun a => Fin.ext (by
    match a with
    | ⟨0, _⟩ => rfl
    | ⟨1, _⟩ => rfl
    | ⟨2, _⟩ => rfl
    | ⟨3, _⟩ => rfl)
  rw [el, er, v11_eq_v5, v5_at, v5_at]

/-! ## The row maxima -/

/-- A position of the [2, 16, 2048] array of maxima with key position k put back on the reduced axis. -/
theorem lift_ix3 (hr : S2x16x2048x2048.Reduces [3] S2x16x2048) (n : Fin 2) (h : Fin 16) (s : Fin 2048)
    (k : Fin (S2x16x2048x2048.size 3)) : hr.lift (ix3 n h s) k = ix4 n h s (⟨k.val, k.isLt⟩ : Fin 2048) := by
  funext c; apply Fin.ext
  fin_cases c <;> rfl

theorem reduces_d3 : S2x16x2048x2048.Reduces [3] S2x16x2048 := by decide

/-- The maximum-reduce over the key axis, started from the −∞ word, is the fold of max over the 2048 scores. -/
theorem v19_at (x0 : (⟨S2x2048x1024, .f32⟩ : BufTy).Contents (Elt Ideal)) (wq : (⟨S1024x1024, .f32⟩ : BufTy).Contents (Elt Ideal))
    (bq : (⟨S1024, .f32⟩ : BufTy).Contents (Elt Ideal)) (wk : (⟨S1024x1024, .f32⟩ : BufTy).Contents (Elt Ideal))
    (bk : (⟨S1024, .f32⟩ : BufTy).Contents (Elt Ideal)) (n : Fin 2) (h : Fin 16) (s : Fin 2048) :
    val_main_v19 (F := Ideal) x0 wq bq wk bk (ix3 n h s)
      = Spec.rowMax (score (Spec.lin (X x0) (W wq) (B bq)) (Spec.lin (X x0) (W wk) (B bk)) n h s) := by
  unfold val_main_v19
  generalize hy : val_main_v18 (F := Ideal) x0 wq bq wk bk = y
  refine (Host.reduce_eq_fold_single (FloatOps.maximumf (F := Ideal) (φ := .f32)) y _
    reducesTo_S2x16x2048x2048_S2x16x2048_d3 reduces_d3 h_S_ (ix3 n h s)).trans ?_
  have hf : (y ∘ reduces_d3.lift (ix3 n h s))
      = fun k : Fin 2048 => score (Spec.lin (X x0) (W wq) (B bq)) (Spec.lin (X x0) (W wk) (B bk)) n h s k :=
    funext fun k => by
      show y (reduces_d3.lift (ix3 n h s) k) = _
      rw [lift_ix3, ← hy]
      exact v18_at x0 wq bq wk bk n h s _
  exact congrArg (fun f => Finset.fold max (Ideal.ofBits .f32 0xFF800000#32) f (Finset.univ : Finset (Fin 2048))) hf

/-- One more maximum with the −∞ word changes nothing: a fold of max lies above the value it starts from. -/
theorem v21_at (x0 : (⟨S2x2048x1024, .f32⟩ : BufTy).Contents (Elt Ideal)) (wq : (⟨S1024x1024, .f32⟩ : BufTy).Contents (Elt Ideal))
    (bq : (⟨S1024, .f32⟩ : BufTy).Contents (Elt Ideal)) (wk : (⟨S1024x1024, .f32⟩ : BufTy).Contents (Elt Ideal))
    (bk : (⟨S1024, .f32⟩ : BufTy).Contents (Elt Ideal)) (n : Fin 2) (h : Fin 16) (s : Fin 2048) :
    val_main_v21 (F := Ideal) x0 wq bq wk bk (ix3 n h s)
      = Spec.rowMax (score (Spec.lin (X x0) (W wq) (B bq)) (Spec.lin (X x0) (W wk) (B bk)) n h s) := by
  rw [val_main_v21_apply, val_main_v20_apply, val_main_cst_0_apply, v19_at]
  exact LibMaxFold.max_start_fold _ _ _

/-! ## The softmax weights -/

/-- The shifted exponential exp(score − row maximum): the maximum, kept as a column, is broadcast back along the keys. -/
theorem v25_at (x0 : (⟨S2x2048x1024, .f32⟩ : BufTy).Contents (Elt Ideal)) (wq : (⟨S1024x1024, .f32⟩ : BufTy).Contents (Elt Ideal))
    (bq : (⟨S1024, .f32⟩ : BufTy).Contents (Elt Ideal)) (wk : (⟨S1024x1024, .f32⟩ : BufTy).Contents (Elt Ideal))
    (bk : (⟨S1024, .f32⟩ : BufTy).Contents (Elt Ideal)) (n : Fin 2) (h : Fin 16) (s t : Fin 2048) :
    val_main_v25 (F := Ideal) x0 wq bq wk bk (ix4 n h s t)
      = Ideal.exp (score (Spec.lin (X x0) (W wq) (B bq)) (Spec.lin (X x0) (W wk) (B bk)) n h s t - Spec.rowMax (score (Spec.lin (X x0) (W wq) (B bq)) (Spec.lin (X x0) (W wk) (B bk)) n h s)) := by
  rw [val_main_v25_apply, val_main_v24_apply, val_main_v23_apply, val_main_v22_apply]
  have e : idx_main_v22 (idx_main_v23 (ix4 n h s t)) = ix3 n h s := funext fun a => Fin.ext (by
    match a with
    | ⟨0, _⟩ => rfl
    | ⟨1, _⟩ => rfl
    | ⟨2, _⟩ => rfl)
  rw [e, v21_at, v18_at]
  rfl

/-- The sum of the shifted exponentials over the keys; the float sum starts from the zero word. -/
theorem v26_at (x0 : (⟨S2x2048x1024, .f32⟩ : BufTy).Contents (Elt Ideal)) (wq : (⟨S1024x1024, .f32⟩ : BufTy).Contents (Elt Ideal))
    (bq : (⟨S1024, .f32⟩ : BufTy).Contents (Elt Ideal)) (wk : (⟨S1024x1024, .f32⟩ : BufTy).Contents (Elt Ideal))
    (bk : (⟨S1024, .f32⟩ : BufTy).Contents (Elt Ideal)) (n : Fin 2) (h : Fin 16) (s : Fin 2048) :
    val_main_v26 (F := Ideal) x0 wq bq wk bk (ix3 n h s)
      = ∑ u : Fin 2048, Ideal.exp (score (Spec.lin (X x0) (W wq) (B bq)) (Spec.lin (X x0) (W wk) (B bk)) n h s u - Spec.rowMax (score (Spec.lin (X x0) (W wq) (B bq)) (Spec.lin (X x0) (W wk) (B bk)) n h s)) := by
  rw [val_main_v26_apply, val_main_cst_1_apply, Ideal.ofBits_def, Ideal.ofBits_zero_f32, zero_add]
  refine Finset.sum_congr rfl fun u _ => ?_
  have e : idx_main_v26 (ix3 n h s) u = ix4 n h s u := funext fun a => Fin.ext (by
    match a with
    | ⟨0, _⟩ => rfl
    | ⟨1, _⟩ => rfl
    | ⟨2, _⟩ => rfl
    | ⟨3, _⟩ => rfl)
  rw [e, v25_at]

/-- The softmax weight of key position t. -/
theorem v29_at (x0 : (⟨S2x2048x1024, .f32⟩ : BufTy).Contents (Elt Ideal)) (wq : (⟨S1024x1024, .f32⟩ : BufTy).Contents (Elt Ideal))
    (bq : (⟨S1024, .f32⟩ : BufTy).Contents (Elt Ideal)) (wk : (⟨S1024x1024, .f32⟩ : BufTy).Contents (Elt Ideal))
    (bk : (⟨S1024, .f32⟩ : BufTy).Contents (Elt Ideal)) (n : Fin 2) (h : Fin 16) (s t : Fin 2048) :
    val_main_v29 (F := Ideal) x0 wq bq wk bk (ix4 n h s t)
      = Ideal.div (Ideal.exp (score (Spec.lin (X x0) (W wq) (B bq)) (Spec.lin (X x0) (W wk) (B bk)) n h s t - Spec.rowMax (score (Spec.lin (X x0) (W wq) (B bq)) (Spec.lin (X x0) (W wk) (B bk)) n h s)))
          (∑ u : Fin 2048, Ideal.exp (score (Spec.lin (X x0) (W wq) (B bq)) (Spec.lin (X x0) (W wk) (B bk)) n h s u - Spec.rowMax (score (Spec.lin (X x0) (W wq) (B bq)) (Spec.lin (X x0) (W wk) (B bk)) n h s))) := by
  rw [val_main_v29_apply, val_main_v28_apply, val_main_v27_apply]
  have e : idx_main_v27 (idx_main_v28 (ix4 n h s t)) = ix3 n h s := funext fun a => Fin.ext (by
    match a with
    | ⟨0, _⟩ => rfl
    | ⟨1, _⟩ => rfl
    | ⟨2, _⟩ => rfl)
  rw [e, v26_at, v25_at]
  rfl

/-! ## The weighted average of the value rows, and the way back to [2, 2048, 1024] -/

/-- Head h, lane d of the output at position s: the weights against lane d of the head's value rows. -/
theorem v30_at (x0 : (⟨S2x2048x1024, .f32⟩ : BufTy).Contents (Elt Ideal)) (wq : (⟨S1024x1024, .f32⟩ : BufTy).Contents (Elt Ideal))
    (bq : (⟨S1024, .f32⟩ : BufTy).Contents (Elt Ideal)) (wk : (⟨S1024x1024, .f32⟩ : BufTy).Contents (Elt Ideal))
    (bk : (⟨S1024, .f32⟩ : BufTy).Contents (Elt Ideal)) (wv : (⟨S1024x1024, .f32⟩ : BufTy).Contents (Elt Ideal)) (bv : (⟨S1024, .f32⟩ : BufTy).Contents (Elt Ideal))
    (n : Fin 2) (h : Fin 16) (s : Fin 2048) (d : Fin 64) :
    val_main_v30 (F := Ideal) x0 wq bq wk bk wv bv (ix4 n h s d)
      = Spec.softmaxAvg (score (Spec.lin (X x0) (W wq) (B bq)) (Spec.lin (X x0) (W wk) (B bk)) n h s) (fun t => Spec.lin (X x0) (W wv) (B bv) n t (col h d)) := by
  rw [val_main_v30_apply]
  refine Finset.sum_congr rfl fun t _ => ?_
  have el : lidx_main_v30 (ix4 n h s d) t = ix4 n h s t := funext fun a => Fin.ext (by
    match a with
    | ⟨0, _⟩ => rfl
    | ⟨1, _⟩ => rfl
    | ⟨2, _⟩ => rfl
    | ⟨3, _⟩ => rfl)
  have er : ridx_main_v30 (ix4 n h s d) t = ix4 n h t d := funext fun a => Fin.ext (by
    match a with
    | ⟨0, _⟩ => rfl
    | ⟨1, _⟩ => rfl
    | ⟨2, _⟩ => rfl
    | ⟨3, _⟩ => rfl)
  rw [el, er, v29_at, v17_eq_v5, v5_at]

/-- The head and the lane of column c. -/
def headOf (c : Fin 1024) : Fin 16 := ⟨c.val / 64, by omega⟩
def laneOf (c : Fin 1024) : Fin 64 := ⟨c.val % 64, Nat.mod_lt _ (by decide)⟩

theorem col_headOf (c : Fin 1024) (e : Fin 64) : col (headOf c) e = Spec.headCol c e := rfl

theorem col_headOf_laneOf (c : Fin 1024) : col (headOf c) (laneOf c) = c :=
  Fin.ext (by show c.val / 64 * 64 + c.val % 64 = c.val; omega)

/-- The exchange of the middle axes back and the reshape to [2, 2048, 1024] read head c / 64, lane c % 64. -/
theorem v32_at (x0 : (⟨S2x2048x1024, .f32⟩ : BufTy).Contents (Elt Ideal)) (wq : (⟨S1024x1024, .f32⟩ : BufTy).Contents (Elt Ideal))
    (bq : (⟨S1024, .f32⟩ : BufTy).Contents (Elt Ideal)) (wk : (⟨S1024x1024, .f32⟩ : BufTy).Contents (Elt Ideal))
    (bk : (⟨S1024, .f32⟩ : BufTy).Contents (Elt Ideal)) (wv : (⟨S1024x1024, .f32⟩ : BufTy).Contents (Elt Ideal)) (bv : (⟨S1024, .f32⟩ : BufTy).Contents (Elt Ideal))
    (n : Fin 2) (s : Fin 2048) (c : Fin 1024) :
    val_main_v32 (F := Ideal) x0 wq bq wk bk wv bv (ix3 n s c)
      = val_main_v30 (F := Ideal) x0 wq bq wk bk wv bv (ix4 n (headOf c) s (laneOf c)) := by
  rw [val_main_v32_apply, val_main_v31_apply]
  refine congrArg _ (funext fun a => Fin.ext ?_)
  have hn := n.isLt; have hs := s.isLt; have hc := c.isLt
  match a with
  | ⟨0, _⟩ => show ((n.val * 2048 + s.val) * 1024 + c.val) / 2097152 = n.val; omega
  | ⟨1, _⟩ => show ((n.val * 2048 + s.val) * 1024 + c.val) / 64 % 16 = c.val / 64; omega
  | ⟨2, _⟩ => show ((n.val * 2048 + s.val) * 1024 + c.val) / 1024 % 2048 = s.val; omega
  | ⟨3, _⟩ => show ((n.val * 2048 + s.val) * 1024 + c.val) % 64 = c.val % 64; omega

/-! ## The reference is the specification -/

/-- The reference program's result is the specification's array. -/
theorem ref_eq (x0 : (⟨S2x2048x1024, .f32⟩ : BufTy).Contents (Elt Ideal)) (wq : (⟨S1024x1024, .f32⟩ : BufTy).Contents (Elt Ideal))
    (bq : (⟨S1024, .f32⟩ : BufTy).Contents (Elt Ideal)) (wk : (⟨S1024x1024, .f32⟩ : BufTy).Contents (Elt Ideal))
    (bk : (⟨S1024, .f32⟩ : BufTy).Contents (Elt Ideal)) (wv : (⟨S1024x1024, .f32⟩ : BufTy).Contents (Elt Ideal)) (bv : (⟨S1024, .f32⟩ : BufTy).Contents (Elt Ideal)) :
    val_main_v32 (F := Ideal) x0 wq bq wk bk wv bv = Spec.GA x0 wq bq wk bk wv bv := by
  funext i
  obtain ⟨n, s, c, rfl⟩ : ∃ (n : Fin 2) (s : Fin 2048) (c : Fin 1024), i = ix3 n s c := ⟨i 0, i 1, i 2, eq_ix3 i⟩
  rw [v32_at, v30_at, col_headOf_laneOf]
  show _ = Spec.G (X x0) (W wq) (B bq) (W wk) (B bk) (W wv) (B bv) n s c
  rfl

/-- The same about the run's result term. -/
theorem ref_res (m : (ℓ : Loc nD τ sig) → Buf (Elt Ideal) ℓ) (c : Dev nD) :
    Cert.ReferenceIdeal.Value.res_main_v32 (F := Ideal) m c
      = Spec.GA (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) := by
  rw [val_main_v32_eq]
  exact ref_eq _ _ _ _ _ _ _

end Cert.RefSpec

end
-- ==== Proof.lean ====
/-
  The certificate's five claims.

  Both programs compute, for every batch entry and position, the softmax-weighted average of the value rows under the
  scores of the position's query row against the key rows, head by head (16 heads of 64 lanes), the three row families
  being linear layers of the input; no scaling, no mask. The kernel does it in two pipelined regions — one packed
  projection [4096, 3072] = x·[wq; wk; wv]ᵀ + [bq; bk; bv], then attention reading that one array through three
  windows (queries, keys, values) — and the reference as three projections, head-split transposes, two batched
  products and a softmax. On the extended reals each side is the same expression tree up to the layout of the indices:
  changes of float format are the identity, a product into a zero accumulator is the sum of products, a row maximum is
  the fold of max from −∞ (the reference's extra maximum with −∞ is absorbed, the fold lying above its start). So both
  results are the specification's array `Cert.Spec.GA` of the arguments; no finiteness is used, and the precondition is
  never opened.

  The frames: the reference is a straight line of host operations; each kernel program runs as host operations,
  region 0, region 1, a host operation, every body a straight line of loads and stores over whole blocks, region 1's
  three input windows sharing thirds of one array's share. The idealization rewrote nothing, so `preserves` is trivial.
-/
import proofs.«143152_j40097814675891_2_alg».proof.Defs
import proofs.«143152_j40097814675891_2_alg».proof.Proof.Gen.Kernel
import proofs.«143152_j40097814675891_2_alg».proof.Proof.Gen.KernelIdeal
import proofs.«143152_j40097814675891_2_alg».proof.Proof.Gen.ReferenceIdeal
import proofs.«143152_j40097814675891_2_alg».proof.Proof.Gen.ReferenceIdeal.Run
import proofs.«143152_j40097814675891_2_alg».proof.Proof.Gen.ReferenceIdeal.Read
import proofs.«143152_j40097814675891_2_alg».proof.Proof.Gen.Pre_finite_inputs
import proofs.«143152_j40097814675891_2_alg».proof.Proof.K.Run
import proofs.«143152_j40097814675891_2_alg».proof.Proof.KI.Value
import proofs.«143152_j40097814675891_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the specification's array of arguments that agree. -/
theorem algebraic : Cert.algebraic_KernelIdeal_ReferenceIdeal := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  obtain ⟨a0, -, a2, a3, a4, a5, a6, a7⟩ := hagree c
  rw [Cert.RefSpec.ref_res, a0, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
